-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S64x1 .f32) (main_arg8 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg7
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1600000 32) (main_arg2 : FVec F S1600000 .f32) (main_arg3 : FVec F S64x64 .f32) (main_arg4 : FVec F S64 .f32) (main_arg5 : FVec F S64x64 .f32) (main_arg6 : FVec F S64 .f32) (main_arg7 : FVec F S64x1 .f32) (main_arg8 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S5000x64 : Shape := ⟨2, ![5000, 64]⟩
abbrev S5000 : Shape := ⟨1, ![5000]⟩
abbrev S5000x1 : Shape := ⟨2, ![5000, 1]⟩
abbrev S1600000x64 : Shape := ⟨2, ![1600000, 64]⟩
abbrev S8000x64 : Shape := ⟨2, ![8000, 64]⟩
abbrev S8000x1 : Shape := ⟨2, ![8000, 1]⟩
abbrev S100000x1 : Shape := ⟨2, ![100000, 1]⟩
abbrev S1x64 : Shape := ⟨2, ![1, 64]⟩
abbrev S1x1 : Shape := ⟨2, ![1, 1]⟩

abbrev nBuf : Space → Nat
  | .hbm => 138
  | .vmem => 64
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S64x64, .f32⟩
  | 4 => ⟨S64, .f32⟩
  | 5 => ⟨S64x64, .f32⟩
  | 6 => ⟨S64, .f32⟩
  | 7 => ⟨S64x1, .f32⟩
  | 8 => ⟨S1, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .i1⟩
  | 20 => ⟨S_, .f32⟩
  | 21 => ⟨S_, .f32⟩
  | 22 => ⟨S100000, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S1600000, .f32⟩
  | 44 => ⟨S_, .f32⟩
  | 45 => ⟨S100000, .f32⟩
  | 46 => ⟨S1600000x1, .i32⟩
  | 47 => ⟨S100000, .f32⟩
  | 48 => ⟨S_, .f32⟩
  | 49 => ⟨S100000, .f32⟩
  | 50 => ⟨S100000, .f32⟩
  | 51 => ⟨S_, .f32⟩
  | 52 => ⟨S100000, .f32⟩
  | 53 => ⟨S100000, .i1⟩
  | 54 => ⟨S100000, .f32⟩
  | 55 => ⟨S_, .f32⟩
  | 56 => ⟨S_, .f32⟩
  | 57 => ⟨S100000, .f32⟩
  | 58 => ⟨S100000, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000, .f32⟩
  | 68 => ⟨S1600000, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000, .f32⟩
  | 78 => ⟨S1600000, .f32⟩
  | 79 => ⟨S100000, .f32⟩
  | 80 => ⟨S100000x64, .f32⟩
  | 81 => ⟨S100000x64, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000x64, .f32⟩
  | 91 => ⟨S1600000x1, .f32⟩
  | 92 => ⟨S1600000x64, .f32⟩
  | 93 => ⟨S_, .f32⟩
  | 94 => ⟨S100000x64, .f32⟩
  | 95 => ⟨S1600000x1, .i32⟩
  | 96 => ⟨S100000x64, .f32⟩
  | 97 => ⟨S100000x1, .f32⟩
  | 98 => ⟨S1x64, .f32⟩
  | 99 => ⟨S100000x64, .f32⟩
  | 100 => ⟨S100000x64, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x64, .f32⟩
  | 110 => ⟨S1600000x1, .f32⟩
  | 111 => ⟨S1600000x64, .f32⟩
  | 112 => ⟨S_, .f32⟩
  | 113 => ⟨S100000x64, .f32⟩
  | 114 => ⟨S1600000x1, .i32⟩
  | 115 => ⟨S100000x64, .f32⟩
  | 116 => ⟨S100000x1, .f32⟩
  | 117 => ⟨S1x64, .f32⟩
  | 118 => ⟨S100000x64, .f32⟩
  | 119 => ⟨S100000x1, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x64, .f32⟩

abbrev hbmTy0_1 (i : Nat) : BufTy := match i % 128 with
  | 0 => ⟨S1600000x1, .f32⟩
  | 1 => ⟨S1600000x1, .f32⟩
  | 2 => ⟨S1600000x1, .f32⟩
  | 3 => ⟨S_, .f32⟩
  | 4 => ⟨S100000x1, .f32⟩
  | 5 => ⟨S1600000x1, .i32⟩
  | 6 => ⟨S100000x1, .f32⟩
  | 7 => ⟨S100000x1, .f32⟩
  | 8 => ⟨S1x1, .f32⟩
  | 9 => ⟨S100000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S8000x64, .f32⟩
  | .local _ .vmem, ⟨10, _⟩ => ⟨S8000x64, .f32⟩
  | .local _ .vmem, ⟨11, _⟩ => ⟨S8000x1, .f32⟩
  | .local _ .vmem, ⟨12, _⟩ => ⟨S8000x1, .f32⟩
  | .local _ .vmem, ⟨13, _⟩ => ⟨S8000x64, .f32⟩
  | .local _ .vmem, ⟨14, _⟩ => ⟨S8000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x1, .f32⟩
  | .local _ .vmem, ⟨20, _⟩ => ⟨S5000x1, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S5000x64, .f32⟩
  | .local _ .vmem, ⟨28, _⟩ => ⟨S5000x64, .f32⟩
  | .local _ .vmem, ⟨29, _⟩ => ⟨S8000x64, .f32⟩
  | .local _ .vmem, ⟨30, _⟩ => ⟨S8000x64, .f32⟩
  | .local _ .vmem, ⟨31, _⟩ => ⟨S8000x1, .f32⟩
  | .local _ .vmem, ⟨32, _⟩ => ⟨S8000x1, .f32⟩
  | .local _ .vmem, ⟨33, _⟩ => ⟨S8000x64, .f32⟩
  | .local _ .vmem, ⟨34, _⟩ => ⟨S8000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x1, .f32⟩
  | .local _ .vmem, ⟨40, _⟩ => ⟨S5000x1, .f32⟩
  | .local _ .vmem, ⟨41, _⟩ => ⟨S1x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S64x1, .f32⟩
  | .local _ .vmem, ⟨47, _⟩ => ⟨S5000x1, .f32⟩
  | .local _ .vmem, ⟨48, _⟩ => ⟨S5000x1, .f32⟩
  | .local _ .vmem, ⟨49, _⟩ => ⟨S8000x1, .f32⟩
  | .local _ .vmem, ⟨50, _⟩ => ⟨S8000x1, .f32⟩
  | .local _ .vmem, ⟨51, _⟩ => ⟨S8000x1, .f32⟩
  | .local _ .vmem, ⟨52, _⟩ => ⟨S8000x1, .f32⟩
  | .local _ .vmem, ⟨53, _⟩ => ⟨S8000x1, .f32⟩
  | .local _ .vmem, ⟨54, _⟩ => ⟨S8000x1, .f32⟩
  | .local _ .vmem, ⟨55, _⟩ => ⟨S5000x1, .f32⟩
  | .local _ .vmem, ⟨56, _⟩ => ⟨S5000x1, .f32⟩
  | .local _ .vmem, ⟨57, _⟩ => ⟨S5000x1, .f32⟩
  | .local _ .vmem, ⟨58, _⟩ => ⟨S5000x1, .f32⟩
  | .local _ .vmem, ⟨59, _⟩ => ⟨S5000x1, .f32⟩
  | .local _ .vmem, ⟨60, _⟩ => ⟨S5000x1, .f32⟩
  | .local _ .vmem, ⟨61, _⟩ => ⟨S1x1, .f32⟩
  | .local _ .vmem, ⟨62, _⟩ => ⟨S5000x1, .f32⟩
  | .local _ .vmem, ⟨63, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_8 : Ref sig .tc := ⟨.hbm, 55, rfl⟩
abbrev main_call1_v0 : Ref sig .tc := ⟨.hbm, 56, rfl⟩
abbrev main_call1_v1 : Ref sig .tc := ⟨.hbm, 57, rfl⟩
abbrev main_v34 : Ref sig .tc := ⟨.hbm, 58, rfl⟩
abbrev main_c_9 : Ref sig .tc := ⟨.hbm, 59, rfl⟩
abbrev main_v35 : Ref sig .tc := ⟨.hbm, 60, rfl⟩
abbrev main_v36 : Ref sig .tc := ⟨.hbm, 61, rfl⟩
abbrev main_c_10 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_11 : Ref sig .tc := ⟨.hbm, 69, rfl⟩
abbrev main_v43 : Ref sig .tc := ⟨.hbm, 70, rfl⟩
abbrev main_v44 : Ref sig .tc := ⟨.hbm, 71, rfl⟩
abbrev main_c_12 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_13 : Ref sig .tc := ⟨.hbm, 82, rfl⟩
abbrev main_v54 : Ref sig .tc := ⟨.hbm, 83, rfl⟩
abbrev main_v55 : Ref sig .tc := ⟨.hbm, 84, rfl⟩
abbrev main_c_14 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_15 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_16 : Ref sig .tc := ⟨.hbm, 101, rfl⟩
abbrev main_v70 : Ref sig .tc := ⟨.hbm, 102, rfl⟩
abbrev main_v71 : Ref sig .tc := ⟨.hbm, 103, rfl⟩
abbrev main_c_17 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_18 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_c_19 : Ref sig .tc := ⟨.hbm, 120, rfl⟩
abbrev main_v86 : Ref sig .tc := ⟨.hbm, 121, rfl⟩
abbrev main_v87 : Ref sig .tc := ⟨.hbm, 122, rfl⟩
abbrev main_c_20 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_21 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg2_1 : Ref sig .tc := ⟨.vmem, 34, rfl⟩
abbrev cc6_stg0_0 : Ref sig .tc := ⟨.vmem, 35, rfl⟩
abbrev cc6_stg0_1 : Ref sig .tc := ⟨.vmem, 36, rfl⟩
abbrev cc6_stg1_0 : Ref sig .tc := ⟨.vmem, 37, rfl⟩
abbrev cc6_stg1_1 : Ref sig .tc := ⟨.vmem, 38, rfl⟩
abbrev cc6_stg2_0 : Ref sig .tc := ⟨.vmem, 39, rfl⟩
abbrev cc6_stg2_1 : Ref sig .tc := ⟨.vmem, 40, rfl⟩
abbrev cc6_stg3_0 : Ref sig .tc := ⟨.vmem, 41, rfl⟩
abbrev cc6_stg4_0 : Ref sig .tc := ⟨.vmem, 42, rfl⟩
abbrev cc6_stg4_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg2_0 : Ref sig .tc := ⟨.vmem, 47, rfl⟩
abbrev cc7_stg2_1 : Ref sig .tc := ⟨.vmem, 48, rfl⟩
abbrev cc8_stg0_0 : Ref sig .tc := ⟨.vmem, 49, rfl⟩
abbrev cc8_stg0_1 : Ref sig .tc := ⟨.vmem, 50, rfl⟩
abbrev cc8_stg1_0 : Ref sig .tc := ⟨.vmem, 51, rfl⟩
abbrev cc8_stg1_1 : Ref sig .tc := ⟨.vmem, 52, rfl⟩
abbrev cc8_stg2_0 : Ref sig .tc := ⟨.vmem, 53, rfl⟩
abbrev cc8_stg2_1 : Ref sig .tc := ⟨.vmem, 54, rfl⟩
abbrev cc9_stg0_0 : Ref sig .tc := ⟨.vmem, 55, rfl⟩
abbrev cc9_stg0_1 : Ref sig .tc := ⟨.vmem, 56, rfl⟩
abbrev cc9_stg1_0 : Ref sig .tc := ⟨.vmem, 57, rfl⟩
abbrev cc9_stg1_1 : Ref sig .tc := ⟨.vmem, 58, rfl⟩
abbrev cc9_stg2_0 : Ref sig .tc := ⟨.vmem, 59, rfl⟩
abbrev cc9_stg2_1 : Ref sig .tc := ⟨.vmem, 60, rfl⟩
abbrev cc9_stg3_0 : Ref sig .tc := ⟨.vmem, 61, rfl⟩
abbrev cc9_stg4_0 : Ref sig .tc := ⟨.vmem, 62, rfl⟩
abbrev cc9_stg4_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem4_0 : DmaSem sig := 22
abbrev cc3_sem4_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem2_1 : DmaSem sig := 34
abbrev cc6_sem0_0 : DmaSem sig := 35
abbrev cc6_sem0_1 : DmaSem sig := 36
abbrev cc6_sem1_0 : DmaSem sig := 37
abbrev cc6_sem1_1 : DmaSem sig := 38
abbrev cc6_sem2_0 : DmaSem sig := 39
abbrev cc6_sem2_1 : DmaSem sig := 40
abbrev cc6_sem3_0 : DmaSem sig := 41
abbrev cc6_sem4_0 : DmaSem sig := 42
abbrev cc6_sem4_1 : DmaSem sig := 43
abbrev cc7_sem0_0 : DmaSem sig := 44
abbrev cc7_sem0_1 : DmaSem sig := 45
abbrev cc7_sem1_0 : DmaSem sig := 46
abbrev cc7_sem2_0 : DmaSem sig := 47
abbrev cc7_sem2_1 : DmaSem sig := 48
abbrev cc8_sem0_0 : DmaSem sig := 49
abbrev cc8_sem0_1 : DmaSem sig := 50
abbrev cc8_sem1_0 : DmaSem sig := 51
abbrev cc8_sem1_1 : DmaSem sig := 52
abbrev cc8_sem2_0 : DmaSem sig := 53
abbrev cc8_sem2_1 : DmaSem sig := 54
abbrev cc9_sem0_0 : DmaSem sig := 55
abbrev cc9_sem0_1 : DmaSem sig := 56
abbrev cc9_sem1_0 : DmaSem sig := 57
abbrev cc9_sem1_1 : DmaSem sig := 58
abbrev cc9_sem2_0 : DmaSem sig := 59
abbrev cc9_sem2_1 : DmaSem sig := 60
abbrev cc9_sem3_0 : DmaSem sig := 61
abbrev cc9_sem4_0 : DmaSem sig := 62
abbrev cc9_sem4_1 : DmaSem sig := 63

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![200], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![200], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8000x1 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S8000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S8000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x1 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S1x1 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S5000x1 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  inb_S5000x64_S5000x64_0_0 : ∀ a, (![0, 0] : Fin 2 → Nat) a + S5000x64.size a ≤ S5000x64.size a
  h_S5000x64 : 0 < S5000x64.numel
  reduces_S5000x64_S5000 : S5000x64.Reduces [1] S5000
  shapeCasts_S5000_S5000x1 : S5000.ShapeCasts S5000x1
  broadcasts_S5000x1_S5000x64 : S5000x1.Broadcasts S5000x64
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S1600000_S1600000x1 : S1600000.ShapeCasts S1600000x1
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x64 : S8000x1.Broadcasts S8000x64
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  bcast_S_S100000x1 : S_.BroadcastsInDim S100000x1 (![] : Fin 0 → Fin S100000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x1_S5000x1_1_0_0_1_n_n_wf : DotDims.WF S5000x64 S64x1 S5000x1 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S1600000x64.size a
  hwx2_0 : ∀ i : grid2.Coords, EltTy.bits .f32 = 32 ∨ (Rect.block (s := S1600000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x1.size a ≤ S1600000x1.size a
  hwx2_1 : ∀ i : grid2.Coords, EltTy.bits .f32 = 32 ∨ (Rect.block (s := S1600000x1) S8000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x64.size a ≤ S1600000x64.size a
  hwx2_2 : ∀ i : grid2.Coords, EltTy.bits .f32 = 32 ∨ (Rect.block (s := S1600000x64) S8000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x64.size a ≤ S1600000x64.size a
  hwx5_0 : ∀ i : grid5.Coords, EltTy.bits .f32 = 32 ∨ (Rect.block (s := S1600000x64) S8000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x1.size a ≤ S1600000x1.size a
  hwx5_1 : ∀ i : grid5.Coords, EltTy.bits .f32 = 32 ∨ (Rect.block (s := S1600000x1) S8000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8000x64.size a ≤ S1600000x64.size a
  hwx5_2 : ∀ i : grid5.Coords, EltTy.bits .f32 = 32 ∨ (Rect.block (s := S1600000x64) S8000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S100000x64.size a
  hwx6_1 : ∀ i : grid6.Coords, EltTy.bits .f32 = 32 ∨ (Rect.block (s := S100000x64) S5000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S100000x1.size a
  hwx6_2 : ∀ i : grid6.Coords, EltTy.bits .f32 = 32 ∨ (Rect.block (s := S100000x1) S5000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x64.size a ≤ S100000x64.size a
  hwx6_4 : ∀ i : grid6.Coords, EltTy.bits .f32 = 32 ∨ (Rect.block (s := S100000x64) S5000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x1.size a ≤ S64x1.size a
  hwx7_1 : ∀ i : grid7.Coords, EltTy.bits .f32 = 32 ∨ (Rect.block (s := S64x1) S64x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .f32 = 32 ∨ (Rect.block (s := S100000x1) S5000x1.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S8000x1.size a ≤ S1600000x1.size a
  hwx8_0 : ∀ i : grid8.Coords, EltTy.bits .f32 = 32 ∨ (Rect.block (s := S1600000x1) S8000x1.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S8000x1.size a ≤ S1600000x1.size a
  hwx8_1 : ∀ i : grid8.Coords, EltTy.bits .f32 = 32 ∨ (Rect.block (s := S1600000x1) S8000x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S8000x1.size a ≤ S1600000x1.size a
  hwx8_2 : ∀ i : grid8.Coords, EltTy.bits .f32 = 32 ∨ (Rect.block (s := S1600000x1) S8000x1.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x1.size a ≤ S100000x1.size a
  hwx9_0 : ∀ i : grid9.Coords, EltTy.bits .f32 = 32 ∨ (Rect.block (s := S100000x1) S5000x1.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x1.size a ≤ S100000x1.size a
  hwx9_1 : ∀ i : grid9.Coords, EltTy.bits .f32 = 32 ∨ (Rect.block (s := S100000x1) S5000x1.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x1.size a ≤ S100000x1.size a
  hwx9_2 : ∀ i : grid9.Coords, EltTy.bits .f32 = 32 ∨ (Rect.block (s := S100000x1) S5000x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x1.size a ≤ S1x1.size a
  hwx9_3 : ∀ i : grid9.Coords, EltTy.bits .f32 = 32 ∨ (Rect.block (s := S1x1) S1x1.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x1.size a ≤ S100000x1.size a
  hwx9_4 : ∀ i : grid9.Coords, EltTy.bits .f32 = 32 ∨ (Rect.block (s := S100000x1) S5000x1.size (cc9_transform_4 i) (hinb9_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S5000x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v52) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v60) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S8000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S8000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v66) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v68) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v69) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S8000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S8000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v78) S8000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v81) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v69) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v82) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v83) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v84) S5000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v84) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg7) S64x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v85) S5000x1.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v92) S8000x1.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v93) S8000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v94) S8000x1.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v97) S5000x1.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v85) S5000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v98) S5000x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v99) S1x1.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v100) S5000x1.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1700000 : Shape := ⟨1, ![1700000]⟩
abbrev S1700000x1 : Shape := ⟨2, ![1700000, 1]⟩
abbrev S100000x1 : Shape := ⟨2, ![100000, 1]⟩
abbrev S1700000x64 : Shape := ⟨2, ![1700000, 64]⟩
abbrev S1x64 : Shape := ⟨2, ![1, 64]⟩
abbrev S1x1 : Shape := ⟨2, ![1, 1]⟩

abbrev nBuf : Space → Nat
  | .hbm => 152
  | .vmem => 0
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S64x64, .f32⟩
  | 4 => ⟨S64, .f32⟩
  | 5 => ⟨S64x64, .f32⟩
  | 6 => ⟨S64, .f32⟩
  | 7 => ⟨S64x1, .f32⟩
  | 8 => ⟨S1, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .i1⟩
  | 20 => ⟨S_, .f32⟩
  | 21 => ⟨S_, .f32⟩
  | 22 => ⟨S100000, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S1600000, .f32⟩
  | 44 => ⟨S100000, .i32⟩
  | 45 => ⟨S1700000, .i32⟩
  | 46 => ⟨S1700000, .i32⟩
  | 47 => ⟨S_, .f32⟩
  | 48 => ⟨S100000, .f32⟩
  | 49 => ⟨S1700000, .f32⟩
  | 50 => ⟨S_, .f32⟩
  | 51 => ⟨S100000, .f32⟩
  | 52 => ⟨S1700000x1, .i32⟩
  | 53 => ⟨S100000, .f32⟩
  | 54 => ⟨S_, .f32⟩
  | 55 => ⟨S100000, .f32⟩
  | 56 => ⟨S100000, .i1⟩
  | 57 => ⟨S100000, .f32⟩
  | 58 => ⟨S_, .f32⟩
  | 59 => ⟨S_, .f32⟩
  | 60 => ⟨S100000, .f32⟩
  | 61 => ⟨S100000, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000, .f32⟩
  | 71 => ⟨S1700000, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000, .f32⟩
  | 81 => ⟨S1700000, .f32⟩
  | 82 => ⟨S_, .f32⟩
  | 83 => ⟨S100000, .f32⟩
  | 84 => ⟨S100000x1, .f32⟩
  | 85 => ⟨S100000x64, .f32⟩
  | 86 => ⟨S100000x64, .f32⟩
  | 87 => ⟨S100000x64, .f32⟩
  | 88 => ⟨S1700000x1, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000x64, .f32⟩
  | 98 => ⟨S1700000x64, .f32⟩
  | 99 => ⟨S1700000x64, .f32⟩
  | 100 => ⟨S_, .f32⟩
  | 101 => ⟨S100000x64, .f32⟩
  | 102 => ⟨S1700000x1, .i32⟩
  | 103 => ⟨S100000x64, .f32⟩
  | 104 => ⟨S1x64, .f32⟩
  | 105 => ⟨S100000x64, .f32⟩
  | 106 => ⟨S100000x64, .f32⟩
  | 107 => ⟨S_, .f32⟩
  | 108 => ⟨S100000x64, .f32⟩
  | 109 => ⟨S100000x64, .f32⟩
  | 110 => ⟨S100000x64, .f32⟩
  | 111 => ⟨S1700000x1, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x64, .f32⟩
  | 121 => ⟨S1700000x64, .f32⟩
  | 122 => ⟨S1700000x64, .f32⟩
  | 123 => ⟨S_, .f32⟩
  | 124 => ⟨S100000x64, .f32⟩
  | 125 => ⟨S1700000x1, .i32⟩
  | 126 => ⟨S100000x64, .f32⟩
  | 127 => ⟨S1x64, .f32⟩
  | _ => ⟨S100000x64, .f32⟩

abbrev hbmTy0_1 (i : Nat) : BufTy := match i % 128 with
  | 0 => ⟨S100000x64, .f32⟩
  | 1 => ⟨S100000x64, .f32⟩
  | 2 => ⟨S_, .f32⟩
  | 3 => ⟨S100000x64, .f32⟩
  | 4 => ⟨S100000x64, .f32⟩
  | 5 => ⟨S100000x1, .f32⟩
  | 6 => ⟨S1700000x1, .f32⟩
  | 7 => ⟨S_, .i32⟩
  | 8 => ⟨S1700000, .i32⟩
  | 9 => ⟨S1700000, .i1⟩
  | 10 => ⟨S_, .i32⟩
  | 11 => ⟨S1700000, .i32⟩
  | 12 => ⟨S1700000, .i32⟩
  | 13 => ⟨S1700000, .i32⟩
  | 14 => ⟨S1700000x1, .i32⟩
  | 15 => ⟨S1700000x1, .f32⟩
  | 16 => ⟨S1700000x1, .f32⟩
  | 17 => ⟨S_, .f32⟩
  | 18 => ⟨S100000x1, .f32⟩
  | 19 => ⟨S1700000x1, .i32⟩
  | 20 => ⟨S100000x1, .f32⟩
  | 21 => ⟨S1x1, .f32⟩
  | 22 => ⟨S100000x1, .f32⟩
  | 23 => ⟨S100000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_call1_v0 : Ref sig .tc := ⟨.hbm, 59, rfl⟩
abbrev main_call1_v1 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_c_10 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_11 : Ref sig .tc := ⟨.hbm, 72, rfl⟩
abbrev main_v46 : Ref sig .tc := ⟨.hbm, 73, rfl⟩
abbrev main_v47 : Ref sig .tc := ⟨.hbm, 74, rfl⟩
abbrev main_c_12 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_13 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_14 : Ref sig .tc := ⟨.hbm, 89, rfl⟩
abbrev main_v60 : Ref sig .tc := ⟨.hbm, 90, rfl⟩
abbrev main_v61 : Ref sig .tc := ⟨.hbm, 91, rfl⟩
abbrev main_c_15 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_call2_cst : Ref sig .tc := ⟨.hbm, 107, rfl⟩
abbrev main_call2_v0 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_c_17 : Ref sig .tc := ⟨.hbm, 112, rfl⟩
abbrev main_v78 : Ref sig .tc := ⟨.hbm, 113, rfl⟩
abbrev main_v79 : Ref sig .tc := ⟨.hbm, 114, rfl⟩
abbrev main_c_18 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_19 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_call3_cst : Ref sig .tc := ⟨.hbm, 130, rfl⟩
abbrev main_call3_v0 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_c_20 : Ref sig .tc := ⟨.hbm, 135, rfl⟩
abbrev main_v96 : Ref sig .tc := ⟨.hbm, 136, rfl⟩
abbrev main_v97 : Ref sig .tc := ⟨.hbm, 137, rfl⟩
abbrev main_c_21 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_22 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  concatenates_S1600000_S100000_S1700000_d0 : Shape.Concatenates [S1600000, S100000] S1700000 0
  bcast_S1700000_S1700000x1_0 : S1700000.BroadcastsInDim S1700000x1 (![0] : Fin 1 → Fin S1700000x1.rank)
  bcast_S_S1700000 : S_.BroadcastsInDim S1700000 (![] : Fin 0 → Fin S1700000.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x1_S100000x1_1_0_0_1_n_n_wf : DotDims.WF S100000x64 S64x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.KRun.lean ====
/-
  The idealized kernel's run with its result buffer named.

  The generated frame runs @main's twenty-one segments (eleven stretches of host operations and ten kernel regions)
  and reads, in the final state, every unscoped buffer at the last boundary's contents. Reading one more buffer there —
  the result array — gives the run whose post names the result: it ends at the last boundary's contents of the result
  buffer, and the arguments end as launched.
-/
import proofs.«117865_j31619549233339_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of @main with the result named: every weakly fair execution terminates, nothing faulting; the result buffer
    ends at the last boundary's contents and every argument as launched. -/
theorem run_named : θ_run defs (onTc (τ := τ) (main (F := F))) ⟨m, fun _ => 0, ρ⟩ (fun r => ∀ c : Dev nD,
      r.2.mem ((c.tc : Thread nD τ).loc main_v100) = W21 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v100 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c)⟩)

end Cert.KernelIdeal.KRun

end
-- ==== Proof.KKeep.lean ====
/-
  Which buffers each stretch of host operations of the idealized kernel's @main writes, and that every other buffer
  keeps its contents across the stretch.

  A stretch is a list of operations, each writing one buffer. A buffer that is not in the list of the stretch's result
  buffers holds after the stretch what it held before it. Membership of a reference in such a list is decidable, so for a
  concrete buffer the side condition closes by evaluation.
-/
import proofs.«117865_j31619549233339_2_alg».proof.Proof.Gen.KernelIdeal.Frame

set_option maxRecDepth 16384

noncomputable section

namespace Cert.KernelIdeal.KKeep

open Cert.KernelIdeal Cert.KernelIdeal.Gen
open Idealize.ShloMosaic Idealize.ShloMosaic.TcCoe Idealize.SL.Sem

variable {F : FTy → Type} [FloatOps F]

/-- The result buffers of the stretch `hostOps0`. -/
def wr0 : List (Ref sig .tc) := [main_v0, main_v1, main_v2, main_v3, main_cst, main_v4, main_v5, main_v6, main_cst_0, main_v7, main_v8, main_cst_1]
theorem hW0 : (hostOps0 : List (HloOp τ sig (Elt F))).Forall fun op => op.writes ⊆ ((wr0).map (Proc.devRef (τ := τ) .tc)).toFinset := by
  simp only [hostOps0, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map.mpr ⟨_, by decide, rfl⟩
/-- A buffer the stretch does not write keeps its contents. -/
theorem keep0 (W : Valuation τ sig (Elt F)) (r : Ref sig .tc) (hr : r ∉ wr0) :
    StableHlo.after (hostOps0 : List (HloOp τ sig (Elt F))) W (Proc.devRef .tc r) = W (Proc.devRef .tc r) :=
  StableHlo.after_of_writes_sub _ W hW0 hr

/-- The result buffers of the stretch `hostOps0_1`. -/
def wr0_1 : List (Ref sig .tc) := [main_call0_v0, main_call0_v1, main_v9]
theorem hW0_1 : (hostOps0_1 : List (HloOp τ sig (Elt F))).Forall fun op => op.writes ⊆ ((wr0_1).map (Proc.devRef (τ := τ) .tc)).toFinset := by
  simp only [hostOps0_1, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map.mpr ⟨_, by decide, rfl⟩
/-- A buffer the stretch does not write keeps its contents. -/
theorem keep0_1 (W : Valuation τ sig (Elt F)) (r : Ref sig .tc) (hr : r ∉ wr0_1) :
    StableHlo.after (hostOps0_1 : List (HloOp τ sig (Elt F))) W (Proc.devRef .tc r) = W (Proc.devRef .tc r) :=
  StableHlo.after_of_writes_sub _ W hW0_1 hr

/-- The result buffers of the stretch `hostOps0_2`. -/
def wr0_2 : List (Ref sig .tc) := [main_c, main_v10, main_v11, main_c_2, main_v12, main_v13, main_v14, main_v15, main_v16, main_c_3, main_v17, main_v18, main_c_4, main_v19, main_v20, main_v21, main_v22, main_v23, main_v24, main_v25, main_cst_5, main_v26, main_v27, main_v28, main_cst_6, main_v29, main_v30, main_cst_7, main_v31, main_v32, main_v33, main_cst_8]
theorem hW0_2 : (hostOps0_2 : List (HloOp τ sig (Elt F))).Forall fun op => op.writes ⊆ ((wr0_2).map (Proc.devRef (τ := τ) .tc)).toFinset := by
  simp only [hostOps0_2, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map.mpr ⟨_, by decide, rfl⟩
/-- A buffer the stretch does not write keeps its contents. -/
theorem keep0_2 (W : Valuation τ sig (Elt F)) (r : Ref sig .tc) (hr : r ∉ wr0_2) :
    StableHlo.after (hostOps0_2 : List (HloOp τ sig (Elt F))) W (Proc.devRef .tc r) = W (Proc.devRef .tc r) :=
  StableHlo.after_of_writes_sub _ W hW0_2 hr

/-- The result buffers of the stretch `hostOps0_3`. -/
def wr0_3 : List (Ref sig .tc) := [main_call1_v0, main_call1_v1, main_v34]
theorem hW0_3 : (hostOps0_3 : List (HloOp τ sig (Elt F))).Forall fun op => op.writes ⊆ ((wr0_3).map (Proc.devRef (τ := τ) .tc)).toFinset := by
  simp only [hostOps0_3, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map.mpr ⟨_, by decide, rfl⟩
/-- A buffer the stretch does not write keeps its contents. -/
theorem keep0_3 (W : Valuation τ sig (Elt F)) (r : Ref sig .tc) (hr : r ∉ wr0_3) :
    StableHlo.after (hostOps0_3 : List (HloOp τ sig (Elt F))) W (Proc.devRef .tc r) = W (Proc.devRef .tc r) :=
  StableHlo.after_of_writes_sub _ W hW0_3 hr

/-- The result buffers of the stretch `hostOps0_4`. -/
def wr0_4 : List (Ref sig .tc) := [main_c_9, main_v35, main_v36, main_c_10, main_v37, main_v38, main_v39, main_v40, main_v41, main_v42, main_c_11, main_v43, main_v44, main_c_12, main_v45, main_v46, main_v47, main_v48, main_v49, main_v50, main_v51]
theorem hW0_4 : (hostOps0_4 : List (HloOp τ sig (Elt F))).Forall fun op => op.writes ⊆ ((wr0_4).map (Proc.devRef (τ := τ) .tc)).toFinset := by
  simp only [hostOps0_4, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map.mpr ⟨_, by decide, rfl⟩
/-- A buffer the stretch does not write keeps its contents. -/
theorem keep0_4 (W : Valuation τ sig (Elt F)) (r : Ref sig .tc) (hr : r ∉ wr0_4) :
    StableHlo.after (hostOps0_4 : List (HloOp τ sig (Elt F))) W (Proc.devRef .tc r) = W (Proc.devRef .tc r) :=
  StableHlo.after_of_writes_sub _ W hW0_4 hr

/-- The result buffers of the stretch `hostOps2`. -/
def wr2 : List (Ref sig .tc) := [main_c_13, main_v54, main_v55, main_c_14, main_v56, main_v57, main_v58, main_v59, main_v60, main_v61]
theorem hW2 : (hostOps2 : List (HloOp τ sig (Elt F))).Forall fun op => op.writes ⊆ ((wr2).map (Proc.devRef (τ := τ) .tc)).toFinset := by
  simp only [hostOps2, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map.mpr ⟨_, by decide, rfl⟩
/-- A buffer the stretch does not write keeps its contents. -/
theorem keep2 (W : Valuation τ sig (Elt F)) (r : Ref sig .tc) (hr : r ∉ wr2) :
    StableHlo.after (hostOps2 : List (HloOp τ sig (Elt F))) W (Proc.devRef .tc r) = W (Proc.devRef .tc r) :=
  StableHlo.after_of_writes_sub _ W hW2 hr

/-- The result buffers of the stretch `hostOps3`. -/
def wr3 : List (Ref sig .tc) := [main_cst_15, main_v63, main_v64, main_v65, main_v66, main_v67]
theorem hW3 : (hostOps3 : List (HloOp τ sig (Elt F))).Forall fun op => op.writes ⊆ ((wr3).map (Proc.devRef (τ := τ) .tc)).toFinset := by
  simp only [hostOps3, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map.mpr ⟨_, by decide, rfl⟩
/-- A buffer the stretch does not write keeps its contents. -/
theorem keep3 (W : Valuation τ sig (Elt F)) (r : Ref sig .tc) (hr : r ∉ wr3) :
    StableHlo.after (hostOps3 : List (HloOp τ sig (Elt F))) W (Proc.devRef .tc r) = W (Proc.devRef .tc r) :=
  StableHlo.after_of_writes_sub _ W hW3 hr

/-- The result buffers of the stretch `hostOps5`. -/
def wr5 : List (Ref sig .tc) := [main_c_16, main_v70, main_v71, main_c_17, main_v72, main_v73, main_v74, main_v75, main_v76, main_v77]
theorem hW5 : (hostOps5 : List (HloOp τ sig (Elt F))).Forall fun op => op.writes ⊆ ((wr5).map (Proc.devRef (τ := τ) .tc)).toFinset := by
  simp only [hostOps5, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map.mpr ⟨_, by decide, rfl⟩
/-- A buffer the stretch does not write keeps its contents. -/
theorem keep5 (W : Valuation τ sig (Elt F)) (r : Ref sig .tc) (hr : r ∉ wr5) :
    StableHlo.after (hostOps5 : List (HloOp τ sig (Elt F))) W (Proc.devRef .tc r) = W (Proc.devRef .tc r) :=
  StableHlo.after_of_writes_sub _ W hW5 hr

/-- The result buffers of the stretch `hostOps6`. -/
def wr6 : List (Ref sig .tc) := [main_cst_18, main_v79, main_v80, main_v81, main_v82, main_v83]
theorem hW6 : (hostOps6 : List (HloOp τ sig (Elt F))).Forall fun op => op.writes ⊆ ((wr6).map (Proc.devRef (τ := τ) .tc)).toFinset := by
  simp only [hostOps6, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map.mpr ⟨_, by decide, rfl⟩
/-- A buffer the stretch does not write keeps its contents. -/
theorem keep6 (W : Valuation τ sig (Elt F)) (r : Ref sig .tc) (hr : r ∉ wr6) :
    StableHlo.after (hostOps6 : List (HloOp τ sig (Elt F))) W (Proc.devRef .tc r) = W (Proc.devRef .tc r) :=
  StableHlo.after_of_writes_sub _ W hW6 hr

/-- The result buffers of the stretch `hostOps8`. -/
def wr8 : List (Ref sig .tc) := [main_c_19, main_v86, main_v87, main_c_20, main_v88, main_v89, main_v90, main_v91, main_v92, main_v93]
theorem hW8 : (hostOps8 : List (HloOp τ sig (Elt F))).Forall fun op => op.writes ⊆ ((wr8).map (Proc.devRef (τ := τ) .tc)).toFinset := by
  simp only [hostOps8, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map.mpr ⟨_, by decide, rfl⟩
/-- A buffer the stretch does not write keeps its contents. -/
theorem keep8 (W : Valuation τ sig (Elt F)) (r : Ref sig .tc) (hr : r ∉ wr8) :
    StableHlo.after (hostOps8 : List (HloOp τ sig (Elt F))) W (Proc.devRef .tc r) = W (Proc.devRef .tc r) :=
  StableHlo.after_of_writes_sub _ W hW8 hr

/-- The result buffers of the stretch `hostOps9`. -/
def wr9 : List (Ref sig .tc) := [main_cst_21, main_v95, main_v96, main_v97, main_v98, main_v99]
theorem hW9 : (hostOps9 : List (HloOp τ sig (Elt F))).Forall fun op => op.writes ⊆ ((wr9).map (Proc.devRef (τ := τ) .tc)).toFinset := by
  simp only [hostOps9, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map.mpr ⟨_, by decide, rfl⟩
/-- A buffer the stretch does not write keeps its contents. -/
theorem keep9 (W : Valuation τ sig (Elt F)) (r : Ref sig .tc) (hr : r ∉ wr9) :
    StableHlo.after (hostOps9 : List (HloOp τ sig (Elt F))) W (Proc.devRef .tc r) = W (Proc.devRef .tc r) :=
  StableHlo.after_of_writes_sub _ W hW9 hr

end Cert.KernelIdeal.KKeep

end
-- ==== Proof.KVal.lean ====
/-
  The idealized kernel's host-side quantities as functions of the argument arrays.

  The kernel and the reference start with the same host operations: the source and destination entries of the edge list,
  the row degrees and the normalised edge weights (each weight divided by the product of the guarded row degrees of its
  two ends). Those stages are the reference's own. From there the kernel goes its own way: its node degree is the
  segment sum of the normalised weights over the destinations plus one (the self-loop's weight), the node factor is the
  guarded reciprocal square root of that degree, the per-edge coefficient is the factor at the source times the weight
  times the factor at the destination, and the self-loop coefficient is the factor squared.
-/
import proofs.«117865_j31619549233339_2_alg».proof.Proof.Gen.KernelIdeal
import proofs.«117865_j31619549233339_2_alg».proof.Proof.Gen.ReferenceIdeal.Read

noncomputable section

namespace Cert.KVal

open Idealize.ShloMosaic Cert.KernelIdeal Cert.KernelIdeal.Gen

/-- Contents of a float array of shape `S` at the exact-arithmetic instance. -/
abbrev FA (S : Shape) := FVec Ideal S .f32
/-- Contents of a 32-bit integer array of shape `S`. -/
abbrev IA (S : Shape) := IVec S 32

variable (x1 : IA S2x1600000) (x2 : FA S1600000)

/-- The edges' source entries. -/
def src : IA S1600000 := Cert.ReferenceIdeal.Read.val_main_v1 (F := Ideal) x1
/-- The edges' destination entries. -/
def dst : IA S1600000 := Cert.ReferenceIdeal.Read.val_main_v3 (F := Ideal) x1
/-- The normalised edge weights. -/
def what : FA S1600000 := Cert.ReferenceIdeal.Read.val_main_v25 (F := Ideal) x1 x2

/-- A vector of entries as the one-column table a gather or a scatter reads. -/
def col (r : IA S1600000) : IA S1600000x1 := broadcastInDim S1600000x1 ![0] bcast_S1600000_S1600000x1_0 r
/-- A negative entry counts from the end: the node count is added to it. -/
def wrap (r : IA S1600000) : IA S1600000 :=
  select (cmpi .slt r (broadcastInDim S1600000 ![] bcast_S_S1600000 (constantI S_ 32 0#32)))
    (addi r (broadcastInDim S1600000 ![] bcast_S_S1600000 (constantI S_ 32 100000#32))) r
/-- The all-zero node vector. -/
def zeroN : FA S100000 := broadcastInDim S100000 ![] bcast_S_S100000 (constant (F := Ideal) S_ .f32 0x00000000#32)
/-- The all-one node vector. -/
def oneN : FA S100000 := broadcastInDim S100000 ![] bcast_S_S100000 (constant (F := Ideal) S_ .f32 0x3F800000#32)
/-- A node vector read along the edges at (wrapped) entries. -/
def gatherN (v : FA S100000) (r : IA S1600000) : FA S1600000 :=
  Host.gather gather_S100000_S1600000x1_S1600000_n_0_n_n_0_1_1 v (col (wrap r))

/-- The node degree: the normalised weights summed per destination, plus the self-loop's one. -/
def deg : FA S100000 :=
  addf (Host.scatterAdd scatter_S100000_S1600000x1_S1600000_n_0_0_1 zeroN (col (dst x1)) (what x1 x2)) oneN
/-- The node factor: the reciprocal square root of a positive degree, zero otherwise. -/
def dinv : FA S100000 :=
  select (cmpf .ogt (deg x1 x2) zeroN) (Host.rsqrt (deg x1 x2))
    (broadcastInDim S100000 ![] bcast_S_S100000 (id (constant (F := Ideal) S_ .f32 0x00000000#32)))
/-- The per-edge coefficient: factor at the source, times the weight, times the factor at the destination. -/
def norm : FA S1600000 :=
  mulf (mulf (gatherN (dinv x1 x2) (src x1)) (what x1 x2)) (gatherN (dinv x1 x2) (dst x1))
/-- The self-loop coefficient: the node factor squared. -/
def dinv2 : FA S100000 := mulf (dinv x1 x2) (dinv x1 x2)

/-- The all-zero node array with 64 columns. -/
def zeroN64 : FA S100000x64 := broadcastInDim S100000x64 ![] bcast_S_S100000x64 (constant (F := Ideal) S_ .f32 0x00000000#32)
/-- The all-zero node array with one column. -/
def zeroN1 : FA S100000x1 := broadcastInDim S100000x1 ![] bcast_S_S100000x1 (constant (F := Ideal) S_ .f32 0x00000000#32)
/-- Rows of a 64-column node array read along the edges at (wrapped) entries. -/
def gatherRows64 (h : FA S100000x64) (r : IA S1600000) : FA S1600000x64 :=
  Host.gather gather_S100000x64_S1600000x1_S1600000x64_1_0_n_n_0_1_164 h (col (wrap r))
/-- Rows of a one-column node array read along the edges at (wrapped) entries. -/
def gatherRows1 (h : FA S100000x1) (r : IA S1600000) : FA S1600000x1 :=
  Host.gather gather_S100000x1_S1600000x1_S1600000x1_1_0_n_n_0_1_11 h (col (wrap r))
/-- Per-edge rows of 64 columns summed per destination entry into a zero array. -/
def segSum64 (d : IA S1600000) (u : FA S1600000x64) : FA S100000x64 :=
  Host.scatterAdd scatter_S100000x64_S1600000x1_S1600000x64_1_0_0_1 zeroN64 (col d) u
/-- Per-edge one-column rows summed per destination entry into a zero array. -/
def segSum1 (d : IA S1600000) (u : FA S1600000x1) : FA S100000x1 :=
  Host.scatterAdd scatter_S100000x1_S1600000x1_S1600000x1_1_0_0_1 zeroN1 (col d) u
/-- An edge vector viewed as one column. -/
def edgeCol (v : FA S1600000) : FA S1600000x1 := shapeCast S1600000x1 v shapeCasts_S1600000_S1600000x1
/-- A node vector viewed as one column. -/
def nodeCol (v : FA S100000) : FA S100000x1 := shapeCast S100000x1 v shapeCasts_S100000_S100000x1
/-- A 64-entry bias viewed as one row. -/
def biasRow64 (b : FA S64) : FA S1x64 := shapeCast S1x64 b shapeCasts_S64_S1x64
/-- A one-entry bias viewed as one row. -/
def biasRow1 (b : FA S1) : FA S1x1 := shapeCast S1x1 b shapeCasts_S1_S1x1

end Cert.KVal

end
-- ==== Proof.KChainC.lean ====
/-
  The stretches of host operations between the kernel regions, each read over an arbitrary valuation of the buffers at
  its start.

  Between a layer's matrix-product region and its scaling region the host gathers the product's rows along the edges (at
  the wrapped source entries) and views the per-edge coefficient as one column; between the scaling region and the
  combining region it sums the scaled rows per destination into a zero array and views the self-loop coefficient as one
  column and the bias as one row.
-/
import proofs.«117865_j31619549233339_2_alg».proof.Proof.KKeep
import proofs.«117865_j31619549233339_2_alg».proof.Proof.KVal

set_option maxRecDepth 16384

noncomputable section

namespace Cert.KernelIdeal.KChain

open Cert.KernelIdeal Cert.KernelIdeal.Gen Cert.KernelIdeal.KKeep Cert.KVal
open Idealize.ShloMosaic Idealize.ShloMosaic.TcCoe Idealize.SL.Sem Idealize.ShloMosaic.StableHlo

local notation "𝕍" => Valuation τ sig (Elt Ideal)
local notation "ops[" l "]" => (l : List (HloOp τ sig (Elt Ideal)))

theorem r2_v60 (W : 𝕍) : after ops[hostOps2] W (Proc.devRef .tc main_v60)
    = gatherRows64 (W (Proc.devRef .tc main_v53)) (W (Proc.devRef .tc main_v1)) := by
  after_results_simp <;> rfl
theorem r2_v61 (W : 𝕍) : after ops[hostOps2] W (Proc.devRef .tc main_v61) = edgeCol (W (Proc.devRef .tc main_v50)) := by
  after_results_simp <;> rfl

theorem r5_v76 (W : 𝕍) : after ops[hostOps5] W (Proc.devRef .tc main_v76)
    = gatherRows64 (W (Proc.devRef .tc main_v69)) (W (Proc.devRef .tc main_v1)) := by
  after_results_simp <;> rfl
theorem r5_v77 (W : 𝕍) : after ops[hostOps5] W (Proc.devRef .tc main_v77) = edgeCol (W (Proc.devRef .tc main_v50)) := by
  after_results_simp <;> rfl

theorem r8_v92 (W : 𝕍) : after ops[hostOps8] W (Proc.devRef .tc main_v92)
    = gatherRows1 (W (Proc.devRef .tc main_v85)) (W (Proc.devRef .tc main_v1)) := by
  after_results_simp <;> rfl
theorem r8_v93 (W : 𝕍) : after ops[hostOps8] W (Proc.devRef .tc main_v93) = edgeCol (W (Proc.devRef .tc main_v50)) := by
  after_results_simp <;> rfl

theorem r3_v65 (W : 𝕍) : after ops[hostOps3] W (Proc.devRef .tc main_v65)
    = segSum64 (W (Proc.devRef .tc main_v3)) (W (Proc.devRef .tc main_v62)) := by
  after_results_simp <;> rfl
theorem r3_v66 (W : 𝕍) : after ops[hostOps3] W (Proc.devRef .tc main_v66) = nodeCol (W (Proc.devRef .tc main_v51)) := by
  after_results_simp <;> rfl
theorem r3_v67 (W : 𝕍) : after ops[hostOps3] W (Proc.devRef .tc main_v67) = biasRow64 (W (Proc.devRef .tc main_arg4)) := by
  after_results_simp <;> rfl

theorem r6_v81 (W : 𝕍) : after ops[hostOps6] W (Proc.devRef .tc main_v81)
    = segSum64 (W (Proc.devRef .tc main_v3)) (W (Proc.devRef .tc main_v78)) := by
  after_results_simp <;> rfl
theorem r6_v82 (W : 𝕍) : after ops[hostOps6] W (Proc.devRef .tc main_v82) = nodeCol (W (Proc.devRef .tc main_v51)) := by
  after_results_simp <;> rfl
theorem r6_v83 (W : 𝕍) : after ops[hostOps6] W (Proc.devRef .tc main_v83) = biasRow64 (W (Proc.devRef .tc main_arg6)) := by
  after_results_simp <;> rfl

theorem r9_v97 (W : 𝕍) : after ops[hostOps9] W (Proc.devRef .tc main_v97)
    = segSum1 (W (Proc.devRef .tc main_v3)) (W (Proc.devRef .tc main_v94)) := by
  after_results_simp <;> rfl
theorem r9_v98 (W : 𝕍) : after ops[hostOps9] W (Proc.devRef .tc main_v98) = nodeCol (W (Proc.devRef .tc main_v51)) := by
  after_results_simp <;> rfl
theorem r9_v99 (W : 𝕍) : after ops[hostOps9] W (Proc.devRef .tc main_v99) = biasRow1 (W (Proc.devRef .tc main_arg8)) := by
  after_results_simp <;> rfl

end Cert.KernelIdeal.KChain

end
-- ==== Proof.LibTypedRef.lean ====
/-
  Typed references: a value carried to a buffer's own type and back is the value.

  A host operation of a called function is stated over typed references: a reference together with the equation that
  its buffer's type is the value's type. The operation's function is conjugated by the transport along that equation
  (`toBuf` into the buffer's type, `ofBuf` out of it). Reading a chain of such operations back therefore leaves
  pairs `ofBuf (toBuf v)` around every intermediate value; each pair is the identity.
-/
import Idealize.ShloMosaic.Lib.StableHlo

namespace Cert.TypedRef

open Idealize.ShloMosaic Idealize.ShloMosaic.StableHlo

/-- Carrying a value to the buffer's type and back gives the value. -/
theorem ofBuf_toBuf {sig : RefSig} {T : BufTy} {Val : EltTy → Type} (x : TRef sig T) (v : T.Contents Val) :
    x.ofBuf (x.toBuf v) = v := by
  obtain ⟨r, h, a, b⟩ := x
  subst h
  rfl

/-- Carrying a buffer's contents to the value's type and back gives the contents. -/
theorem toBuf_ofBuf {sig : RefSig} {T : BufTy} {Val : EltTy → Type} (x : TRef sig T) (v : x.ref.ty.Contents Val) :
    x.toBuf (x.ofBuf v) = v := by
  obtain ⟨r, h, a, b⟩ := x
  subst h
  rfl

end Cert.TypedRef
-- ==== Proof.KChainA.lean ====
/-
  The idealized kernel's host prefix read back: what the stretches of host operations before the first kernel region
  leave in the buffers the regions and the later stretches read.

  Each stretch is read over an ARBITRARY valuation of the buffers at its start: the buffer it writes holds its
  operation's function of the start contents of the operation's operands. Composed along the prefix (a buffer a stretch
  does not write keeps its contents), the edge list's two rows, the normalised weights, the node degree, the node factor,
  the per-edge coefficient and the self-loop coefficient are the named functions of the argument arrays.
-/
import proofs.«117865_j31619549233339_2_alg».proof.Proof.KKeep
import proofs.«117865_j31619549233339_2_alg».proof.Proof.KVal
import proofs.«117865_j31619549233339_2_alg».proof.Proof.LibTypedRef

set_option maxRecDepth 16384

noncomputable section

namespace Cert.KernelIdeal.KChain

open Cert.KernelIdeal Cert.KernelIdeal.Gen Cert.KernelIdeal.KKeep Cert.KVal
open Idealize.ShloMosaic Idealize.ShloMosaic.TcCoe Idealize.SL.Sem Idealize.ShloMosaic.StableHlo

local notation "𝕍" => Valuation τ sig (Elt Ideal)
local notation "ops[" l "]" => (l : List (HloOp τ sig (Elt Ideal)))

variable (m : (ℓ : Loc nD τ sig) → Buf (Elt Ideal) ℓ) (ρ : Dev nD → PrngReg)

/-! ## Each stretch of the prefix over an arbitrary start valuation -/

theorem r0_v1 (W : 𝕍) : after ops[hostOps0] W (Proc.devRef .tc main_v1) = src (W (Proc.devRef .tc main_arg1)) := by
  after_results_simp <;> rfl
theorem r0_v3 (W : 𝕍) : after ops[hostOps0] W (Proc.devRef .tc main_v3) = dst (W (Proc.devRef .tc main_arg1)) := by
  after_results_simp <;> rfl
theorem r0_v6 (W : 𝕍) : after ops[hostOps0] W (Proc.devRef .tc main_v6)
    = Cert.ReferenceIdeal.Read.val_main_v6 (F := Ideal) (W (Proc.devRef .tc main_arg1)) (W (Proc.devRef .tc main_arg2)) := by
  after_results_simp <;> rfl
theorem r0_v8 (W : 𝕍) : after ops[hostOps0] W (Proc.devRef .tc main_v8)
    = Cert.ReferenceIdeal.Read.val_main_v8 (F := Ideal) (W (Proc.devRef .tc main_arg1)) (W (Proc.devRef .tc main_arg2)) := by
  after_results_simp <;> rfl
theorem r0_cst_1 (W : 𝕍) : after ops[hostOps0] W (Proc.devRef .tc main_cst_1)
    = Cert.ReferenceIdeal.Read.val_main_cst_1 (F := Ideal) := by
  after_results_simp <;> rfl

theorem r01_v9 (W : 𝕍) : after ops[hostOps0_1] W (Proc.devRef .tc main_v9)
    = select (W (Proc.devRef .tc main_v8)) (W (Proc.devRef .tc main_v6))
        (broadcastInDim S100000 ![] bcast_S_S100000 (id (W (Proc.devRef .tc main_cst_1)))) := by
  after_results_simp
  simp only [Cert.TypedRef.ofBuf_toBuf]
  rfl

theorem r02_v25 (W : 𝕍) : after ops[hostOps0_2] W (Proc.devRef .tc main_v25)
    = Host.divf (W (Proc.devRef .tc main_arg2))
        (mulf (gatherN (W (Proc.devRef .tc main_v9)) (W (Proc.devRef .tc main_v1)))
          (gatherN (W (Proc.devRef .tc main_v9)) (W (Proc.devRef .tc main_v3)))) := by
  after_results_simp <;> rfl
theorem r02_v30 (W : 𝕍) : after ops[hostOps0_2] W (Proc.devRef .tc main_v30)
    = addf (Host.scatterAdd scatter_S100000_S1600000x1_S1600000_n_0_0_1 zeroN (col (W (Proc.devRef .tc main_v3)))
        (Host.divf (W (Proc.devRef .tc main_arg2))
          (mulf (gatherN (W (Proc.devRef .tc main_v9)) (W (Proc.devRef .tc main_v1)))
            (gatherN (W (Proc.devRef .tc main_v9)) (W (Proc.devRef .tc main_v3)))))) oneN := by
  after_results_simp <;> rfl
theorem r02_v32 (W : 𝕍) : after ops[hostOps0_2] W (Proc.devRef .tc main_v32)
    = cmpf .ogt (after ops[hostOps0_2] W (Proc.devRef .tc main_v30)) zeroN := by
  after_results_simp <;> rfl
theorem r02_v33 (W : 𝕍) : after ops[hostOps0_2] W (Proc.devRef .tc main_v33)
    = (Host.rsqrt (F := Ideal) (after ops[hostOps0_2] W (Proc.devRef .tc main_v30) : FA S100000) : FA S100000) := by
  after_results_simp <;> rfl
theorem r02_cst_8 (W : 𝕍) : after ops[hostOps0_2] W (Proc.devRef .tc main_cst_8)
    = constant (F := Ideal) S_ .f32 0x00000000#32 := by
  after_results_simp <;> rfl

theorem r03_v34 (W : 𝕍) : after ops[hostOps0_3] W (Proc.devRef .tc main_v34)
    = select (W (Proc.devRef .tc main_v32)) (W (Proc.devRef .tc main_v33))
        (broadcastInDim S100000 ![] bcast_S_S100000 (id (W (Proc.devRef .tc main_cst_8)))) := by
  after_results_simp
  simp only [Cert.TypedRef.ofBuf_toBuf]
  rfl

theorem r04_v50 (W : 𝕍) : after ops[hostOps0_4] W (Proc.devRef .tc main_v50)
    = mulf (mulf (gatherN (W (Proc.devRef .tc main_v34)) (W (Proc.devRef .tc main_v1))) (W (Proc.devRef .tc main_v25)))
        (gatherN (W (Proc.devRef .tc main_v34)) (W (Proc.devRef .tc main_v3))) := by
  after_results_simp <;> rfl
theorem r04_v51 (W : 𝕍) : after ops[hostOps0_4] W (Proc.devRef .tc main_v51)
    = (mulf (F := Ideal) (W (Proc.devRef .tc main_v34) : FA S100000) (W (Proc.devRef .tc main_v34) : FA S100000) : FA S100000) := by
  after_results_simp <;> rfl

end Cert.KernelIdeal.KChain

end
-- ==== Proof.KChainB.lean ====
/-
  The idealized kernel's host prefix composed: at the boundary before the first kernel region the edge list's two rows,
  the per-edge coefficient and the self-loop coefficient are the named functions of the argument arrays.

  A buffer that a stretch does not write keeps its contents across it, so each quantity is read where it is written and
  carried to the boundary; the launch contents of an argument buffer are the argument array.
-/
import proofs.«117865_j31619549233339_2_alg».proof.Proof.KChainA

set_option maxRecDepth 16384

noncomputable section

namespace Cert.KernelIdeal.KChain

open Cert.KernelIdeal Cert.KernelIdeal.Gen Cert.KernelIdeal.KKeep Cert.KVal
open Idealize.ShloMosaic Idealize.ShloMosaic.TcCoe Idealize.SL.Sem Idealize.ShloMosaic.StableHlo

local notation "𝕍" => Valuation τ sig (Elt Ideal)
local notation "ops[" l "]" => (l : List (HloOp τ sig (Elt Ideal)))

variable (m : (ℓ : Loc nD τ sig) → Buf (Elt Ideal) ℓ) (ρ : Dev nD → PrngReg)

/-! ## After the first stretch -/

theorem W1_arg1 (c : Dev nD) : W1 m ρ c (Proc.devRef .tc main_arg1) = m ((c : Thread nD τ).loc main_arg1) :=
  keep0 _ main_arg1 (by decide)
theorem W1_arg2 (c : Dev nD) : W1 m ρ c (Proc.devRef .tc main_arg2) = m ((c : Thread nD τ).loc main_arg2) :=
  keep0 _ main_arg2 (by decide)
theorem W1_v1 (c : Dev nD) : W1 m ρ c (Proc.devRef .tc main_v1) = src (m ((c : Thread nD τ).loc main_arg1)) := r0_v1 _
theorem W1_v3 (c : Dev nD) : W1 m ρ c (Proc.devRef .tc main_v3) = dst (m ((c : Thread nD τ).loc main_arg1)) := r0_v3 _
theorem W1_v6 (c : Dev nD) : W1 m ρ c (Proc.devRef .tc main_v6)
    = Cert.ReferenceIdeal.Read.val_main_v6 (F := Ideal) (m ((c : Thread nD τ).loc main_arg1)) (m ((c : Thread nD τ).loc main_arg2)) := r0_v6 _
theorem W1_v8 (c : Dev nD) : W1 m ρ c (Proc.devRef .tc main_v8)
    = Cert.ReferenceIdeal.Read.val_main_v8 (F := Ideal) (m ((c : Thread nD τ).loc main_arg1)) (m ((c : Thread nD τ).loc main_arg2)) := r0_v8 _
theorem W1_cst_1 (c : Dev nD) : W1 m ρ c (Proc.devRef .tc main_cst_1) = Cert.ReferenceIdeal.Read.val_main_cst_1 (F := Ideal) := r0_cst_1 _

/-! ## After the guarded row degree -/

theorem W2_arg2 (c : Dev nD) : W2 m ρ c (Proc.devRef .tc main_arg2) = m ((c : Thread nD τ).loc main_arg2) :=
  (keep0_1 _ main_arg2 (by decide)).trans (W1_arg2 m ρ c)
theorem W2_v1 (c : Dev nD) : W2 m ρ c (Proc.devRef .tc main_v1) = src (m ((c : Thread nD τ).loc main_arg1)) :=
  (keep0_1 _ main_v1 (by decide)).trans (W1_v1 m ρ c)
theorem W2_v3 (c : Dev nD) : W2 m ρ c (Proc.devRef .tc main_v3) = dst (m ((c : Thread nD τ).loc main_arg1)) :=
  (keep0_1 _ main_v3 (by decide)).trans (W1_v3 m ρ c)
theorem W2_v9 (c : Dev nD) : W2 m ρ c (Proc.devRef .tc main_v9)
    = Cert.ReferenceIdeal.Read.val_main_v9 (F := Ideal) (m ((c : Thread nD τ).loc main_arg1)) (m ((c : Thread nD τ).loc main_arg2)) := by
  show after ops[hostOps0_1] (W1 m ρ c) _ = _
  rw [r01_v9, W1_v8, W1_v6, W1_cst_1]
  rfl

/-! ## After the normalised weights and the node degree -/

theorem W3_v1 (c : Dev nD) : W3 m ρ c (Proc.devRef .tc main_v1) = src (m ((c : Thread nD τ).loc main_arg1)) :=
  (keep0_2 _ main_v1 (by decide)).trans (W2_v1 m ρ c)
theorem W3_v3 (c : Dev nD) : W3 m ρ c (Proc.devRef .tc main_v3) = dst (m ((c : Thread nD τ).loc main_arg1)) :=
  (keep0_2 _ main_v3 (by decide)).trans (W2_v3 m ρ c)
theorem W3_v25 (c : Dev nD) : W3 m ρ c (Proc.devRef .tc main_v25)
    = what (m ((c : Thread nD τ).loc main_arg1)) (m ((c : Thread nD τ).loc main_arg2)) := by
  show after ops[hostOps0_2] (W2 m ρ c) _ = _
  rw [r02_v25, W2_arg2, W2_v9, W2_v1, W2_v3]
  rfl
theorem W3_v30 (c : Dev nD) : W3 m ρ c (Proc.devRef .tc main_v30)
    = deg (m ((c : Thread nD τ).loc main_arg1)) (m ((c : Thread nD τ).loc main_arg2)) := by
  show after ops[hostOps0_2] (W2 m ρ c) _ = _
  rw [r02_v30, W2_arg2, W2_v9, W2_v1, W2_v3]
  rfl
theorem W3_v32 (c : Dev nD) : W3 m ρ c (Proc.devRef .tc main_v32)
    = cmpf .ogt (deg (m ((c : Thread nD τ).loc main_arg1)) (m ((c : Thread nD τ).loc main_arg2))) zeroN := by
  show after ops[hostOps0_2] (W2 m ρ c) _ = _
  rw [r02_v32]
  exact congrArg (fun v : FA S100000 => cmpf .ogt v zeroN) (W3_v30 m ρ c)
theorem W3_v33 (c : Dev nD) : W3 m ρ c (Proc.devRef .tc main_v33)
    = (Host.rsqrt (F := Ideal) (deg (m ((c : Thread nD τ).loc main_arg1)) (m ((c : Thread nD τ).loc main_arg2))) : FA S100000) := by
  show after ops[hostOps0_2] (W2 m ρ c) _ = _
  rw [r02_v33]
  exact congrArg (fun v : FA S100000 => (Host.rsqrt (F := Ideal) v : FA S100000)) (W3_v30 m ρ c)
theorem W3_cst_8 (c : Dev nD) : W3 m ρ c (Proc.devRef .tc main_cst_8) = constant (F := Ideal) S_ .f32 0x00000000#32 := r02_cst_8 _

/-! ## After the node factor -/

theorem W4_v1 (c : Dev nD) : W4 m ρ c (Proc.devRef .tc main_v1) = src (m ((c : Thread nD τ).loc main_arg1)) :=
  (keep0_3 _ main_v1 (by decide)).trans (W3_v1 m ρ c)
theorem W4_v3 (c : Dev nD) : W4 m ρ c (Proc.devRef .tc main_v3) = dst (m ((c : Thread nD τ).loc main_arg1)) :=
  (keep0_3 _ main_v3 (by decide)).trans (W3_v3 m ρ c)
theorem W4_v25 (c : Dev nD) : W4 m ρ c (Proc.devRef .tc main_v25)
    = what (m ((c : Thread nD τ).loc main_arg1)) (m ((c : Thread nD τ).loc main_arg2)) :=
  (keep0_3 _ main_v25 (by decide)).trans (W3_v25 m ρ c)
theorem W4_v34 (c : Dev nD) : W4 m ρ c (Proc.devRef .tc main_v34)
    = dinv (m ((c : Thread nD τ).loc main_arg1)) (m ((c : Thread nD τ).loc main_arg2)) := by
  show after ops[hostOps0_3] (W3 m ρ c) _ = _
  rw [r03_v34, W3_v32, W3_v33, W3_cst_8]
  rfl

/-! ## At the first region's entry -/

theorem W5_v1 (c : Dev nD) : W5 m ρ c (Proc.devRef .tc main_v1) = src (m ((c : Thread nD τ).loc main_arg1)) :=
  (keep0_4 _ main_v1 (by decide)).trans (W4_v1 m ρ c)
theorem W5_v3 (c : Dev nD) : W5 m ρ c (Proc.devRef .tc main_v3) = dst (m ((c : Thread nD τ).loc main_arg1)) :=
  (keep0_4 _ main_v3 (by decide)).trans (W4_v3 m ρ c)
theorem W5_v50 (c : Dev nD) : W5 m ρ c (Proc.devRef .tc main_v50)
    = norm (m ((c : Thread nD τ).loc main_arg1)) (m ((c : Thread nD τ).loc main_arg2)) := by
  show after ops[hostOps0_4] (W4 m ρ c) _ = _
  rw [r04_v50, W4_v34, W4_v1, W4_v3, W4_v25]
  rfl
theorem W5_v51 (c : Dev nD) : W5 m ρ c (Proc.devRef .tc main_v51)
    = dinv2 (m ((c : Thread nD τ).loc main_arg1)) (m ((c : Thread nD τ).loc main_arg2)) := by
  show after ops[hostOps0_4] (W4 m ρ c) _ = _
  rw [r04_v51, W4_v34]
  rfl

/-- An argument buffer holds the argument array at the first region's entry: no stretch of the prefix writes it. -/
theorem W5_arg (c : Dev nD) (a : Ref sig .tc) (h0 : a ∉ wr0) (h1 : a ∉ wr0_1) (h2 : a ∉ wr0_2) (h3 : a ∉ wr0_3) (h4 : a ∉ wr0_4) :
    W5 m ρ c (Proc.devRef .tc a) = m ((c : Thread nD τ).loc a) :=
  (keep0_4 _ a h4).trans ((keep0_3 _ a h3).trans ((keep0_2 _ a h2).trans ((keep0_1 _ a h1).trans (keep0 _ a h0))))

end Cert.KernelIdeal.KChain

end
-- ==== Proof.KChainD.lean ====
/-
  The buffers the kernel regions and the later stretches read, carried from the first region's entry.

  The edge list's two rows, the per-edge coefficient, the self-loop coefficient and the weight and bias arguments are
  written before the first region (or never) and only read afterwards: no later stretch writes them and they are no
  region's output, so at every later boundary they hold what they held at the first region's entry.
-/
import proofs.«117865_j31619549233339_2_alg».proof.Proof.KChainB

set_option maxRecDepth 16384

noncomputable section

namespace Cert.KernelIdeal.KChain

open Cert.KernelIdeal Cert.KernelIdeal.Gen Cert.KernelIdeal.KKeep Cert.KVal
open Idealize.ShloMosaic Idealize.ShloMosaic.TcCoe Idealize.SL.Sem Idealize.ShloMosaic.StableHlo

local notation "𝕍" => Valuation τ sig (Elt Ideal)
local notation "ops[" l "]" => (l : List (HloOp τ sig (Elt Ideal)))

variable (m : (ℓ : Loc nD τ sig) → Buf (Elt Ideal) ℓ) (ρ : Dev nD → PrngReg)

theorem st6_v1 (c : Dev nD) : W6 m ρ c (Proc.devRef .tc main_v1) = W5 m ρ c (Proc.devRef .tc main_v1) :=
  (W6_of_ne m ρ c main_v1 (by decide))
theorem st7_v1 (c : Dev nD) : W7 m ρ c (Proc.devRef .tc main_v1) = W5 m ρ c (Proc.devRef .tc main_v1) :=
  (W7_of_ne m ρ c main_v1 (by decide)).trans (st6_v1 m ρ c)
theorem st8_v1 (c : Dev nD) : W8 m ρ c (Proc.devRef .tc main_v1) = W5 m ρ c (Proc.devRef .tc main_v1) :=
  (keep2 (W7 m ρ c) main_v1 (by decide)).trans (st7_v1 m ρ c)
theorem st9_v1 (c : Dev nD) : W9 m ρ c (Proc.devRef .tc main_v1) = W5 m ρ c (Proc.devRef .tc main_v1) :=
  (W9_of_ne m ρ c main_v1 (by decide)).trans (st8_v1 m ρ c)
theorem st10_v1 (c : Dev nD) : W10 m ρ c (Proc.devRef .tc main_v1) = W5 m ρ c (Proc.devRef .tc main_v1) :=
  (keep3 (W9 m ρ c) main_v1 (by decide)).trans (st9_v1 m ρ c)
theorem st11_v1 (c : Dev nD) : W11 m ρ c (Proc.devRef .tc main_v1) = W5 m ρ c (Proc.devRef .tc main_v1) :=
  (W11_of_ne m ρ c main_v1 (by decide)).trans (st10_v1 m ρ c)
theorem st12_v1 (c : Dev nD) : W12 m ρ c (Proc.devRef .tc main_v1) = W5 m ρ c (Proc.devRef .tc main_v1) :=
  (W12_of_ne m ρ c main_v1 (by decide)).trans (st11_v1 m ρ c)
theorem st13_v1 (c : Dev nD) : W13 m ρ c (Proc.devRef .tc main_v1) = W5 m ρ c (Proc.devRef .tc main_v1) :=
  (keep5 (W12 m ρ c) main_v1 (by decide)).trans (st12_v1 m ρ c)
theorem st14_v1 (c : Dev nD) : W14 m ρ c (Proc.devRef .tc main_v1) = W5 m ρ c (Proc.devRef .tc main_v1) :=
  (W14_of_ne m ρ c main_v1 (by decide)).trans (st13_v1 m ρ c)
theorem st15_v1 (c : Dev nD) : W15 m ρ c (Proc.devRef .tc main_v1) = W5 m ρ c (Proc.devRef .tc main_v1) :=
  (keep6 (W14 m ρ c) main_v1 (by decide)).trans (st14_v1 m ρ c)
theorem st16_v1 (c : Dev nD) : W16 m ρ c (Proc.devRef .tc main_v1) = W5 m ρ c (Proc.devRef .tc main_v1) :=
  (W16_of_ne m ρ c main_v1 (by decide)).trans (st15_v1 m ρ c)
theorem st17_v1 (c : Dev nD) : W17 m ρ c (Proc.devRef .tc main_v1) = W5 m ρ c (Proc.devRef .tc main_v1) :=
  (W17_of_ne m ρ c main_v1 (by decide)).trans (st16_v1 m ρ c)

theorem st6_v3 (c : Dev nD) : W6 m ρ c (Proc.devRef .tc main_v3) = W5 m ρ c (Proc.devRef .tc main_v3) :=
  (W6_of_ne m ρ c main_v3 (by decide))
theorem st7_v3 (c : Dev nD) : W7 m ρ c (Proc.devRef .tc main_v3) = W5 m ρ c (Proc.devRef .tc main_v3) :=
  (W7_of_ne m ρ c main_v3 (by decide)).trans (st6_v3 m ρ c)
theorem st8_v3 (c : Dev nD) : W8 m ρ c (Proc.devRef .tc main_v3) = W5 m ρ c (Proc.devRef .tc main_v3) :=
  (keep2 (W7 m ρ c) main_v3 (by decide)).trans (st7_v3 m ρ c)
theorem st9_v3 (c : Dev nD) : W9 m ρ c (Proc.devRef .tc main_v3) = W5 m ρ c (Proc.devRef .tc main_v3) :=
  (W9_of_ne m ρ c main_v3 (by decide)).trans (st8_v3 m ρ c)
theorem st10_v3 (c : Dev nD) : W10 m ρ c (Proc.devRef .tc main_v3) = W5 m ρ c (Proc.devRef .tc main_v3) :=
  (keep3 (W9 m ρ c) main_v3 (by decide)).trans (st9_v3 m ρ c)
theorem st11_v3 (c : Dev nD) : W11 m ρ c (Proc.devRef .tc main_v3) = W5 m ρ c (Proc.devRef .tc main_v3) :=
  (W11_of_ne m ρ c main_v3 (by decide)).trans (st10_v3 m ρ c)
theorem st12_v3 (c : Dev nD) : W12 m ρ c (Proc.devRef .tc main_v3) = W5 m ρ c (Proc.devRef .tc main_v3) :=
  (W12_of_ne m ρ c main_v3 (by decide)).trans (st11_v3 m ρ c)
theorem st13_v3 (c : Dev nD) : W13 m ρ c (Proc.devRef .tc main_v3) = W5 m ρ c (Proc.devRef .tc main_v3) :=
  (keep5 (W12 m ρ c) main_v3 (by decide)).trans (st12_v3 m ρ c)
theorem st14_v3 (c : Dev nD) : W14 m ρ c (Proc.devRef .tc main_v3) = W5 m ρ c (Proc.devRef .tc main_v3) :=
  (W14_of_ne m ρ c main_v3 (by decide)).trans (st13_v3 m ρ c)
theorem st15_v3 (c : Dev nD) : W15 m ρ c (Proc.devRef .tc main_v3) = W5 m ρ c (Proc.devRef .tc main_v3) :=
  (keep6 (W14 m ρ c) main_v3 (by decide)).trans (st14_v3 m ρ c)
theorem st16_v3 (c : Dev nD) : W16 m ρ c (Proc.devRef .tc main_v3) = W5 m ρ c (Proc.devRef .tc main_v3) :=
  (W16_of_ne m ρ c main_v3 (by decide)).trans (st15_v3 m ρ c)
theorem st17_v3 (c : Dev nD) : W17 m ρ c (Proc.devRef .tc main_v3) = W5 m ρ c (Proc.devRef .tc main_v3) :=
  (W17_of_ne m ρ c main_v3 (by decide)).trans (st16_v3 m ρ c)
theorem st18_v3 (c : Dev nD) : W18 m ρ c (Proc.devRef .tc main_v3) = W5 m ρ c (Proc.devRef .tc main_v3) :=
  (keep8 (W17 m ρ c) main_v3 (by decide)).trans (st17_v3 m ρ c)
theorem st19_v3 (c : Dev nD) : W19 m ρ c (Proc.devRef .tc main_v3) = W5 m ρ c (Proc.devRef .tc main_v3) :=
  (W19_of_ne m ρ c main_v3 (by decide)).trans (st18_v3 m ρ c)

theorem st6_v50 (c : Dev nD) : W6 m ρ c (Proc.devRef .tc main_v50) = W5 m ρ c (Proc.devRef .tc main_v50) :=
  (W6_of_ne m ρ c main_v50 (by decide))
theorem st7_v50 (c : Dev nD) : W7 m ρ c (Proc.devRef .tc main_v50) = W5 m ρ c (Proc.devRef .tc main_v50) :=
  (W7_of_ne m ρ c main_v50 (by decide)).trans (st6_v50 m ρ c)
theorem st8_v50 (c : Dev nD) : W8 m ρ c (Proc.devRef .tc main_v50) = W5 m ρ c (Proc.devRef .tc main_v50) :=
  (keep2 (W7 m ρ c) main_v50 (by decide)).trans (st7_v50 m ρ c)
theorem st9_v50 (c : Dev nD) : W9 m ρ c (Proc.devRef .tc main_v50) = W5 m ρ c (Proc.devRef .tc main_v50) :=
  (W9_of_ne m ρ c main_v50 (by decide)).trans (st8_v50 m ρ c)
theorem st10_v50 (c : Dev nD) : W10 m ρ c (Proc.devRef .tc main_v50) = W5 m ρ c (Proc.devRef .tc main_v50) :=
  (keep3 (W9 m ρ c) main_v50 (by decide)).trans (st9_v50 m ρ c)
theorem st11_v50 (c : Dev nD) : W11 m ρ c (Proc.devRef .tc main_v50) = W5 m ρ c (Proc.devRef .tc main_v50) :=
  (W11_of_ne m ρ c main_v50 (by decide)).trans (st10_v50 m ρ c)
theorem st12_v50 (c : Dev nD) : W12 m ρ c (Proc.devRef .tc main_v50) = W5 m ρ c (Proc.devRef .tc main_v50) :=
  (W12_of_ne m ρ c main_v50 (by decide)).trans (st11_v50 m ρ c)
theorem st13_v50 (c : Dev nD) : W13 m ρ c (Proc.devRef .tc main_v50) = W5 m ρ c (Proc.devRef .tc main_v50) :=
  (keep5 (W12 m ρ c) main_v50 (by decide)).trans (st12_v50 m ρ c)
theorem st14_v50 (c : Dev nD) : W14 m ρ c (Proc.devRef .tc main_v50) = W5 m ρ c (Proc.devRef .tc main_v50) :=
  (W14_of_ne m ρ c main_v50 (by decide)).trans (st13_v50 m ρ c)
theorem st15_v50 (c : Dev nD) : W15 m ρ c (Proc.devRef .tc main_v50) = W5 m ρ c (Proc.devRef .tc main_v50) :=
  (keep6 (W14 m ρ c) main_v50 (by decide)).trans (st14_v50 m ρ c)
theorem st16_v50 (c : Dev nD) : W16 m ρ c (Proc.devRef .tc main_v50) = W5 m ρ c (Proc.devRef .tc main_v50) :=
  (W16_of_ne m ρ c main_v50 (by decide)).trans (st15_v50 m ρ c)
theorem st17_v50 (c : Dev nD) : W17 m ρ c (Proc.devRef .tc main_v50) = W5 m ρ c (Proc.devRef .tc main_v50) :=
  (W17_of_ne m ρ c main_v50 (by decide)).trans (st16_v50 m ρ c)

theorem st6_v51 (c : Dev nD) : W6 m ρ c (Proc.devRef .tc main_v51) = W5 m ρ c (Proc.devRef .tc main_v51) :=
  (W6_of_ne m ρ c main_v51 (by decide))
theorem st7_v51 (c : Dev nD) : W7 m ρ c (Proc.devRef .tc main_v51) = W5 m ρ c (Proc.devRef .tc main_v51) :=
  (W7_of_ne m ρ c main_v51 (by decide)).trans (st6_v51 m ρ c)
theorem st8_v51 (c : Dev nD) : W8 m ρ c (Proc.devRef .tc main_v51) = W5 m ρ c (Proc.devRef .tc main_v51) :=
  (keep2 (W7 m ρ c) main_v51 (by decide)).trans (st7_v51 m ρ c)
theorem st9_v51 (c : Dev nD) : W9 m ρ c (Proc.devRef .tc main_v51) = W5 m ρ c (Proc.devRef .tc main_v51) :=
  (W9_of_ne m ρ c main_v51 (by decide)).trans (st8_v51 m ρ c)
theorem st10_v51 (c : Dev nD) : W10 m ρ c (Proc.devRef .tc main_v51) = W5 m ρ c (Proc.devRef .tc main_v51) :=
  (keep3 (W9 m ρ c) main_v51 (by decide)).trans (st9_v51 m ρ c)
theorem st11_v51 (c : Dev nD) : W11 m ρ c (Proc.devRef .tc main_v51) = W5 m ρ c (Proc.devRef .tc main_v51) :=
  (W11_of_ne m ρ c main_v51 (by decide)).trans (st10_v51 m ρ c)
theorem st12_v51 (c : Dev nD) : W12 m ρ c (Proc.devRef .tc main_v51) = W5 m ρ c (Proc.devRef .tc main_v51) :=
  (W12_of_ne m ρ c main_v51 (by decide)).trans (st11_v51 m ρ c)
theorem st13_v51 (c : Dev nD) : W13 m ρ c (Proc.devRef .tc main_v51) = W5 m ρ c (Proc.devRef .tc main_v51) :=
  (keep5 (W12 m ρ c) main_v51 (by decide)).trans (st12_v51 m ρ c)
theorem st14_v51 (c : Dev nD) : W14 m ρ c (Proc.devRef .tc main_v51) = W5 m ρ c (Proc.devRef .tc main_v51) :=
  (W14_of_ne m ρ c main_v51 (by decide)).trans (st13_v51 m ρ c)
theorem st15_v51 (c : Dev nD) : W15 m ρ c (Proc.devRef .tc main_v51) = W5 m ρ c (Proc.devRef .tc main_v51) :=
  (keep6 (W14 m ρ c) main_v51 (by decide)).trans (st14_v51 m ρ c)
theorem st16_v51 (c : Dev nD) : W16 m ρ c (Proc.devRef .tc main_v51) = W5 m ρ c (Proc.devRef .tc main_v51) :=
  (W16_of_ne m ρ c main_v51 (by decide)).trans (st15_v51 m ρ c)
theorem st17_v51 (c : Dev nD) : W17 m ρ c (Proc.devRef .tc main_v51) = W5 m ρ c (Proc.devRef .tc main_v51) :=
  (W17_of_ne m ρ c main_v51 (by decide)).trans (st16_v51 m ρ c)
theorem st18_v51 (c : Dev nD) : W18 m ρ c (Proc.devRef .tc main_v51) = W5 m ρ c (Proc.devRef .tc main_v51) :=
  (keep8 (W17 m ρ c) main_v51 (by decide)).trans (st17_v51 m ρ c)
theorem st19_v51 (c : Dev nD) : W19 m ρ c (Proc.devRef .tc main_v51) = W5 m ρ c (Proc.devRef .tc main_v51) :=
  (W19_of_ne m ρ c main_v51 (by decide)).trans (st18_v51 m ρ c)

theorem st6_arg3 (c : Dev nD) : W6 m ρ c (Proc.devRef .tc main_arg3) = W5 m ρ c (Proc.devRef .tc main_arg3) :=
  (W6_of_ne m ρ c main_arg3 (by decide))

theorem st6_arg4 (c : Dev nD) : W6 m ρ c (Proc.devRef .tc main_arg4) = W5 m ρ c (Proc.devRef .tc main_arg4) :=
  (W6_of_ne m ρ c main_arg4 (by decide))
theorem st7_arg4 (c : Dev nD) : W7 m ρ c (Proc.devRef .tc main_arg4) = W5 m ρ c (Proc.devRef .tc main_arg4) :=
  (W7_of_ne m ρ c main_arg4 (by decide)).trans (st6_arg4 m ρ c)
theorem st8_arg4 (c : Dev nD) : W8 m ρ c (Proc.devRef .tc main_arg4) = W5 m ρ c (Proc.devRef .tc main_arg4) :=
  (keep2 (W7 m ρ c) main_arg4 (by decide)).trans (st7_arg4 m ρ c)
theorem st9_arg4 (c : Dev nD) : W9 m ρ c (Proc.devRef .tc main_arg4) = W5 m ρ c (Proc.devRef .tc main_arg4) :=
  (W9_of_ne m ρ c main_arg4 (by decide)).trans (st8_arg4 m ρ c)

theorem st6_arg5 (c : Dev nD) : W6 m ρ c (Proc.devRef .tc main_arg5) = W5 m ρ c (Proc.devRef .tc main_arg5) :=
  (W6_of_ne m ρ c main_arg5 (by decide))
theorem st7_arg5 (c : Dev nD) : W7 m ρ c (Proc.devRef .tc main_arg5) = W5 m ρ c (Proc.devRef .tc main_arg5) :=
  (W7_of_ne m ρ c main_arg5 (by decide)).trans (st6_arg5 m ρ c)
theorem st8_arg5 (c : Dev nD) : W8 m ρ c (Proc.devRef .tc main_arg5) = W5 m ρ c (Proc.devRef .tc main_arg5) :=
  (keep2 (W7 m ρ c) main_arg5 (by decide)).trans (st7_arg5 m ρ c)
theorem st9_arg5 (c : Dev nD) : W9 m ρ c (Proc.devRef .tc main_arg5) = W5 m ρ c (Proc.devRef .tc main_arg5) :=
  (W9_of_ne m ρ c main_arg5 (by decide)).trans (st8_arg5 m ρ c)
theorem st10_arg5 (c : Dev nD) : W10 m ρ c (Proc.devRef .tc main_arg5) = W5 m ρ c (Proc.devRef .tc main_arg5) :=
  (keep3 (W9 m ρ c) main_arg5 (by decide)).trans (st9_arg5 m ρ c)
theorem st11_arg5 (c : Dev nD) : W11 m ρ c (Proc.devRef .tc main_arg5) = W5 m ρ c (Proc.devRef .tc main_arg5) :=
  (W11_of_ne m ρ c main_arg5 (by decide)).trans (st10_arg5 m ρ c)

theorem st6_arg6 (c : Dev nD) : W6 m ρ c (Proc.devRef .tc main_arg6) = W5 m ρ c (Proc.devRef .tc main_arg6) :=
  (W6_of_ne m ρ c main_arg6 (by decide))
theorem st7_arg6 (c : Dev nD) : W7 m ρ c (Proc.devRef .tc main_arg6) = W5 m ρ c (Proc.devRef .tc main_arg6) :=
  (W7_of_ne m ρ c main_arg6 (by decide)).trans (st6_arg6 m ρ c)
theorem st8_arg6 (c : Dev nD) : W8 m ρ c (Proc.devRef .tc main_arg6) = W5 m ρ c (Proc.devRef .tc main_arg6) :=
  (keep2 (W7 m ρ c) main_arg6 (by decide)).trans (st7_arg6 m ρ c)
theorem st9_arg6 (c : Dev nD) : W9 m ρ c (Proc.devRef .tc main_arg6) = W5 m ρ c (Proc.devRef .tc main_arg6) :=
  (W9_of_ne m ρ c main_arg6 (by decide)).trans (st8_arg6 m ρ c)
theorem st10_arg6 (c : Dev nD) : W10 m ρ c (Proc.devRef .tc main_arg6) = W5 m ρ c (Proc.devRef .tc main_arg6) :=
  (keep3 (W9 m ρ c) main_arg6 (by decide)).trans (st9_arg6 m ρ c)
theorem st11_arg6 (c : Dev nD) : W11 m ρ c (Proc.devRef .tc main_arg6) = W5 m ρ c (Proc.devRef .tc main_arg6) :=
  (W11_of_ne m ρ c main_arg6 (by decide)).trans (st10_arg6 m ρ c)
theorem st12_arg6 (c : Dev nD) : W12 m ρ c (Proc.devRef .tc main_arg6) = W5 m ρ c (Proc.devRef .tc main_arg6) :=
  (W12_of_ne m ρ c main_arg6 (by decide)).trans (st11_arg6 m ρ c)
theorem st13_arg6 (c : Dev nD) : W13 m ρ c (Proc.devRef .tc main_arg6) = W5 m ρ c (Proc.devRef .tc main_arg6) :=
  (keep5 (W12 m ρ c) main_arg6 (by decide)).trans (st12_arg6 m ρ c)
theorem st14_arg6 (c : Dev nD) : W14 m ρ c (Proc.devRef .tc main_arg6) = W5 m ρ c (Proc.devRef .tc main_arg6) :=
  (W14_of_ne m ρ c main_arg6 (by decide)).trans (st13_arg6 m ρ c)

theorem st6_arg7 (c : Dev nD) : W6 m ρ c (Proc.devRef .tc main_arg7) = W5 m ρ c (Proc.devRef .tc main_arg7) :=
  (W6_of_ne m ρ c main_arg7 (by decide))
theorem st7_arg7 (c : Dev nD) : W7 m ρ c (Proc.devRef .tc main_arg7) = W5 m ρ c (Proc.devRef .tc main_arg7) :=
  (W7_of_ne m ρ c main_arg7 (by decide)).trans (st6_arg7 m ρ c)
theorem st8_arg7 (c : Dev nD) : W8 m ρ c (Proc.devRef .tc main_arg7) = W5 m ρ c (Proc.devRef .tc main_arg7) :=
  (keep2 (W7 m ρ c) main_arg7 (by decide)).trans (st7_arg7 m ρ c)
theorem st9_arg7 (c : Dev nD) : W9 m ρ c (Proc.devRef .tc main_arg7) = W5 m ρ c (Proc.devRef .tc main_arg7) :=
  (W9_of_ne m ρ c main_arg7 (by decide)).trans (st8_arg7 m ρ c)
theorem st10_arg7 (c : Dev nD) : W10 m ρ c (Proc.devRef .tc main_arg7) = W5 m ρ c (Proc.devRef .tc main_arg7) :=
  (keep3 (W9 m ρ c) main_arg7 (by decide)).trans (st9_arg7 m ρ c)
theorem st11_arg7 (c : Dev nD) : W11 m ρ c (Proc.devRef .tc main_arg7) = W5 m ρ c (Proc.devRef .tc main_arg7) :=
  (W11_of_ne m ρ c main_arg7 (by decide)).trans (st10_arg7 m ρ c)
theorem st12_arg7 (c : Dev nD) : W12 m ρ c (Proc.devRef .tc main_arg7) = W5 m ρ c (Proc.devRef .tc main_arg7) :=
  (W12_of_ne m ρ c main_arg7 (by decide)).trans (st11_arg7 m ρ c)
theorem st13_arg7 (c : Dev nD) : W13 m ρ c (Proc.devRef .tc main_arg7) = W5 m ρ c (Proc.devRef .tc main_arg7) :=
  (keep5 (W12 m ρ c) main_arg7 (by decide)).trans (st12_arg7 m ρ c)
theorem st14_arg7 (c : Dev nD) : W14 m ρ c (Proc.devRef .tc main_arg7) = W5 m ρ c (Proc.devRef .tc main_arg7) :=
  (W14_of_ne m ρ c main_arg7 (by decide)).trans (st13_arg7 m ρ c)
theorem st15_arg7 (c : Dev nD) : W15 m ρ c (Proc.devRef .tc main_arg7) = W5 m ρ c (Proc.devRef .tc main_arg7) :=
  (keep6 (W14 m ρ c) main_arg7 (by decide)).trans (st14_arg7 m ρ c)
theorem st16_arg7 (c : Dev nD) : W16 m ρ c (Proc.devRef .tc main_arg7) = W5 m ρ c (Proc.devRef .tc main_arg7) :=
  (W16_of_ne m ρ c main_arg7 (by decide)).trans (st15_arg7 m ρ c)

theorem st6_arg8 (c : Dev nD) : W6 m ρ c (Proc.devRef .tc main_arg8) = W5 m ρ c (Proc.devRef .tc main_arg8) :=
  (W6_of_ne m ρ c main_arg8 (by decide))
theorem st7_arg8 (c : Dev nD) : W7 m ρ c (Proc.devRef .tc main_arg8) = W5 m ρ c (Proc.devRef .tc main_arg8) :=
  (W7_of_ne m ρ c main_arg8 (by decide)).trans (st6_arg8 m ρ c)
theorem st8_arg8 (c : Dev nD) : W8 m ρ c (Proc.devRef .tc main_arg8) = W5 m ρ c (Proc.devRef .tc main_arg8) :=
  (keep2 (W7 m ρ c) main_arg8 (by decide)).trans (st7_arg8 m ρ c)
theorem st9_arg8 (c : Dev nD) : W9 m ρ c (Proc.devRef .tc main_arg8) = W5 m ρ c (Proc.devRef .tc main_arg8) :=
  (W9_of_ne m ρ c main_arg8 (by decide)).trans (st8_arg8 m ρ c)
theorem st10_arg8 (c : Dev nD) : W10 m ρ c (Proc.devRef .tc main_arg8) = W5 m ρ c (Proc.devRef .tc main_arg8) :=
  (keep3 (W9 m ρ c) main_arg8 (by decide)).trans (st9_arg8 m ρ c)
theorem st11_arg8 (c : Dev nD) : W11 m ρ c (Proc.devRef .tc main_arg8) = W5 m ρ c (Proc.devRef .tc main_arg8) :=
  (W11_of_ne m ρ c main_arg8 (by decide)).trans (st10_arg8 m ρ c)
theorem st12_arg8 (c : Dev nD) : W12 m ρ c (Proc.devRef .tc main_arg8) = W5 m ρ c (Proc.devRef .tc main_arg8) :=
  (W12_of_ne m ρ c main_arg8 (by decide)).trans (st11_arg8 m ρ c)
theorem st13_arg8 (c : Dev nD) : W13 m ρ c (Proc.devRef .tc main_arg8) = W5 m ρ c (Proc.devRef .tc main_arg8) :=
  (keep5 (W12 m ρ c) main_arg8 (by decide)).trans (st12_arg8 m ρ c)
theorem st14_arg8 (c : Dev nD) : W14 m ρ c (Proc.devRef .tc main_arg8) = W5 m ρ c (Proc.devRef .tc main_arg8) :=
  (W14_of_ne m ρ c main_arg8 (by decide)).trans (st13_arg8 m ρ c)
theorem st15_arg8 (c : Dev nD) : W15 m ρ c (Proc.devRef .tc main_arg8) = W5 m ρ c (Proc.devRef .tc main_arg8) :=
  (keep6 (W14 m ρ c) main_arg8 (by decide)).trans (st14_arg8 m ρ c)
theorem st16_arg8 (c : Dev nD) : W16 m ρ c (Proc.devRef .tc main_arg8) = W5 m ρ c (Proc.devRef .tc main_arg8) :=
  (W16_of_ne m ρ c main_arg8 (by decide)).trans (st15_arg8 m ρ c)
theorem st17_arg8 (c : Dev nD) : W17 m ρ c (Proc.devRef .tc main_arg8) = W5 m ρ c (Proc.devRef .tc main_arg8) :=
  (W17_of_ne m ρ c main_arg8 (by decide)).trans (st16_arg8 m ρ c)
theorem st18_arg8 (c : Dev nD) : W18 m ρ c (Proc.devRef .tc main_arg8) = W5 m ρ c (Proc.devRef .tc main_arg8) :=
  (keep8 (W17 m ρ c) main_arg8 (by decide)).trans (st17_arg8 m ρ c)
theorem st19_arg8 (c : Dev nD) : W19 m ρ c (Proc.devRef .tc main_arg8) = W5 m ρ c (Proc.devRef .tc main_arg8) :=
  (W19_of_ne m ρ c main_arg8 (by decide)).trans (st18_arg8 m ρ c)

end Cert.KernelIdeal.KChain

end
-- ==== Proof.LibGatherVec.lean ====
/-
  A gather of single entries of a vector at a column of start indices, read at an index.

  `x[idx]` for a flat array `x : [N]` and an integer array `idx : [M]` reaches the host as a gather whose start indices are
  the column `[M, 1]`: no offset axis, the operand's one axis collapsed, slices of one entry, the index vector along the
  column's second axis. Result entry `s` is `x` at the start index `idx[s, 0]`, read as a signed integer and clamped into
  `[0, N − 1]`, as every start index of a gather is clamped.
-/
import Idealize.ShloMosaic.Lib.ValueIdx

noncomputable section

namespace Cert.GatherVec

open Idealize.ShloMosaic Idealize.ShloMosaic.ValueIdx

variable {α : Type}

/-- Those dimension numbers for an operand `[N]`, start indices `[M, 1]` and a result `[M]`. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER READ AT `s`: the operand at the start index `idx[s, 0]`, read signed and clamped into `[0, N − 1]`. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (s : Fin M) :
    Host.gather (vecDims N M wf) x idx (ix1 s)
      = x (ix1 ⟨min (idx (ix2 s (0 : Fin 1))).toInt.toNat (N - 1), by omega⟩) := by
  unfold Host.gather
  congr 1
  funext a
  obtain rfl : a = 0 := Subsingleton.elim _ _
  refine Fin.ext ?_
  show (vecDims N M wf).start (ix1 s) idx 0 + (vecDims N M wf).batchCoord (ix1 s) 0 + (vecDims N M wf).offCoord (ix1 s) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N M wf).startIndexMap from List.mem_singleton.mpr rfl)]
  have hsi : (vecDims N M wf).siIdx (ix1 s) ⟨List.idxOf (0 : Fin 1) (vecDims N M wf).startIndexMap,
      List.idxOf_lt_length_iff.2 (List.mem_singleton.mpr rfl)⟩ = ix2 s (0 : Fin 1) := by
    funext b; refine Fin.ext ?_
    match b with
    | ⟨0, _⟩ => rfl
    | ⟨1, _⟩ => rfl
  rw [hsi]
  rfl

end Cert.GatherVec

end
-- ==== Proof.LibGatherRows.lean ====
/-
  A gather of whole rows of a rank-2 array at a column of start indices, read at an index.

  `x[idx]` for an array `x : [N, C]` and an integer array `idx : [M]` reaches the host as a gather whose start indices are
  the column `[M, 1]`: the result's second axis is the one offset axis, the operand's first axis is collapsed and is the
  one the start index names, slices are one row `[1, C]`, the index vector lies along the column's second axis. Result
  entry `(s, q)` is `x` at row `idx[s, 0]`, read as a signed integer and clamped into `[0, N − 1]` as every start index of
  a gather is clamped, and column `q`. The dimension numbers enter through their fields, so any record with these fields
  reads this way; the gather of single entries of a vector is restated in the same form.
-/
import Idealize.ShloMosaic.Lib.ValueIdx
import proofs.«117865_j31619549233339_2_alg».proof.Proof.LibGatherVec

noncomputable section

namespace Cert.GatherRows

open Idealize.ShloMosaic Idealize.ShloMosaic.ValueIdx

variable {α : Type}

/-- Two records of gather dimension numbers with the same fields are the same record. -/
theorem gatherDims_eq {s si t : Shape} (d d' : GatherDims s si t) (h1 : d.offsetDims = d'.offsetDims)
    (h2 : d.collapsedSliceDims = d'.collapsedSliceDims) (h3 : d.operandBatchingDims = d'.operandBatchingDims)
    (h4 : d.startIndicesBatchingDims = d'.startIndicesBatchingDims) (h5 : d.startIndexMap = d'.startIndexMap)
    (h6 : d.indexVectorDim = d'.indexVectorDim) (h7 : d.sliceSizes = d'.sliceSizes) : d = d' := by
  obtain ⟨od, cd, ob, sb, sm, iv, ss, wf⟩ := d
  obtain ⟨od', cd', ob', sb', sm', iv', ss', wf'⟩ := d'
  dsimp only at h1 h2 h3 h4 h5 h6 h7
  subst h1 h2 h3 h4 h5 h6 h7
  rfl

/-- THE GATHER OF ROWS READ AT `(s, q)`: the operand at row `idx[s, 0]`, read signed and clamped into `[0, N − 1]`, and
    column `q`. -/
theorem gather_rows_apply {N C M w : Nat} (hN : 0 < N) (d : GatherDims ⟨2, ![N, C]⟩ ⟨2, ![M, 1]⟩ ⟨2, ![M, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![M, 1]⟩ w) (s : Fin M) (q : Fin C) :
    Host.gather d x idx (ix2 s q)
      = x (ix2 ⟨min (idx (ix2 s (0 : Fin 1))).toInt.toNat (N - 1), by omega⟩ q) := by
  obtain ⟨od, cd, ob, sb, sm, iv, ss, wf⟩ := d
  dsimp only at h1 h2 h3 h4 h5 h6 h7
  subst h1 h2 h3 h4 h5 h6 h7
  generalize hD : (⟨[1], [0], [], [], [0], 1, ![1, C], wf⟩ : GatherDims ⟨2, ![N, C]⟩ ⟨2, ![M, 1]⟩ ⟨2, ![M, C]⟩) = D
  have hsm : D.startIndexMap = [0] := by subst hD; rfl
  have hob : D.operandBatchingDims = [] := by subst hD; rfl
  have hcd : D.collapsedSliceDims = [0] := by subst hD; rfl
  unfold Host.gather
  congr 1
  funext a
  refine Fin.ext ?_
  match a with
  | ⟨0, _⟩ =>
    show D.start (ix2 s q) idx 0 + D.batchCoord (ix2 s q) 0 + D.offCoord (ix2 s q) 0 = _
    rw [GatherDims.batchCoord_eq_zero _ _ _ (by rw [hob]; exact List.not_mem_nil),
      GatherDims.offCoord_eq_zero _ _ _ (fun h => ((GatherDims.mem_sKept _ _).mp h).1 (by rw [hcd]; exact List.mem_singleton.mpr rfl))]
    simp only [Nat.add_zero]
    subst hD
    unfold GatherDims.start
    rw [dif_pos (List.mem_singleton.mpr rfl)]
    have hsi : (⟨[1], [0], [], [], [0], 1, ![1, C], wf⟩ : GatherDims ⟨2, ![N, C]⟩ ⟨2, ![M, 1]⟩ ⟨2, ![M, C]⟩).siIdx (ix2 s q)
        ⟨List.idxOf (0 : Fin 2) [0], List.idxOf_lt_length_iff.2 (List.mem_singleton.mpr rfl)⟩ = ix2 s (0 : Fin 1) := by
      funext b; refine Fin.ext ?_
      match b with
      | ⟨0, _⟩ => rfl
      | ⟨1, _⟩ => rfl
    rw [hsi]
    rfl
  | ⟨1, _⟩ =>
    show D.start (ix2 s q) idx 1 + D.batchCoord (ix2 s q) 1 + D.offCoord (ix2 s q) 1 = q.val
    rw [GatherDims.batchCoord_eq_zero _ _ _ (by rw [hob]; exact List.not_mem_nil)]
    have hst : D.start (ix2 s q) idx 1 = 0 := by
      unfold GatherDims.start
      rw [dif_neg (by rw [hsm]; exact fun hm => Nat.one_ne_zero (congrArg Fin.val (List.mem_singleton.mp hm)))]
    rw [hst]
    subst hD
    unfold GatherDims.offCoord
    rw [dif_pos ((GatherDims.mem_sKept _ _).mpr
      ⟨fun hm => Nat.one_ne_zero (congrArg Fin.val (List.mem_singleton.mp hm)), List.not_mem_nil⟩)]
    simp only [Nat.zero_add, Nat.add_zero]
    rfl

/-- THE GATHER OF ENTRIES OF A VECTOR READ AT `s`, the dimension numbers given by their fields: the operand at the start
    index `idx[s, 0]`, read signed and clamped into `[0, N − 1]`. -/
theorem gather_vec_apply' {N M w : Nat} (hN : 0 < N) (d : GatherDims ⟨1, ![N]⟩ ⟨2, ![M, 1]⟩ ⟨1, ![M]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![M, 1]⟩ w) (s : Fin M) :
    Host.gather d x idx (ix1 s) = x (ix1 ⟨min (idx (ix2 s (0 : Fin 1))).toInt.toNat (N - 1), by omega⟩) := by
  obtain ⟨od, cd, ob, sb, sm, iv, ss, wf⟩ := d
  dsimp only at h1 h2 h3 h4 h5 h6 h7
  subst h1 h2 h3 h4 h5 h6 h7
  exact Cert.GatherVec.gather_vec_apply hN wf x idx s

end Cert.GatherRows

end
-- ==== Proof.LibSegmentSum.lean ====
/-
  A segment sum over edges, read at one entry: the accumulating scatter as a plain sum over edges.

  A segment sum scatters one update per edge into an operand and adds. Two shapes occur. ROWS: updates `[M, C]` go into
  an operand `[N, C]` at a column `[M, 1]` of scatter indices; the updates' second axis is the one window axis, the
  operand's first axis is inserted and is the one the scatter index names, and the index vector lies along the column's
  second axis. VECTOR: updates `[M]` go into an operand `[N]` at the same column of scatter indices; there is no window
  axis, the operand's only axis is inserted and named by the scatter index.

  An update lands at start plus window coordinate on every operand axis. On the named axis the start is the edge's scatter
  index read as a SIGNED integer, not clamped, and the window coordinate is zero; on the rows' column axis the start is
  zero and the window coordinate is the update's column. An update whose landing place is outside the operand is dropped.
  Hence the update of edge `e` (in column `q`) lands on row `p` (column `q'`) exactly when the scatter index of `e`, read
  signed, equals `p` (and `q = q'`): a negative or too large index names no row and contributes nothing.

  At the exact-arithmetic instance the accumulating scatter at an entry is that entry plus the sum of all updates landing
  on it. Reindexing the landing updates by their edge (the map `e ↦ (e, q)`, resp. `e ↦ (e)`, is a bijection from the
  edges whose index is `p` onto the updates landing on the entry) gives the scatter at `(p, q)` as
  `x[p, q] + ∑ over edges e with idx[e, 0] = p of upd[e, q]`, and at `p` as `x[p] + ∑ over the same edges of upd[e]`.

  The dimension numbers enter through their fields, so the statements apply to any record with those fields.
-/
import Idealize.ShloMosaic.PureOps
import Idealize.ShloMosaic.Lib.ValueIdx
import Idealize.ShloMosaic.PureOps.Ideal

noncomputable section

namespace Cert.SegmentSum

open Idealize.ShloMosaic Idealize.ShloMosaic.ValueIdx

/-! ## Rows: updates `[M, C]` into an operand `[N, C]` -/

/-- Rows: the window start on the row axis is the scatter index of the edge, read signed. -/
theorem rows_start_zero {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (e : Fin M) (q : Fin C) :
    d.start (ix2 e q) idx 0 = (idx (ix2 e (0 : Fin 1))).toInt := by
  obtain ⟨uw, iw, sd, iv, wf⟩ := d
  dsimp only at h1 h2 h3 h4
  subst h1 h2 h3 h4
  unfold ScatterDims.start
  rw [dif_pos (List.mem_singleton.mpr rfl)]
  have hsi : (⟨[1], [0], [0], 1, wf⟩ : ScatterDims ⟨2, ![N, C]⟩ ⟨2, ![M, 1]⟩ ⟨2, ![M, C]⟩).siIdx (ix2 e q)
      ⟨List.idxOf (0 : Fin 2) [0], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Rows: the column axis is not named by the scatter index, so its window start is zero. -/
theorem rows_start_one {N C M w : Nat} (d : ScatterDims ⟨2, ![N, C]⟩ ⟨2, ![M, 1]⟩ ⟨2, ![M, C]⟩)
    (h3 : d.scatterDimsToOperandDims = [0]) (idx : IVec ⟨2, ![M, 1]⟩ w) (j : (⟨2, ![M, C]⟩ : Shape).Idx) :
    d.start j idx 1 = 0 := by
  unfold ScatterDims.start
  rw [dif_neg (by rw [h3]; simp)]

/-- Rows: the row axis is inserted, so its window coordinate is zero. -/
theorem rows_window_zero {N C M : Nat} (d : ScatterDims ⟨2, ![N, C]⟩ ⟨2, ![M, 1]⟩ ⟨2, ![M, C]⟩)
    (h2 : d.insertedWindowDims = [0]) (j : (⟨2, ![M, C]⟩ : Shape).Idx) : d.window j 0 = 0 := by
  unfold ScatterDims.window
  rw [dif_neg (by simp [ScatterDims.sKept, Shape.kept, h2])]

/-- Rows: the window coordinate on the column axis is the update's column. -/
theorem rows_window_one {N C M : Nat} (d : ScatterDims ⟨2, ![N, C]⟩ ⟨2, ![M, 1]⟩ ⟨2, ![M, C]⟩)
    (h1 : d.updateWindowDims = [1]) (h2 : d.insertedWindowDims = [0]) (e : Fin M) (q : Fin C) :
    d.window (ix2 e q) 1 = q.val := by
  obtain ⟨uw, iw, sd, iv, wf⟩ := d
  dsimp only at h1 h2
  subst h1 h2
  unfold ScatterDims.window
  rw [dif_pos (by simp [ScatterDims.sKept, Shape.kept])]
  rfl

/-- ROWS, WHERE AN UPDATE LANDS: the update at `(e, q)` lands on the entry `(p, q')` exactly when the scatter index of
    edge `e`, read signed, is the row `p`, and the columns agree. -/
theorem rows_lands_iff {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (e : Fin M) (q : Fin C) (p : Fin N) (q' : Fin C) :
    d.resultIdx? (ix2 e q) idx = some (ix2 p q') ↔ (idx (ix2 e (0 : Fin 1))).toInt = (p.val : Int) ∧ q = q' := by
  have hs0 := rows_start_zero d h1 h2 h3 h4 idx e q
  have hs1 := rows_start_one d h3 idx (ix2 e q)
  have hw0 := rows_window_zero d h2 (ix2 e q)
  have hw1 := rows_window_one d h1 h2 e q
  unfold ScatterDims.resultIdx?
  constructor
  · intro h
    split at h
    · rename_i hb
      have hi := Option.some.inj h
      have b0 := (hb 0).1
      have e0 : (d.start (ix2 e q) idx 0 + (d.window (ix2 e q) 0 : Int)).toNat = p.val :=
        congrArg (fun f : (⟨2, ![N, C]⟩ : Shape).Idx => (f 0).val) hi
      have e1 : (d.start (ix2 e q) idx 1 + (d.window (ix2 e q) 1 : Int)).toNat = q'.val :=
        congrArg (fun f : (⟨2, ![N, C]⟩ : Shape).Idx => (f 1).val) hi
      rw [hs0, hw0] at e0 b0
      rw [hs1, hw1] at e1
      exact ⟨by omega, Fin.ext (by omega)⟩
    · exact absurd h (by simp)
  · rintro ⟨ht, rfl⟩
    have hb : ∀ a, 0 ≤ d.start (ix2 e q) idx a + d.window (ix2 e q) a ∧
        d.start (ix2 e q) idx a + d.window (ix2 e q) a < (⟨2, ![N, C]⟩ : Shape).size a := by
      intro a
      match a with
      | ⟨0, _⟩ =>
        show 0 ≤ d.start (ix2 e q) idx 0 + (d.window (ix2 e q) 0 : Int) ∧
          d.start (ix2 e q) idx 0 + (d.window (ix2 e q) 0 : Int) < (N : Int)
        rw [hs0, hw0, ht]; have := p.isLt; omega
      | ⟨1, _⟩ =>
        show 0 ≤ d.start (ix2 e q) idx 1 + (d.window (ix2 e q) 1 : Int) ∧
          d.start (ix2 e q) idx 1 + (d.window (ix2 e q) 1 : Int) < (C : Int)
        rw [hs1, hw1]; have := q.isLt; omega
    rw [dif_pos hb]
    congr 1
    funext a; refine Fin.ext ?_
    match a with
    | ⟨0, _⟩ =>
      show (d.start (ix2 e q) idx 0 + (d.window (ix2 e q) 0 : Int)).toNat = p.val
      rw [hs0, hw0, ht]; omega
    | ⟨1, _⟩ =>
      show (d.start (ix2 e q) idx 1 + (d.window (ix2 e q) 1 : Int)).toNat = q.val
      rw [hs1, hw1]; omega

/-- ROWS, THE SEGMENT SUM AT AN ENTRY: the accumulating scatter at `(p, q)` is the operand's entry plus the sum, over the
    edges whose scatter index read signed is the row `p`, of the updates' entries in column `q`. -/
theorem segSumRows_apply {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (x : FVec Ideal ⟨2, ![N, C]⟩ .f32)
    (upd : FVec Ideal ⟨2, ![M, C]⟩ .f32) (p : Fin N) (q : Fin C) :
    Host.scatterAdd (F := Ideal) d x idx upd (ix2 p q) = x (ix2 p q) +
      ∑ e ∈ Finset.univ.filter (fun e : Fin M => (idx (ix2 e (0 : Fin 1))).toInt = (p.val : Int)), upd (ix2 e q) := by
  show x (ix2 p q) + ∑ j ∈ Finset.univ.filter (fun j => d.resultIdx? j idx = some (ix2 p q)), upd j = _
  congr 1
  symm
  refine Finset.sum_nbij' (fun e : Fin M => ix2 e q) (fun j : (⟨2, ![M, C]⟩ : Shape).Idx => (j 0 : Fin M)) ?_ ?_ ?_ ?_ ?_
  · intro e he
    exact Finset.mem_filter.2 ⟨Finset.mem_univ _,
      (rows_lands_iff d h1 h2 h3 h4 idx e q p q).2 ⟨(Finset.mem_filter.1 he).2, rfl⟩⟩
  · intro j hj
    have hj2 := (Finset.mem_filter.1 hj).2
    rw [eq_ix2 j] at hj2
    exact Finset.mem_filter.2 ⟨Finset.mem_univ _, ((rows_lands_iff d h1 h2 h3 h4 idx (j 0) (j 1) p q).1 hj2).1⟩
  · intro e _
    rfl
  · intro j hj
    have hj2 := (Finset.mem_filter.1 hj).2
    rw [eq_ix2 j] at hj2
    have hq := ((rows_lands_iff d h1 h2 h3 h4 idx (j 0) (j 1) p q).1 hj2).2
    show ix2 (j 0) q = j
    rw [← hq]
    exact (eq_ix2 j).symm
  · intro e _
    rfl

/-! ## Vector: updates `[M]` into an operand `[N]` -/

/-- Vector: the window start on the only axis is the scatter index of the edge, read signed. -/
theorem vec_start_zero {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (e : Fin M) :
    d.start (ix1 e) idx 0 = (idx (ix2 e (0 : Fin 1))).toInt := by
  obtain ⟨uw, iw, sd, iv, wf⟩ := d
  dsimp only at h1 h2 h3 h4
  subst h1 h2 h3 h4
  unfold ScatterDims.start
  rw [dif_pos (List.mem_singleton.mpr rfl)]
  have hsi : (⟨[], [0], [0], 1, wf⟩ : ScatterDims ⟨1, ![N]⟩ ⟨2, ![M, 1]⟩ ⟨1, ![M]⟩).siIdx (ix1 e)
      ⟨List.idxOf (0 : Fin 1) [0], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Vector: the only axis is inserted, so its window coordinate is zero. -/
theorem vec_window_zero {N M : Nat} (d : ScatterDims ⟨1, ![N]⟩ ⟨2, ![M, 1]⟩ ⟨1, ![M]⟩)
    (h2 : d.insertedWindowDims = [0]) (j : (⟨1, ![M]⟩ : Shape).Idx) : d.window j 0 = 0 := by
  unfold ScatterDims.window
  rw [dif_neg (by simp [ScatterDims.sKept, Shape.kept, h2])]

/-- VECTOR, WHERE AN UPDATE LANDS: the update of edge `e` lands on the entry `p` exactly when the scatter index of `e`,
    read signed, is `p`. -/
theorem vec_lands_iff {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (e : Fin M) (p : Fin N) :
    d.resultIdx? (ix1 e) idx = some (ix1 p) ↔ (idx (ix2 e (0 : Fin 1))).toInt = (p.val : Int) := by
  have hs0 := vec_start_zero d h1 h2 h3 h4 idx e
  have hw0 := vec_window_zero d h2 (ix1 e)
  unfold ScatterDims.resultIdx?
  constructor
  · intro h
    split at h
    · rename_i hb
      have hi := Option.some.inj h
      have b0 := (hb 0).1
      have e0 : (d.start (ix1 e) idx 0 + (d.window (ix1 e) 0 : Int)).toNat = p.val :=
        congrArg (fun f : (⟨1, ![N]⟩ : Shape).Idx => (f 0).val) hi
      rw [hs0, hw0] at e0 b0
      omega
    · exact absurd h (by simp)
  · intro ht
    have hb : ∀ a, 0 ≤ d.start (ix1 e) idx a + d.window (ix1 e) a ∧
        d.start (ix1 e) idx a + d.window (ix1 e) a < (⟨1, ![N]⟩ : Shape).size a := by
      intro a
      match a with
      | ⟨0, _⟩ =>
        show 0 ≤ d.start (ix1 e) idx 0 + (d.window (ix1 e) 0 : Int) ∧
          d.start (ix1 e) idx 0 + (d.window (ix1 e) 0 : Int) < (N : Int)
        rw [hs0, hw0, ht]; have := p.isLt; omega
    rw [dif_pos hb]
    congr 1
    funext a; refine Fin.ext ?_
    match a with
    | ⟨0, _⟩ =>
      show (d.start (ix1 e) idx 0 + (d.window (ix1 e) 0 : Int)).toNat = p.val
      rw [hs0, hw0, ht]; omega

/-- VECTOR, THE SEGMENT SUM AT AN ENTRY: the accumulating scatter at `p` is the operand's entry plus the sum, over the
    edges whose scatter index read signed is `p`, of the updates' entries. -/
theorem segSumVec_apply {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (x : FVec Ideal ⟨1, ![N]⟩ .f32)
    (upd : FVec Ideal ⟨1, ![M]⟩ .f32) (p : Fin N) :
    Host.scatterAdd (F := Ideal) d x idx upd (ix1 p) = x (ix1 p) +
      ∑ e ∈ Finset.univ.filter (fun e : Fin M => (idx (ix2 e (0 : Fin 1))).toInt = (p.val : Int)), upd (ix1 e) := by
  show x (ix1 p) + ∑ j ∈ Finset.univ.filter (fun j => d.resultIdx? j idx = some (ix1 p)), upd j = _
  congr 1
  symm
  refine Finset.sum_nbij' (fun e : Fin M => ix1 e) (fun j : (⟨1, ![M]⟩ : Shape).Idx => (j 0 : Fin M)) ?_ ?_ ?_ ?_ ?_
  · intro e he
    exact Finset.mem_filter.2 ⟨Finset.mem_univ _,
      (vec_lands_iff d h1 h2 h3 h4 idx e p).2 (Finset.mem_filter.1 he).2⟩
  · intro j hj
    have hj2 := (Finset.mem_filter.1 hj).2
    rw [eq_ix1 j] at hj2
    exact Finset.mem_filter.2 ⟨Finset.mem_univ _, (vec_lands_iff d h1 h2 h3 h4 idx (j 0) p).1 hj2⟩
  · intro e _
    rfl
  · intro j _
    exact (eq_ix1 j).symm
  · intro e _
    rfl

end Cert.SegmentSum

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«117865_j31619549233339_2_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.LibGcnFold.lean ====
/-
  Folding a symmetric degree normalisation out of a sum over edges, on the extended reals.

  A graph convolution scales the message of edge `e` by `d (src e) · d (dst e)` and sums the messages over the edges
  that arrive at a node `p`. On those edges `d (dst e)` is the one number `c = d p`, so it can be taken out of the sum:
  `∑ t e · (d e · c) = c · ∑ t e · d e`. On the extended reals a product distributes over a sum only under a
  condition; here the factor is a nonnegative finite number (a reciprocal square root of a count, or zero), and for such
  a factor it does, whatever the summands are. No finiteness of the messages is needed.
-/
import Mathlib.Data.EReal.Operations
import Idealize.ShloMosaic.PureOps.Ideal

noncomputable section

namespace Cert.GcnFold

open Idealize.ShloMosaic

variable {ι : Type}

/-- A nonnegative finite factor distributes over a finite sum of extended reals. -/
theorem mul_sum (s : Finset ι) (c : EReal) (h0 : 0 ≤ c) (ht : c ≠ ⊤) (f : ι → EReal) :
    c * ∑ e ∈ s, f e = ∑ e ∈ s, c * f e := by
  classical
  induction s using Finset.induction_on with
  | empty => simp
  | insert a s ha ih =>
    rw [Finset.sum_insert ha, Finset.sum_insert ha, EReal.left_distrib_of_nonneg_of_ne_top h0 ht, ih]

/-- THE FOLD: the factor `c` common to the edges of the sum, taken out of it. The sums start from zero, as an
    accumulating scatter into a zero array reads. -/
theorem fold_out (s : Finset ι) (c : EReal) (h0 : 0 ≤ c) (ht : c ≠ ⊤) (t d d' : ι → EReal)
    (hd : ∀ e ∈ s, d' e = c) :
    c * (0 + ∑ e ∈ s, t e * d e) = 0 + ∑ e ∈ s, t e * (d e * d' e) := by
  rw [zero_add, zero_add, mul_sum s c h0 ht]
  refine Finset.sum_congr rfl fun e he => ?_
  rw [hd e he, mul_left_comm, mul_comm c (d e)]

/-- A guarded reciprocal square root — `1/√x` where `x > 0`, zero elsewhere — is a nonnegative finite number for every
    extended real `x`: at `+∞` the reciprocal square root is `0`, and at a positive real it is a positive real. -/
theorem guarded_rsqrt (x : EReal) :
    0 ≤ Scalar.select (Ideal.cmp .ogt x 0) (Ideal.rsqrt x) (0 : EReal) ∧
      Scalar.select (Ideal.cmp .ogt x 0) (Ideal.rsqrt x) (0 : EReal) ≠ ⊤ := by
  unfold Scalar.select Ideal.cmp
  by_cases h : (0 : EReal) < x
  · have h1 : BitVec.ofBool (decide ((0 : EReal) < x)) = 1 := by rw [decide_eq_true h]; rfl
    dsimp only
    rw [if_pos h1]
    induction x using EReal.rec with
    | bot => exact absurd h (by simp)
    | top => rw [Ideal.rsqrt_top]; exact ⟨le_refl 0, EReal.zero_ne_top⟩
    | coe r =>
      have hr : 0 < r := by exact_mod_cast h
      rw [Ideal.rsqrt_coe, if_neg (not_lt.mpr hr.le), if_neg hr.ne']
      exact ⟨by exact_mod_cast (inv_nonneg.mpr (Real.sqrt_nonneg r)), EReal.coe_ne_top _⟩
  · have h1 : ¬ BitVec.ofBool (decide ((0 : EReal) < x)) = 1 := by rw [decide_eq_false h]; decide
    dsimp only
    rw [if_neg h1]
    exact ⟨le_refl 0, EReal.zero_ne_top⟩

end Cert.GcnFold

end
-- ==== Proof.LibGcnHost.lean ====
/-
  One graph-convolution layer in two host spellings, on the extended reals, read at an index.

  Nodes are numbered `0 … N-1`; an edge `e` carries a source entry, a destination entry and a weight `w e`; `d` is a
  per-node factor. The layer maps an `[N, C]` array `X` to

      out (p, q) = Σ over the edges e that arrive at p of  d (src e) · w e · d (dst e) · X (src e, q)   +   b q .

  The first spelling (`kLayer`) scales the rows of `X` by `d` before gathering them along the edges, multiplies by the
  weight, sums per destination and scales the rows of the sum by `d` once more. The second (`rLayer`) gathers the
  plain rows and multiplies each by the edge's whole coefficient `d (src e) · w e · d (dst e)` before summing. On the
  edges that arrive at `p` the factor `d (dst e)` is the one number `d p`, and a nonnegative finite factor
  distributes over a sum of extended reals whatever the summands are, so the two spellings agree wherever `d` is
  nonnegative and finite; nothing is asked of `X`, `w` or `b`.

  Integer entries are read as the host reads them: a gather clamps its (already wrapped) index into `0 … N-1`
  (`node`), a negative index counts from the end (`wrap`), and the accumulating scatter takes exactly the edges whose
  destination entry, read signed, is the row.
-/
import Idealize.ShloMosaic.PureOps.Ideal.Laws
import Idealize.ShloMosaic.Lib.ValueIdx
import proofs.«117865_j31619549233339_2_alg».proof.Proof.LibGatherRows
import proofs.«117865_j31619549233339_2_alg».proof.Proof.LibSegmentSum
import proofs.«117865_j31619549233339_2_alg».proof.Proof.LibHostLayout
import proofs.«117865_j31619549233339_2_alg».proof.Proof.LibGcnFold

open scoped BigOperators

noncomputable section

namespace Cert.GcnHost

open Idealize.ShloMosaic Idealize.ShloMosaic.ValueIdx

variable {N C M : ℕ}

/-- The node an integer entry names to a gather: read signed, clamped into `0 … N-1`. -/
def node (hN : 0 < N) (v : BitVec 32) : Fin N := ⟨min v.toInt.toNat (N - 1), by omega⟩

/-- A negative entry counts from the end: `nn` (the node count) is added to it. -/
def wrap (nn : BitVec 32) (h0 : (⟨0, ![]⟩ : Shape).BroadcastsInDim ⟨1, ![M]⟩ ![]) (r : IVec ⟨1, ![M]⟩ 32) :
    IVec ⟨1, ![M]⟩ 32 :=
  select (cmpi .slt r (broadcastInDim ⟨1, ![M]⟩ ![] h0 (constantI ⟨0, ![]⟩ 32 0#32)))
    (addi r (broadcastInDim ⟨1, ![M]⟩ ![] h0 (constantI ⟨0, ![]⟩ 32 nn))) r

/-- An entry that reads as a node number is not negative, so wrapping leaves it, and the gather's clamp finds that node. -/
theorem node_wrap (hN : 0 < N) (nn : BitVec 32) (h0 : (⟨0, ![]⟩ : Shape).BroadcastsInDim ⟨1, ![M]⟩ ![])
    (r : IVec ⟨1, ![M]⟩ 32) (e : Fin M) (p : Fin N) (h : (r (ix1 e)).toInt = (p.val : Int)) :
    node hN (wrap nn h0 r (ix1 e)) = p := by
  have hns : (r (ix1 e)).slt 0#32 = false := by
    rw [BitVec.slt, h]; simp
  have hw : wrap nn h0 r (ix1 e) = r (ix1 e) := by
    unfold wrap
    rw [select_apply]
    show Scalar.select (IntOp.cmpi .slt (r (ix1 e)) _) _ _ = _
    have : IntOp.cmpi .slt (r (ix1 e)) (broadcastInDim ⟨1, ![M]⟩ ![] h0 (constantI ⟨0, ![]⟩ 32 0#32) (ix1 e)) = 0#1 := by
      show BitVec.ofBool ((r (ix1 e)).slt 0#32) = 0#1
      rw [hns]; rfl
    rw [this, select_zero]
  rw [hw]
  apply Fin.ext
  show min (r (ix1 e)).toInt.toNat (N - 1) = p.val
  rw [h]
  have := p.isLt
  simp only [Int.toNat_natCast]
  omega

/-- A gather of rows reads row `node` of its index entry. -/
theorem gather_rows_node (hN : 0 < N) {α : Type} (gd : GatherDims ⟨2, ![N, C]⟩ ⟨2, ![M, 1]⟩ ⟨2, ![M, C]⟩)
    (g1 : gd.offsetDims = [1]) (g2 : gd.collapsedSliceDims = [0]) (g3 : gd.operandBatchingDims = [])
    (g4 : gd.startIndicesBatchingDims = []) (g5 : gd.startIndexMap = [0]) (g6 : gd.indexVectorDim = 1)
    (g7 : gd.sliceSizes = ![1, C]) (x : (⟨2, ![N, C]⟩ : Shape).Idx → α) (idx : IVec ⟨2, ![M, 1]⟩ 32) (s : Fin M) (q : Fin C) :
    Host.gather gd x idx (ix2 s q) = x (ix2 (node hN (idx (ix2 s (0 : Fin 1)))) q) :=
  GatherRows.gather_rows_apply hN gd g1 g2 g3 g4 g5 g6 g7 x idx s q

/-- A gather from a vector reads entry `node` of its index entry. -/
theorem gather_vec_node (hN : 0 < N) {α : Type} (gv : GatherDims ⟨1, ![N]⟩ ⟨2, ![M, 1]⟩ ⟨1, ![M]⟩)
    (v1 : gv.offsetDims = []) (v2 : gv.collapsedSliceDims = [0]) (v3 : gv.operandBatchingDims = [])
    (v4 : gv.startIndicesBatchingDims = []) (v5 : gv.startIndexMap = [0]) (v6 : gv.indexVectorDim = 1)
    (v7 : gv.sliceSizes = ![1]) (x : (⟨1, ![N]⟩ : Shape).Idx → α) (idx : IVec ⟨2, ![M, 1]⟩ 32) (s : Fin M) :
    Host.gather gv x idx (ix1 s) = x (ix1 (node hN (idx (ix2 s (0 : Fin 1))))) :=
  GatherRows.gather_vec_apply' hN gv v1 v2 v3 v4 v5 v6 v7 x idx s

section Layers

variable (gd : GatherDims ⟨2, ![N, C]⟩ ⟨2, ![M, 1]⟩ ⟨2, ![M, C]⟩) (sd : ScatterDims ⟨2, ![N, C]⟩ ⟨2, ![M, 1]⟩ ⟨2, ![M, C]⟩)
  (gv : GatherDims ⟨1, ![N]⟩ ⟨2, ![M, 1]⟩ ⟨1, ![M]⟩)
  (hv : (⟨1, ![N]⟩ : Shape).BroadcastsInDim ⟨2, ![N, 1]⟩ ![0])
  (hc : (⟨2, ![N, 1]⟩ : Shape).BroadcastsInDim ⟨2, ![N, C]⟩ ![0, 1])
  (hi : (⟨1, ![M]⟩ : Shape).BroadcastsInDim ⟨2, ![M, 1]⟩ ![0])
  (hwc : (⟨2, ![M, 1]⟩ : Shape).BroadcastsInDim ⟨2, ![M, C]⟩ ![0, 1])
  (hz : (⟨0, ![]⟩ : Shape).BroadcastsInDim ⟨2, ![N, C]⟩ ![])
  (hb1 : (⟨1, ![C]⟩ : Shape).BroadcastsInDim ⟨2, ![1, C]⟩ ![1])
  (hb2 : (⟨2, ![1, C]⟩ : Shape).BroadcastsInDim ⟨2, ![N, C]⟩ ![0, 1])
  (d : FVec Ideal ⟨1, ![N]⟩ .f32) (rw cw col : IVec ⟨1, ![M]⟩ 32) (w : FVec Ideal ⟨1, ![M]⟩ .f32)
  (X : FVec Ideal ⟨2, ![N, C]⟩ .f32) (b : FVec Ideal ⟨1, ![C]⟩ .f32)

/-- The first spelling: rows scaled by `d`, gathered along the edges (`rw`: the source entries, wrapped), weighted,
    summed per destination (`col`) into a zero array, rows scaled by `d` again, the bias row added. -/
def kLayer : FVec Ideal ⟨2, ![N, C]⟩ .f32 :=
  addf (mulf (broadcastInDim ⟨2, ![N, C]⟩ ![0, 1] hc (broadcastInDim ⟨2, ![N, 1]⟩ ![0] hv d))
      (Host.scatterAdd sd (broadcastInDim ⟨2, ![N, C]⟩ ![] hz (constant ⟨0, ![]⟩ .f32 0x00000000#32))
        (broadcastInDim ⟨2, ![M, 1]⟩ ![0] hi col)
        (mulf (Host.gather gd (mulf (broadcastInDim ⟨2, ![N, C]⟩ ![0, 1] hc (broadcastInDim ⟨2, ![N, 1]⟩ ![0] hv d)) X)
            (broadcastInDim ⟨2, ![M, 1]⟩ ![0] hi rw))
          (broadcastInDim ⟨2, ![M, C]⟩ ![0, 1] hwc (broadcastInDim ⟨2, ![M, 1]⟩ ![0] hi w)))))
    (broadcastInDim ⟨2, ![N, C]⟩ ![0, 1] hb2 (broadcastInDim ⟨2, ![1, C]⟩ ![1] hb1 b))

/-- The edge coefficient of the second spelling: `d` at the source, the weight, `d` at the destination (`cw`: the
    destination entries, wrapped). -/
def coef : FVec Ideal ⟨1, ![M]⟩ .f32 :=
  mulf (mulf (Host.gather gv d (broadcastInDim ⟨2, ![M, 1]⟩ ![0] hi rw)) w)
    (Host.gather gv d (broadcastInDim ⟨2, ![M, 1]⟩ ![0] hi cw))

/-- The second spelling: plain rows gathered along the edges, each times its edge's coefficient `nrm`, summed per
    destination into a zero array, the bias row added. -/
def rLayer (nrm : FVec Ideal ⟨1, ![M]⟩ .f32) : FVec Ideal ⟨2, ![N, C]⟩ .f32 :=
  addf (Host.scatterAdd sd (broadcastInDim ⟨2, ![N, C]⟩ ![] hz (constant ⟨0, ![]⟩ .f32 0x00000000#32))
      (broadcastInDim ⟨2, ![M, 1]⟩ ![0] hi col)
      (mulf (Host.gather gd X (broadcastInDim ⟨2, ![M, 1]⟩ ![0] hi rw))
        (broadcastInDim ⟨2, ![M, C]⟩ ![0, 1] hwc (broadcastInDim ⟨2, ![M, 1]⟩ ![0] hi nrm))))
    (broadcastInDim ⟨2, ![N, C]⟩ ![0, 1] hb2 (broadcastInDim ⟨2, ![1, C]⟩ ![1] hb1 b))

variable (hN : 0 < N)
  (g1 : gd.offsetDims = [1]) (g2 : gd.collapsedSliceDims = [0]) (g3 : gd.operandBatchingDims = [])
  (g4 : gd.startIndicesBatchingDims = []) (g5 : gd.startIndexMap = [0]) (g6 : gd.indexVectorDim = 1)
  (g7 : gd.sliceSizes = ![1, C])
  (s1 : sd.updateWindowDims = [1]) (s2 : sd.insertedWindowDims = [0]) (s3 : sd.scatterDimsToOperandDims = [0])
  (s4 : sd.indexVectorDim = 1)
  (v1 : gv.offsetDims = []) (v2 : gv.collapsedSliceDims = [0]) (v3 : gv.operandBatchingDims = [])
  (v4 : gv.startIndicesBatchingDims = []) (v5 : gv.startIndexMap = [0]) (v6 : gv.indexVectorDim = 1)
  (v7 : gv.sliceSizes = ![1])

/-- The edges that arrive at node `p`: the destination entry, read signed, is `p`. -/
def arriving (col : IVec ⟨1, ![M]⟩ 32) (p : Fin N) : Finset (Fin M) :=
  Finset.univ.filter fun e : Fin M => (col (ix1 e)).toInt = (p.val : Int)

include g1 g2 g3 g4 g5 g6 g7 s1 s2 s3 s4 in
/-- The first spelling at `(p, q)`. -/
theorem kLayer_apply (p : Fin N) (q : Fin C) :
    kLayer gd sd hv hc hi hwc hz hb1 hb2 d rw col w X b (ix2 p q)
      = d (ix1 p) * (0 + ∑ e ∈ arriving col p,
          (d (ix1 (node hN (rw (ix1 e)))) * X (ix2 (node hN (rw (ix1 e))) q)) * w (ix1 e)) + b (ix1 q) := by
  unfold kLayer arriving
  rw [addf_apply, mulf_apply, HostLayout.bcast_col_mat, HostLayout.bcast_vec_col, HostLayout.bcast_vec_mat,
    SegmentSum.segSumRows_apply sd s1 s2 s3 s4, HostLayout.bcast_scalar_mat, constant_apply, Ideal.ofBits_zero_f32]
  congr 3
  refine Finset.sum_congr ?_ fun e _ => ?_
  · ext e
    simp only [Finset.mem_filter, Finset.mem_univ, true_and]
    rw [HostLayout.bcast_vec_col]
  · rw [mulf_apply, gather_rows_node hN gd g1 g2 g3 g4 g5 g6 g7, mulf_apply, HostLayout.bcast_col_mat,
      HostLayout.bcast_vec_col, HostLayout.bcast_col_mat, HostLayout.bcast_vec_col, HostLayout.bcast_vec_col]

include v1 v2 v3 v4 v5 v6 v7 in
/-- The edge coefficient at edge `e`. -/
theorem coef_apply (e : Fin M) :
    coef gv hi d rw cw w (ix1 e)
      = (d (ix1 (node hN (rw (ix1 e)))) * w (ix1 e)) * d (ix1 (node hN (cw (ix1 e)))) := by
  unfold coef
  rw [mulf_apply, mulf_apply, gather_vec_node hN gv v1 v2 v3 v4 v5 v6 v7,
    gather_vec_node hN gv v1 v2 v3 v4 v5 v6 v7, HostLayout.bcast_vec_col, HostLayout.bcast_vec_col]

include g1 g2 g3 g4 g5 g6 g7 s1 s2 s3 s4 in
/-- The second spelling at `(p, q)`. -/
theorem rLayer_apply (nrm : FVec Ideal ⟨1, ![M]⟩ .f32) (p : Fin N) (q : Fin C) :
    rLayer gd sd hi hwc hz hb1 hb2 rw col X b nrm (ix2 p q)
      = (0 + ∑ e ∈ arriving col p, X (ix2 (node hN (rw (ix1 e))) q) * nrm (ix1 e)) + b (ix1 q) := by
  unfold rLayer arriving
  rw [addf_apply, HostLayout.bcast_vec_mat, SegmentSum.segSumRows_apply sd s1 s2 s3 s4, HostLayout.bcast_scalar_mat,
    constant_apply, Ideal.ofBits_zero_f32]
  congr 2
  refine Finset.sum_congr ?_ fun e _ => ?_
  · ext e
    simp only [Finset.mem_filter, Finset.mem_univ, true_and]
    rw [HostLayout.bcast_vec_col]
  · rw [mulf_apply, gather_rows_node hN gd g1 g2 g3 g4 g5 g6 g7, HostLayout.bcast_col_mat,
      HostLayout.bcast_vec_col, HostLayout.bcast_vec_col]

end Layers

/-! ## The two spellings agree -/

/-- THE BRIDGE. The first spelling at width `C'`, read at a column `emb q`, is the second spelling at width `C` read at
    column `q`, when the first's array and bias row restricted to the columns `emb ·` are the second's, the per-node
    factor is nonnegative and finite, and the wrapped destination entry of an edge that arrives at `p` names `p`:
    on those edges the destination factor is the one number `d p`, which distributes over the sum. -/
theorem layer_bridge {C' : ℕ} (hN : 0 < N)
    (gd' : GatherDims ⟨2, ![N, C']⟩ ⟨2, ![M, 1]⟩ ⟨2, ![M, C']⟩) (sd' : ScatterDims ⟨2, ![N, C']⟩ ⟨2, ![M, 1]⟩ ⟨2, ![M, C']⟩)
    (gd : GatherDims ⟨2, ![N, C]⟩ ⟨2, ![M, 1]⟩ ⟨2, ![M, C]⟩) (sd : ScatterDims ⟨2, ![N, C]⟩ ⟨2, ![M, 1]⟩ ⟨2, ![M, C]⟩)
    (gv : GatherDims ⟨1, ![N]⟩ ⟨2, ![M, 1]⟩ ⟨1, ![M]⟩)
    (hv : (⟨1, ![N]⟩ : Shape).BroadcastsInDim ⟨2, ![N, 1]⟩ ![0])
    (hc' : (⟨2, ![N, 1]⟩ : Shape).BroadcastsInDim ⟨2, ![N, C']⟩ ![0, 1])
    (hi hi' : (⟨1, ![M]⟩ : Shape).BroadcastsInDim ⟨2, ![M, 1]⟩ ![0])
    (hwc' : (⟨2, ![M, 1]⟩ : Shape).BroadcastsInDim ⟨2, ![M, C']⟩ ![0, 1])
    (hwc : (⟨2, ![M, 1]⟩ : Shape).BroadcastsInDim ⟨2, ![M, C]⟩ ![0, 1])
    (hz' : (⟨0, ![]⟩ : Shape).BroadcastsInDim ⟨2, ![N, C']⟩ ![])
    (hz : (⟨0, ![]⟩ : Shape).BroadcastsInDim ⟨2, ![N, C]⟩ ![])
    (hb1' : (⟨1, ![C']⟩ : Shape).BroadcastsInDim ⟨2, ![1, C']⟩ ![1])
    (hb2' : (⟨2, ![1, C']⟩ : Shape).BroadcastsInDim ⟨2, ![N, C']⟩ ![0, 1])
    (hb1 : (⟨1, ![C]⟩ : Shape).BroadcastsInDim ⟨2, ![1, C]⟩ ![1])
    (hb2 : (⟨2, ![1, C]⟩ : Shape).BroadcastsInDim ⟨2, ![N, C]⟩ ![0, 1])
    (g1' : gd'.offsetDims = [1]) (g2' : gd'.collapsedSliceDims = [0]) (g3' : gd'.operandBatchingDims = [])
    (g4' : gd'.startIndicesBatchingDims = []) (g5' : gd'.startIndexMap = [0]) (g6' : gd'.indexVectorDim = 1)
    (g7' : gd'.sliceSizes = ![1, C'])
    (s1' : sd'.updateWindowDims = [1]) (s2' : sd'.insertedWindowDims = [0]) (s3' : sd'.scatterDimsToOperandDims = [0])
    (s4' : sd'.indexVectorDim = 1)
    (g1 : gd.offsetDims = [1]) (g2 : gd.collapsedSliceDims = [0]) (g3 : gd.operandBatchingDims = [])
    (g4 : gd.startIndicesBatchingDims = []) (g5 : gd.startIndexMap = [0]) (g6 : gd.indexVectorDim = 1)
    (g7 : gd.sliceSizes = ![1, C])
    (s1 : sd.updateWindowDims = [1]) (s2 : sd.insertedWindowDims = [0]) (s3 : sd.scatterDimsToOperandDims = [0])
    (s4 : sd.indexVectorDim = 1)
    (v1 : gv.offsetDims = []) (v2 : gv.collapsedSliceDims = [0]) (v3 : gv.operandBatchingDims = [])
    (v4 : gv.startIndicesBatchingDims = []) (v5 : gv.startIndexMap = [0]) (v6 : gv.indexVectorDim = 1)
    (v7 : gv.sliceSizes = ![1])
    (d : FVec Ideal ⟨1, ![N]⟩ .f32) (rw cw col : IVec ⟨1, ![M]⟩ 32) (w : FVec Ideal ⟨1, ![M]⟩ .f32)
    (X' : FVec Ideal ⟨2, ![N, C']⟩ .f32) (b' : FVec Ideal ⟨1, ![C']⟩ .f32)
    (X : FVec Ideal ⟨2, ![N, C]⟩ .f32) (b : FVec Ideal ⟨1, ![C]⟩ .f32)
    (hd : ∀ i, 0 ≤ d i ∧ d i ≠ ⊤)
    (hcw : ∀ (e : Fin M) (p : Fin N), (col (ix1 e)).toInt = (p.val : Int) → node hN (cw (ix1 e)) = p)
    (emb : Fin C → Fin C') (hX : ∀ j q, X' (ix2 j (emb q)) = X (ix2 j q)) (hb : ∀ q, b' (ix1 (emb q)) = b (ix1 q))
    (p : Fin N) (q : Fin C) :
    kLayer gd' sd' hv hc' hi' hwc' hz' hb1' hb2' d rw col w X' b' (ix2 p (emb q))
      = rLayer gd sd hi hwc hz hb1 hb2 rw col X b (coef gv hi d rw cw w) (ix2 p q) := by
  rw [kLayer_apply gd' sd' hv hc' hi' hwc' hz' hb1' hb2' d rw col w X' b' hN g1' g2' g3' g4' g5' g6' g7' s1' s2' s3' s4',
    rLayer_apply gd sd hi hwc hz hb1 hb2 rw col X b hN g1 g2 g3 g4 g5 g6 g7 s1 s2 s3 s4, hb]
  congr 1
  have e1 : ∀ e ∈ arriving col p,
      (d (ix1 (node hN (rw (ix1 e)))) * X' (ix2 (node hN (rw (ix1 e))) (emb q))) * w (ix1 e)
        = X (ix2 (node hN (rw (ix1 e))) q) * (d (ix1 (node hN (rw (ix1 e)))) * w (ix1 e)) := by
    intro e _
    rw [hX, mul_comm (d _) (X _), mul_assoc]
  have e2 : ∀ e ∈ arriving col p,
      X (ix2 (node hN (rw (ix1 e))) q) * coef gv hi d rw cw w (ix1 e)
        = X (ix2 (node hN (rw (ix1 e))) q) * ((d (ix1 (node hN (rw (ix1 e)))) * w (ix1 e)) * d (ix1 (node hN (cw (ix1 e))))) := by
    intro e _
    rw [coef_apply gv hi d rw cw w hN v1 v2 v3 v4 v5 v6 v7]
  rw [Finset.sum_congr rfl e1, Finset.sum_congr rfl e2]
  exact GcnFold.fold_out (arriving col p) (d (ix1 p)) (hd _).1 (hd _).2
    (fun e => X (ix2 (node hN (rw (ix1 e))) q)) (fun e => d (ix1 (node hN (rw (ix1 e)))) * w (ix1 e))
    (fun e => d (ix1 (node hN (cw (ix1 e)))))
    (fun e he => by rw [hcw e p (Finset.mem_filter.mp he).2])

end Cert.GcnHost

end
-- ==== Proof.KPoint.lean ====
/-
  The idealized kernel's host-side quantities read at an index.

  A gather along the edges reads the node an edge entry names (the entry wrapped when negative, read signed and clamped
  into the node range); a segment sum into a zero array at a node is the zero entry plus the sum over the edges whose
  destination entry, read signed, is that node. Hence, entry by entry: the node degree is (0 + the sum of the normalised
  weights of the arriving edges) + 1, the per-edge coefficient is (factor at the source · weight) · factor at the
  destination, and the aggregate of a layer at (p, q) is 0 + the sum over the edges arriving at p of the scaled row.
-/
import proofs.«117865_j31619549233339_2_alg».proof.Proof.KVal
import proofs.«117865_j31619549233339_2_alg».proof.Proof.LibGcnHost

noncomputable section

namespace Cert.KVal

open Idealize.ShloMosaic Idealize.ShloMosaic.ValueIdx Cert.KernelIdeal Cert.KernelIdeal.Gen

/-- The node an entry names to a gather over the 100000 nodes. -/
abbrev nd (v : BitVec 32) : Fin 100000 := Cert.GcnHost.node (N := 100000) (by decide) v

/-- The edges whose entry in `d`, read signed, is the node `p`. -/
def arr (d : IA S1600000) (p : Fin 100000) : Finset (Fin 1600000) :=
  Finset.univ.filter fun e : Fin 1600000 => (d (ix1 e)).toInt = (p.val : Int)

theorem col_apply (r : IA S1600000) (e : Fin 1600000) (u : Fin 1) : col r (ix2 e u) = r (ix1 e) :=
  Cert.HostLayout.bcast_vec_col r bcast_S1600000_S1600000x1_0 e u

/-- The kernel's wrap is the negative-entry normalisation by the node count. -/
theorem wrap_eq (r : IA S1600000) : wrap r = Cert.GcnHost.wrap (M := 1600000) 100000#32 bcast_S_S1600000 r := rfl

theorem gatherN_apply (v : FA S100000) (r : IA S1600000) (e : Fin 1600000) :
    gatherN v r (ix1 e) = v (ix1 (nd (wrap r (ix1 e)))) := by
  unfold gatherN
  rw [Cert.GcnHost.gather_vec_node (N := 100000) (M := 1600000) (by decide) gather_S100000_S1600000x1_S1600000_n_0_n_n_0_1_1
    rfl rfl rfl rfl rfl rfl rfl, col_apply]

theorem gatherRows64_apply (h : FA S100000x64) (r : IA S1600000) (e : Fin 1600000) (q : Fin 64) :
    gatherRows64 h r (ix2 e q) = h (ix2 (nd (wrap r (ix1 e))) q) := by
  unfold gatherRows64
  rw [Cert.GcnHost.gather_rows_node (N := 100000) (C := 64) (M := 1600000) (by decide)
    gather_S100000x64_S1600000x1_S1600000x64_1_0_n_n_0_1_164 rfl rfl rfl rfl rfl rfl rfl, col_apply]

theorem gatherRows1_apply (h : FA S100000x1) (r : IA S1600000) (e : Fin 1600000) (q : Fin 1) :
    gatherRows1 h r (ix2 e q) = h (ix2 (nd (wrap r (ix1 e))) q) := by
  unfold gatherRows1
  rw [Cert.GcnHost.gather_rows_node (N := 100000) (C := 1) (M := 1600000) (by decide)
    gather_S100000x1_S1600000x1_S1600000x1_1_0_n_n_0_1_11 rfl rfl rfl rfl rfl rfl rfl, col_apply]

theorem arr_col (d : IA S1600000) (p : Fin 100000) :
    (Finset.univ.filter fun e : Fin 1600000 => (col d (ix2 e (0 : Fin 1))).toInt = (p.val : Int)) = arr d p := by
  unfold arr
  congr 1
  funext e
  rw [col_apply]

theorem segSum64_apply (d : IA S1600000) (u : FA S1600000x64) (p : Fin 100000) (q : Fin 64) :
    segSum64 d u (ix2 p q) = zeroN64 (ix2 p q) + ∑ e ∈ arr d p, u (ix2 e q) := by
  unfold segSum64
  rw [Cert.SegmentSum.segSumRows_apply (N := 100000) (C := 64) (M := 1600000)
    scatter_S100000x64_S1600000x1_S1600000x64_1_0_0_1 rfl rfl rfl rfl, arr_col]

theorem segSum1_apply (d : IA S1600000) (u : FA S1600000x1) (p : Fin 100000) (q : Fin 1) :
    segSum1 d u (ix2 p q) = zeroN1 (ix2 p q) + ∑ e ∈ arr d p, u (ix2 e q) := by
  unfold segSum1
  rw [Cert.SegmentSum.segSumRows_apply (N := 100000) (C := 1) (M := 1600000)
    scatter_S100000x1_S1600000x1_S1600000x1_1_0_0_1 rfl rfl rfl rfl, arr_col]

variable (x1 : IA S2x1600000) (x2 : FA S1600000)

theorem deg_apply (p : Fin 100000) :
    deg x1 x2 (ix1 p) = (zeroN (ix1 p) + ∑ e ∈ arr (dst x1) p, what x1 x2 (ix1 e)) + oneN (ix1 p) := by
  unfold deg
  rw [addf_apply, Cert.SegmentSum.segSumVec_apply (N := 100000) (M := 1600000)
    scatter_S100000_S1600000x1_S1600000_n_0_0_1 rfl rfl rfl rfl, arr_col]

theorem norm_apply (e : Fin 1600000) :
    norm x1 x2 (ix1 e) = (dinv x1 x2 (ix1 (nd (wrap (src x1) (ix1 e)))) * what x1 x2 (ix1 e))
      * dinv x1 x2 (ix1 (nd (wrap (dst x1) (ix1 e)))) := by
  unfold norm
  rw [mulf_apply, mulf_apply, gatherN_apply, gatherN_apply]

theorem dinv2_apply (p : Fin 100000) : dinv2 x1 x2 (ix1 p) = dinv x1 x2 (ix1 p) * dinv x1 x2 (ix1 p) := by
  unfold dinv2
  rw [mulf_apply]

end Cert.KVal

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowScale.lean ====
/-
  Rows scaled by a per-row factor, and entries of row-local layers read at a pair of indices.

  `scaleRows G s` multiplies every entry of row `p` of a rank-2 array `G` by the factor `s (p, 0)` held in a
  one-column array; `col v` lays a vector out as that column.  The vector unit spells the scaling as the column
  broadcast along the rows and multiplied in; the host as the vector broadcast to a column, the column broadcast
  along the rows, and multiplied in.  Both are `scaleRows`.  A reshape of a vector to a column is `col`.

  The matrix product, the row scaling and the rectified bias layer are row-local: the entry at `(p, q)` depends on
  row `p` of the left operand only (and on column `q` of the right operand, or entry `q` of the bias).  The `_at`
  lemmas state this for two arrays of different heights read at two indices, which is what reading a block of rows
  against the whole array needs.  All of it at any extents, on the extended reals.
-/
import proofs.«117865_j31619549233339_2_alg».proof.Proof.LibDense
import proofs.«117865_j31619549233339_2_alg».proof.Proof.LibRowBlocks

noncomputable section

open scoped BigOperators

namespace Cert.RowScale

open Idealize.ShloMosaic Idealize.ShloMosaic.ValueIdx Cert.Dense

/-- Every entry of row `p` multiplied by the row's factor `s (p, 0)`. -/
def scaleRows {M N : ℕ} (G : Mat M N) (s : Mat M 1) : Mat M N := fun i => G i * s (ix2 (c0 i) (0 : Fin 1))

theorem scaleRows_apply {M N : ℕ} (G : Mat M N) (s : Mat M 1) (p : Fin M) (q : Fin N) :
    scaleRows G s (ix2 p q) = G (ix2 p q) * s (ix2 p (0 : Fin 1)) := rfl

/-- A vector laid out as a one-column array. -/
def col {M : ℕ} (v : Row M) : Mat M 1 := fun i => v (ix1 (c0 i))

theorem col_apply {M : ℕ} (v : Row M) (p : Fin M) (u : Fin 1) : col v (ix2 p u) = v (ix1 p) := rfl

/-- A vector reshaped to a column is that column. -/
theorem shapeCast_col {M : ℕ} (v : Row M) (h : (⟨1, ![M]⟩ : Shape).ShapeCasts ⟨2, ![M, 1]⟩) :
    shapeCast ⟨2, ![M, 1]⟩ v h = col v := by
  funext i
  obtain ⟨p, u, rfl⟩ : ∃ (p : Fin M) (u : Fin 1), i = ix2 p u := ⟨i 0, i 1, eq_ix2 i⟩
  exact Cert.RowBlocks.shapeCast_col_apply v h p u

/-- The vector unit's form: the column broadcast along the rows, multiplied in. -/
theorem vecScaleRows {M N : ℕ} (G : FVec Ideal ⟨2, ![M, N]⟩ .f32) (s : FVec Ideal ⟨2, ![M, 1]⟩ .f32)
    (h : (⟨2, ![M, 1]⟩ : Shape).Broadcasts ⟨2, ![M, N]⟩) :
    mulf G (broadcastTo ⟨2, ![M, N]⟩ s h) = scaleRows G s := by
  funext i
  obtain ⟨p, q, rfl⟩ : ∃ (p : Fin M) (q : Fin N), i = ix2 p q := ⟨i 0, i 1, eq_ix2 i⟩
  show G (ix2 p q) * broadcastTo ⟨2, ![M, N]⟩ s h (ix2 p q) = _
  rw [Cert.RowBlocks.broadcastTo_col_apply]
  rfl

/-- The host's form: the vector broadcast to a column, the column along the rows, multiplied in. -/
theorem hostScaleRows {M N : ℕ} (G : FVec Ideal ⟨2, ![M, N]⟩ .f32) (v : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1]) :
    mulf G (broadcastInDim ⟨2, ![M, N]⟩ ![0, 1] h2 (broadcastInDim ⟨2, ![M, 1]⟩ ![0] h1 v)) = scaleRows G (col v) := by
  funext i
  obtain ⟨p, q, rfl⟩ : ∃ (p : Fin M) (q : Fin N), i = ix2 p q := ⟨i 0, i 1, eq_ix2 i⟩
  show G (ix2 p q) * broadcastInDim ⟨2, ![M, N]⟩ ![0, 1] h2 (broadcastInDim ⟨2, ![M, 1]⟩ ![0] h1 v) (ix2 p q) = _
  rw [broadcastInDim_apply ![0, 1] h2 _ (ix2 p q) (ix2 p (0 : Fin 1)) (fun a => by
        match a with
        | ⟨0, _⟩ =>
          show p.val = if M = 1 then 0 else p.val
          split
          · have := p.isLt; omega
          · rfl
        | ⟨1, _⟩ => rfl),
    broadcastInDim_apply ![0] h1 v (ix2 p (0 : Fin 1)) (ix1 p) (fun a => by
        match a with
        | ⟨0, _⟩ =>
          show p.val = if M = 1 then 0 else p.val
          split
          · have := p.isLt; omega
          · rfl)]
  rfl

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

/-- The row scaling at an index depends on the entry there and on the row's factor. -/
theorem scaleRows_at {M M' N N' : ℕ} (G : Mat M N) (s : Mat M 1) (G' : Mat M' N') (s' : Mat M' 1)
    (j : (⟨2, ![M', N']⟩ : Shape).Idx) (i : (⟨2, ![M, N]⟩ : Shape).Idx)
    (hG : G' j = G i) (hs : s' (ix2 (c0 j) (0 : Fin 1)) = s (ix2 (c0 i) (0 : Fin 1))) :
    scaleRows G' s' j = scaleRows G s i := by
  unfold scaleRows; rw [hG, hs]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

end Cert.RowScale

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«117865_j31619549233339_2_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.KSpec.lean ====
/-
  The ten regions of the three-layer graph convolution, each as a whole-array function on the extended reals.

  Every region computes its output row by row from the same rows of its operands, so a block of rows of the
  output is the whole-array function read at the rows the block sits at.  The functions, at any extents:

    normalize X (p, q)        = X(p, q) divided by the sum of row p of X
    mm X W (p, q)             = the sum over k of X(p, k) · W(k, q)                      (Cert.Dense.mm)
    scaleRows G n (p, q)      = G(p, q) · n(p, 0)                                        (Cert.RowScale.scaleRows)
    combine agg h d b (p, q)  = (agg(p, q) + d(p, 0) · h(p, q)) + b(0, q)
    combineRelu agg h d b     = the maximum of combine agg h d b and zero

  With one column (q ranging over one value) scaleRows is the entrywise product of two columns and combine is
  (agg(p, 0) + d(p, 0) · h(p, 0)) + b(0, 0).  The lemmas below read the vector unit's spelling of each of them
  (a lane sum from the zero word, a cast to a column, a column broadcast along the rows, a one-row array broadcast
  down the rows, a splat zero; casts between float formats and casts of an array to its own shape are the identity)
  as these functions, and state that each entry depends on its own row of the operands only.
-/
import proofs.«117865_j31619549233339_2_alg».proof.Proof.LibDense
import proofs.«117865_j31619549233339_2_alg».proof.Proof.LibRowBlocks
import proofs.«117865_j31619549233339_2_alg».proof.Proof.LibRowScale
import proofs.«117865_j31619549233339_2_alg».proof.Proof.LibBiasRow

noncomputable section

open scoped BigOperators

namespace Cert.KSpec

open Idealize.ShloMosaic Idealize.ShloMosaic.ValueIdx Cert.Dense Cert.RowScale Cert.BiasRow

/-! ## The functions -/

/-- Every row divided by its sum. -/
def normalize {M N : ℕ} (X : Mat M N) : Mat M N :=
  fun i => Ideal.div (X i) (∑ k : Fin N, X (ix2 (c0 i) k))

theorem normalize_apply {M N : ℕ} (X : Mat M N) (p : Fin M) (q : Fin N) :
    normalize X (ix2 p q) = Ideal.div (X (ix2 p q)) (∑ k : Fin N, X (ix2 p k)) := rfl

/-- The aggregate plus the node's own features scaled by the node's factor, plus the bias of the column. -/
def combine {M N : ℕ} (agg h : Mat M N) (d : Mat M 1) (b : Mat 1 N) : Mat M N :=
  fun i => (agg i + d (ix2 (c0 i) (0 : Fin 1)) * h i) + b (ix2 (0 : Fin 1) (c1 i))

theorem combine_apply {M N : ℕ} (agg h : Mat M N) (d : Mat M 1) (b : Mat 1 N) (p : Fin M) (q : Fin N) :
    combine agg h d b (ix2 p q)
      = (agg (ix2 p q) + d (ix2 p (0 : Fin 1)) * h (ix2 p q)) + b (ix2 (0 : Fin 1) q) := rfl

/-- The same, rectified. -/
def combineRelu {M N : ℕ} (agg h : Mat M N) (d : Mat M 1) (b : Mat 1 N) : Mat M N :=
  fun i => max (combine agg h d b i) 0

theorem combineRelu_apply {M N : ℕ} (agg h : Mat M N) (d : Mat M 1) (b : Mat 1 N) (p : Fin M) (q : Fin N) :
    combineRelu agg h d b (ix2 p q)
      = max ((agg (ix2 p q) + d (ix2 p (0 : Fin 1)) * h (ix2 p q)) + b (ix2 (0 : Fin 1) q)) 0 := rfl

/-! ## Row locality: an entry of a block of rows is the whole arrays' entry at the index it sits at -/

theorem normalize_at {M M' N : ℕ} (X : Mat M N) (X' : Mat M' N)
    (j : (⟨2, ![M', N]⟩ : Shape).Idx) (i : (⟨2, ![M, N]⟩ : Shape).Idx)
    (hX : ∀ k : Fin N, X' (ix2 (c0 j) k) = X (ix2 (c0 i) k)) (hji : X' j = X i) :
    normalize X' j = normalize X i := by
  unfold normalize
  rw [hji, Finset.sum_congr rfl fun k _ => hX k]

theorem combine_at {M M' N N' : ℕ} (agg h : Mat M N) (d : Mat M 1) (b : Mat 1 N) (agg' h' : Mat M' N') (d' : Mat M' 1)
    (b' : Mat 1 N') (j : (⟨2, ![M', N']⟩ : Shape).Idx) (i : (⟨2, ![M, N]⟩ : Shape).Idx)
    (ha : agg' j = agg i) (hh : h' j = h i) (hd : d' (ix2 (c0 j) (0 : Fin 1)) = d (ix2 (c0 i) (0 : Fin 1)))
    (hb : b' (ix2 (0 : Fin 1) (c1 j)) = b (ix2 (0 : Fin 1) (c1 i))) :
    combine agg' h' d' b' j = combine agg h d b i := by
  unfold combine
  rw [ha, hh, hd, hb]

theorem combineRelu_at {M M' N N' : ℕ} (agg h : Mat M N) (d : Mat M 1) (b : Mat 1 N) (agg' h' : Mat M' N') (d' : Mat M' 1)
    (b' : Mat 1 N') (j : (⟨2, ![M', N']⟩ : Shape).Idx) (i : (⟨2, ![M, N]⟩ : Shape).Idx)
    (ha : agg' j = agg i) (hh : h' j = h i) (hd : d' (ix2 (c0 j) (0 : Fin 1)) = d (ix2 (c0 i) (0 : Fin 1)))
    (hb : b' (ix2 (0 : Fin 1) (c1 j)) = b (ix2 (0 : Fin 1) (c1 i))) :
    combineRelu agg' h' d' b' j = combineRelu agg h d b i := by
  unfold combineRelu
  rw [combine_at agg h d b agg' h' d' b' j i ha hh hd hb]

/-! ## The vector unit's spellings -/

/-- A lane sum from the zero word, cast to a column, broadcast along the rows, and divided into the array. -/
theorem vecNormalize {M N : ℕ} (X : FVec Ideal ⟨2, ![M, N]⟩ .f32)
    (hr : (⟨2, ![M, N]⟩ : Shape).Reduces [1] ⟨1, ![M]⟩) (hφ : FKind.Formats .f32)
    (hacc : (0x00000000#32 : BitVec 32) = 0x00000000#32)
    (hc : (⟨1, ![M]⟩ : Shape).ShapeCasts ⟨2, ![M, 1]⟩) (hb : (⟨2, ![M, 1]⟩ : Shape).Broadcasts ⟨2, ![M, N]⟩) :
    divf X (broadcastTo ⟨2, ![M, N]⟩ (shapeCast ⟨2, ![M, 1]⟩
        (multiReduction (F := Ideal) .add [1] ⟨1, ![M]⟩ X 0x00000000#32 hr hφ hacc) hc) hb) = normalize X := by
  funext i
  obtain ⟨p, q, rfl⟩ : ∃ (p : Fin M) (q : Fin N), i = ix2 p q := ⟨i 0, i 1, eq_ix2 i⟩
  show Ideal.div (X (ix2 p q)) (broadcastTo ⟨2, ![M, N]⟩ _ hb (ix2 p q)) = _
  rw [Cert.RowBlocks.broadcastTo_col_apply, Cert.RowBlocks.shapeCast_col_apply, Cert.RowBlocks.rowSum_apply]
  rfl

/-- The column broadcast along the rows and multiplied in from the left, added to the aggregate, then the one-row
    array broadcast down the rows and added. -/
theorem vecCombine {M N : ℕ} (agg h : FVec Ideal ⟨2, ![M, N]⟩ .f32) (d : FVec Ideal ⟨2, ![M, 1]⟩ .f32)
    (b : FVec Ideal ⟨2, ![1, N]⟩ .f32) (hd : (⟨2, ![M, 1]⟩ : Shape).Broadcasts ⟨2, ![M, N]⟩)
    (hb : (⟨2, ![1, N]⟩ : Shape).Broadcasts ⟨2, ![M, N]⟩) :
    addf (addf agg (mulf (broadcastTo ⟨2, ![M, N]⟩ d hd) h)) (broadcastTo ⟨2, ![M, N]⟩ b hb) = combine agg h d b := by
  funext i
  obtain ⟨p, q, rfl⟩ : ∃ (p : Fin M) (q : Fin N), i = ix2 p q := ⟨i 0, i 1, eq_ix2 i⟩
  show (agg (ix2 p q) + broadcastTo ⟨2, ![M, N]⟩ d hd (ix2 p q) * h (ix2 p q)) + broadcastTo ⟨2, ![M, N]⟩ b hb (ix2 p q) = _
  rw [Cert.RowBlocks.broadcastTo_col_apply, broadcastTo_1b_ab_apply]
  rfl

/-- … and the maximum with a splat zero. -/
theorem vecCombineRelu {M N : ℕ} (agg h : FVec Ideal ⟨2, ![M, N]⟩ .f32) (d : FVec Ideal ⟨2, ![M, 1]⟩ .f32)
    (b : FVec Ideal ⟨2, ![1, N]⟩ .f32) (hd : (⟨2, ![M, 1]⟩ : Shape).Broadcasts ⟨2, ![M, N]⟩)
    (hb : (⟨2, ![1, N]⟩ : Shape).Broadcasts ⟨2, ![M, N]⟩) :
    maximumf (addf (addf agg (mulf (broadcastTo ⟨2, ![M, N]⟩ d hd) h)) (broadcastTo ⟨2, ![M, N]⟩ b hb))
        (broadcast ⟨2, ![M, N]⟩ (Scalar.ofBits (F := Ideal) .f32 0x00000000#32)) = combineRelu agg h d b := by
  rw [vecCombine]
  funext i
  show max (combine agg h d b i) (Ideal.ofBits .f32 0x00000000#32) = _
  rw [Ideal.ofBits_zero_f32]
  rfl

/-- With one column nothing is broadcast along the rows: the entrywise product of two columns is the row scaling. -/
theorem vecScaleCol {M : ℕ} (G n : FVec Ideal ⟨2, ![M, 1]⟩ .f32) : mulf G n = scaleRows G n := by
  funext i
  obtain ⟨p, q, rfl⟩ : ∃ (p : Fin M) (q : Fin 1), i = ix2 p q := ⟨i 0, i 1, eq_ix2 i⟩
  obtain rfl : q = 0 := Subsingleton.elim _ _
  rfl

/-- With one column the factor and the features are multiplied entrywise, and the bias is a one-entry array. -/
theorem vecCombineCol {M : ℕ} (agg h d : FVec Ideal ⟨2, ![M, 1]⟩ .f32) (b : FVec Ideal ⟨2, ![1, 1]⟩ .f32)
    (hb : (⟨2, ![1, 1]⟩ : Shape).Broadcasts ⟨2, ![M, 1]⟩) :
    addf (addf agg (mulf d h)) (broadcastTo ⟨2, ![M, 1]⟩ b hb) = combine agg h d b := by
  funext i
  obtain ⟨p, q, rfl⟩ : ∃ (p : Fin M) (q : Fin 1), i = ix2 p q := ⟨i 0, i 1, eq_ix2 i⟩
  obtain rfl : q = 0 := Subsingleton.elim _ _
  show (agg (ix2 p 0) + d (ix2 p 0) * h (ix2 p 0)) + broadcastTo ⟨2, ![M, 1]⟩ b hb (ix2 p 0) = _
  rw [broadcastTo_1b_ab_apply]
  rfl

end Cert.KSpec

end
-- ==== Proof.KLayer.lean ====
/-
  The idealized kernel's three layers as whole-array functions of the argument arrays, and each layer read at an entry.

  A layer takes the dense product H of its input with its weights, gathers H's rows along the edges, scales each by its
  edge's coefficient, sums the scaled rows per destination into a zero array, and combines: the aggregate, plus the
  self-loop coefficient times H's own row, plus the bias — rectified in the first two layers. At (p, q) that is
  ((0 + the sum over the edges arriving at p of H(source node, q) · coefficient) + (factor(p) · factor(p)) · H(p, q)) + bias(q).
-/
import proofs.«117865_j31619549233339_2_alg».proof.Proof.KPoint
import proofs.«117865_j31619549233339_2_alg».proof.Proof.KSpec

noncomputable section

namespace Cert.KVal

open Idealize.ShloMosaic Idealize.ShloMosaic.ValueIdx Cert.KernelIdeal Cert.KernelIdeal.Gen Cert.Dense Cert.RowScale Cert.KSpec

variable (x1 : IA S2x1600000) (x2 : FA S1600000)

/-- A 64-column layer from its dense product `H` and its bias. -/
def out64 (H : FA S100000x64) (b : FA S64) : FA S100000x64 :=
  combineRelu (M := 100000) (N := 64)
    (segSum64 (dst x1) (scaleRows (M := 1600000) (N := 64) (gatherRows64 H (src x1)) (edgeCol (norm x1 x2))))
    H (nodeCol (dinv2 x1 x2)) (biasRow64 b)

/-- The one-column last layer from its dense product `H` and its bias (not rectified). -/
def out1 (H : FA S100000x1) (b : FA S1) : FA S100000x1 :=
  combine (M := 100000) (N := 1)
    (segSum1 (dst x1) (scaleRows (M := 1600000) (N := 1) (gatherRows1 H (src x1)) (edgeCol (norm x1 x2))))
    H (nodeCol (dinv2 x1 x2)) (biasRow1 b)

variable (x0 : FA S100000x64) (x3 : FA S64x64) (x4 : FA S64) (x5 : FA S64x64) (x6 : FA S64) (x7 : FA S64x1) (x8 : FA S1)

/-- The first layer's dense product. -/
def h1 : FA S100000x64 := mm (M := 100000) (K := 64) (N := 64) (normalize (M := 100000) (N := 64) x0) x3
/-- The first layer's result. -/
def y1 : FA S100000x64 := out64 x1 x2 (h1 x0 x3) x4
/-- The second layer's dense product. -/
def h2 : FA S100000x64 := mm (M := 100000) (K := 64) (N := 64) (y1 x1 x2 x0 x3 x4) x5
/-- The second layer's result. -/
def y2 : FA S100000x64 := out64 x1 x2 (h2 x1 x2 x0 x3 x4 x5) x6
/-- The last layer's dense product. -/
def h3 : FA S100000x1 := mm (M := 100000) (K := 64) (N := 1) (y2 x1 x2 x0 x3 x4 x5 x6) x7
/-- The kernel's result. -/
def y3 : FA S100000x1 := out1 x1 x2 (h3 x1 x2 x0 x3 x4 x5 x6 x7) x8

/-! ## The layers at an entry -/

theorem zeroN64_apply (p : Fin 100000) (q : Fin 64) : zeroN64 (ix2 p q) = 0 := by
  unfold zeroN64
  rw [broadcastInDim_apply ![] bcast_S_S100000x64 _ (ix2 p q) ix0 (fun a => a.elim0), constant_apply, Ideal.ofBits_zero_f32]

theorem zeroN1_apply (p : Fin 100000) (q : Fin 1) : zeroN1 (ix2 p q) = 0 := by
  unfold zeroN1
  rw [broadcastInDim_apply ![] bcast_S_S100000x1 _ (ix2 p q) ix0 (fun a => a.elim0), constant_apply, Ideal.ofBits_zero_f32]

theorem edgeCol_apply (v : FA S1600000) (e : Fin 1600000) (u : Fin 1) : edgeCol v (ix2 e u) = v (ix1 e) :=
  Cert.RowBlocks.shapeCast_col_apply v shapeCasts_S1600000_S1600000x1 e u

theorem nodeCol_apply (v : FA S100000) (p : Fin 100000) (u : Fin 1) : nodeCol v (ix2 p u) = v (ix1 p) :=
  Cert.RowBlocks.shapeCast_col_apply v shapeCasts_S100000_S100000x1 p u

theorem biasRow64_apply (b : FA S64) (u : Fin 1) (q : Fin 64) : biasRow64 b (ix2 u q) = b (ix1 q) := by
  unfold biasRow64
  rw [Cert.Dense.shapeCast_row (N := 64) b shapeCasts_S64_S1x64]
  rfl

theorem biasRow1_apply (b : FA S1) (u : Fin 1) (q : Fin 1) : biasRow1 b (ix2 u q) = b (ix1 q) := by
  unfold biasRow1
  rw [Cert.Dense.shapeCast_row (N := 1) b shapeCasts_S1_S1x1]
  rfl

/-- A 64-column layer at `(p, q)`. -/
theorem out64_apply (H : FA S100000x64) (b : FA S64) (p : Fin 100000) (q : Fin 64) :
    out64 x1 x2 H b (ix2 p q)
      = max (((0 + ∑ e ∈ arr (dst x1) p, H (ix2 (nd (wrap (src x1) (ix1 e))) q) * norm x1 x2 (ix1 e))
          + (dinv x1 x2 (ix1 p) * dinv x1 x2 (ix1 p)) * H (ix2 p q)) + b (ix1 q)) 0 := by
  have hs : ∑ e ∈ arr (dst x1) p,
        scaleRows (M := 1600000) (N := 64) (gatherRows64 H (src x1)) (edgeCol (norm x1 x2)) (ix2 e q)
      = ∑ e ∈ arr (dst x1) p, H (ix2 (nd (wrap (src x1) (ix1 e))) q) * norm x1 x2 (ix1 e) :=
    Finset.sum_congr rfl fun e _ => by rw [scaleRows_apply, gatherRows64_apply, edgeCol_apply]
  unfold out64
  rw [combineRelu_apply, segSum64_apply, zeroN64_apply, nodeCol_apply, dinv2_apply, biasRow64_apply, hs]

/-- The last layer at `(p, q)`. -/
theorem out1_apply (H : FA S100000x1) (b : FA S1) (p : Fin 100000) (q : Fin 1) :
    out1 x1 x2 H b (ix2 p q)
      = ((0 + ∑ e ∈ arr (dst x1) p, H (ix2 (nd (wrap (src x1) (ix1 e))) q) * norm x1 x2 (ix1 e))
          + (dinv x1 x2 (ix1 p) * dinv x1 x2 (ix1 p)) * H (ix2 p q)) + b (ix1 q) := by
  unfold out1
  have hq : q = (0 : Fin 1) := Subsingleton.elim _ _
  subst hq
  have hs : ∑ e ∈ arr (dst x1) p,
        scaleRows (M := 1600000) (N := 1) (gatherRows1 H (src x1)) (edgeCol (norm x1 x2)) (ix2 e (0 : Fin 1))
      = ∑ e ∈ arr (dst x1) p, H (ix2 (nd (wrap (src x1) (ix1 e))) (0 : Fin 1)) * norm x1 x2 (ix1 e) :=
    Finset.sum_congr rfl fun e _ => by rw [scaleRows_apply, gatherRows1_apply, edgeCol_apply]
  rw [combine_apply, segSum1_apply, zeroN1_apply, nodeCol_apply, dinv2_apply, biasRow1_apply, hs]

end Cert.KVal

end
-- ==== Proof.RegVal0.lean ====
/-
  Region 0: the features normalised row by row.  The grid has 20 points; point t holds rows 5000 t … 5000 t + 4999 of the
  100000 × 64 features in its input window and writes back the same rows, each entry divided by the sum of its row (a
  lane sum from the zero word, cast to a column and broadcast along the rows).  A row of the result depends on the same
  row of the features only, so the block written back is the whole array's normalisation read at those rows, and the
  twenty blocks tile the result.
-/
import proofs.«117865_j31619549233339_2_alg».proof.Proof.KSpec
import proofs.«117865_j31619549233339_2_alg».proof.Proof.Gen.KernelIdeal.Frame
import Idealize.ShloMosaic.Lib.Pipeline.Value

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.Pipeline (Dat)
open Idealize.ShloMosaic.ValueIdx Cert.Dense Cert.RowScale Cert.KSpec

variable (V : (c : Dev nD) → (b : Ref sig .tc) → Buf (Elt Ideal) ((c : Thread nD τ).loc b))

namespace R0

theorem hz : (![0, 0] : Fin 2 → Nat) = fun _ => 0 := funext fun a => by fin_cases a <;> rfl

/-- The body's payload: every entry divided by its row's sum. -/
theorem pay_eq (x0 : Vec Ideal S5000x64 .f32) :
    k0_pay1 (F := Ideal) x0 = normalize (M := 5000) (N := 64) x0 := by
  unfold k0_pay1
  exact vecNormalize x0 _ _ _ _ _

/-- An entry of a block's normalisation is the whole array's normalisation's entry, given the block's row. -/
theorem point (X : Mat 100000 64) (x0 : Vec Ideal S5000x64 .f32) (j : S5000x64.Idx) (i : S100000x64.Idx)
    (h0 : ∀ k : Fin 64, x0 (ix2 (c0 j) k) = X (ix2 (c0 i) k)) (hji : x0 j = X i) :
    k0_pay1 (F := Ideal) x0 j = normalize X i := by
  rw [pay_eq]
  exact normalize_at X x0 j i h0 hji

/-- The index maps over the grid: which block of its array each window holds at point t. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0 :=
  (by decide +kernel : ∀ t : Fin grid0.N, _)

/-- What point t writes back is block t of the whole array's normalisation. -/
theorem flushed_eq (c : Dev nD) (t : Fin cfg0.N) :
    (dat0 V c).flushed 1 t = ((cfg0.win 1).blk t).view.read (Elt Ideal)
      (normalize (M := 100000) (N := 64) (V c (Pipeline.arrRef spec0 0))) := by
  show (cfg0.win 1).cut (grid0.coords t) ((dat0 V c).after 1 t) = _
  rw [after0_1]
  unfold out0_1
  rw [View.canon_unit_zero hz]
  simp only [View.ld_unit_zero (S := S5000x64) hz]
  obtain ⟨e0_0, e0_1, e1_0, e1_1⟩ := idx_facts t
  funext j
  refine point (V c (Pipeline.arrRef spec0 0)) (iblk0 V c 0 t) j
    (((cfg0.win 1).blk t).view.emb j) (fun k => ?_) ?_
  · show V c (Pipeline.arrRef spec0 0) (((cfg0.win 0).blk t).view.emb (ix2 (c0 j) k)) = _
    refine congrArg (V c (Pipeline.arrRef spec0 0)) (funext fun a => Fin.ext ?_)
    match a with
    | ⟨0, _⟩ =>
      show win0_0.index t (0 : Fin 2) * 5000 + 1 * (j 0).val = win0_1.index t (0 : Fin 2) * 5000 + 1 * (j 0).val
      rw [e0_0, e1_0]
    | ⟨1, _⟩ =>
      show win0_0.index t (1 : Fin 2) * 64 + 1 * k.val = k.val
      rw [e0_1]; omega
  · show V c (Pipeline.arrRef spec0 0) (((cfg0.win 0).blk t).view.emb j) = _
    refine congrArg (V c (Pipeline.arrRef spec0 0)) (funext fun a => Fin.ext ?_)
    match a with
    | ⟨0, _⟩ =>
      show win0_0.index t (0 : Fin 2) * 5000 + 1 * (j 0).val = win0_1.index t (0 : Fin 2) * 5000 + 1 * (j 0).val
      rw [e0_0, e1_0]
    | ⟨1, _⟩ =>
      show win0_0.index t (1 : Fin 2) * 64 + 1 * (j 1).val = win0_1.index t (1 : Fin 2) * 64 + 1 * (j 1).val
      rw [e0_1, e1_1]

/-- An index of the result is in point t's block iff each coordinate is in the block's range on its axis. -/
theorem mem_blk (t : Fin cfg0.N) (i : S100000x64.Idx) :
    i ∈ ((cfg0.win 1).blk t).view.set ↔ ∀ a : Fin 2, win0_1.index t a * S5000x64.size a ≤ (i a).val ∧ (i a).val < win0_1.index t a * S5000x64.size a + S5000x64.size a := by
  show i ∈ ((View.whole main_v52).slice (win0_1.rect t)).set ↔ _
  rw [View.set_slice_whole, Rect.mem_set_unit]
  exact Iff.rfl

/-- Row r of the result is in the block of point r / 5000. -/
theorem cover (i : S100000x64.Idx) :
    ∃ t : Fin cfg0.N, (cfg0.win 1).flush t = true ∧ i ∈ ((cfg0.win 1).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨e0_0, e0_1, e1_0, e1_1⟩ := idx_facts t
  refine ⟨t, flush0_1 t, ?_⟩
  rw [mem_blk]
  intro a
  match a with
  | ⟨0, _⟩ =>
    show win0_1.index t (0 : Fin 2) * 5000 ≤ (i 0).val ∧ (i 0).val < win0_1.index t (0 : Fin 2) * 5000 + 5000
    rw [e1_0, ht]; omega
  | ⟨1, _⟩ =>
    show win0_1.index t (1 : Fin 2) * 64 ≤ (i 1).val ∧ (i 1).val < win0_1.index t (1 : Fin 2) * 64 + 64
    rw [e1_1]; omega

end R0

/-- After region 0 its result array holds the rows of the input array, each divided by its sum. -/
theorem final0 (c : Dev nD) :
    (Cert.KernelIdeal.Gen.dat0 (F := Ideal) V c).arrAt 1 Cert.KernelIdeal.cfg0.N
      = normalize (M := 100000) (N := 64) (V c (Pipeline.arrRef spec0 0)) :=
  (dat0 V c).arrAt_eq_of_cover 1 _ (fun t _ => R0.flushed_eq V c t) R0.cover

end Cert.KernelIdeal.RegVal

end
-- ==== Proof.RegVal1.lean ====
/-
  Region 1: the first layer's matrix product.  The grid has 20 points; point t holds rows 5000 t … 5000 t + 4999 of the
  100000 × 64 features in its first window, the whole 64 × 64 weights in its second, and writes back the same rows of
  the product.  A row of a product depends on the same row of the left operand only, so the block written back is the
  whole arrays' product read at those rows, and the twenty blocks tile the result.
-/
import proofs.«117865_j31619549233339_2_alg».proof.Proof.KSpec
import proofs.«117865_j31619549233339_2_alg».proof.Proof.Gen.KernelIdeal.Frame
import Idealize.ShloMosaic.Lib.Pipeline.Value

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.Pipeline (Dat)
open Idealize.ShloMosaic.ValueIdx Cert.Dense Cert.RowScale Cert.KSpec

variable (V : (c : Dev nD) → (b : Ref sig .tc) → Buf (Elt Ideal) ((c : Thread nD τ).loc b))

namespace R1

theorem hz : (![0, 0] : Fin 2 → Nat) = fun _ => 0 := funext fun a => by fin_cases a <;> rfl

/-- The body's payload: a product into a zero accumulator; the casts to the narrower format are the identity. -/
theorem pay_eq (x0 : Vec Ideal S5000x64 .f32) (x1 : Vec Ideal S64x64 .f32) :
    k1_pay1 (F := Ideal) x0 x1 = mm (M := 5000) (K := 64) (N := 64) x0 x1 := by
  unfold k1_pay1
  rw [shapeCast_self]
  exact matmul_zero_eq_mm dot_S5000x64_S64x64_S5000x64_1_0_0_1_n_n rfl rfl rfl rfl rfl rfl none _ _

/-- An entry of a block's product is the whole arrays' product's entry, given the block's row and the weights' column. -/
theorem point (X : Mat 100000 64) (W : Mat 64 64) (x0 : Vec Ideal S5000x64 .f32) (x1 : Vec Ideal S64x64 .f32)
    (j : S5000x64.Idx) (i : S100000x64.Idx)
    (h0 : ∀ k : Fin 64, x0 (ix2 (c0 j) k) = X (ix2 (c0 i) k))
    (h1 : ∀ k : Fin 64, x1 (ix2 k (c1 j)) = W (ix2 k (c1 i))) :
    k1_pay1 (F := Ideal) x0 x1 j = mm X W i := by
  rw [pay_eq]
  exact mm_at X W x0 x1 j i h0 h1

/-- The index maps over the grid: the row blocks move with the point, the weights stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole arrays' product. -/
theorem flushed_eq (c : Dev nD) (t : Fin cfg1.N) :
    (dat1 V c).flushed 2 t = ((cfg1.win 2).blk t).view.read (Elt Ideal)
      (mm (M := 100000) (K := 64) (N := 64) (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S5000x64) hz, View.ld_unit_zero (S := S64x64) hz]
  obtain ⟨e0, e1, e2, e3, e4, e5⟩ := idx_facts t
  funext j
  refine point (V c (Pipeline.arrRef spec1 0)) (V c (Pipeline.arrRef spec1 1)) (iblk1 V c 0 t) (iblk1 V c 1 t) j
    (((cfg1.win 2).blk t).view.emb j) (fun k => ?_) (fun k => ?_)
  · show V c (Pipeline.arrRef spec1 0) (((cfg1.win 0).blk t).view.emb (ix2 (c0 j) k)) = _
    refine congrArg (V c (Pipeline.arrRef spec1 0)) (funext fun a => Fin.ext ?_)
    match a with
    | ⟨0, _⟩ =>
      show win1_0.index t (0 : Fin 2) * 5000 + 1 * (j 0).val = win1_2.index t (0 : Fin 2) * 5000 + 1 * (j 0).val
      rw [e0, e4]
    | ⟨1, _⟩ =>
      show win1_0.index t (1 : Fin 2) * 64 + 1 * k.val = k.val
      rw [e1]; omega
  · show V c (Pipeline.arrRef spec1 1) (((cfg1.win 1).blk t).view.emb (ix2 k (c1 j))) = _
    refine congrArg (V c (Pipeline.arrRef spec1 1)) (funext fun a => Fin.ext ?_)
    match a with
    | ⟨0, _⟩ =>
      show win1_1.index t (0 : Fin 2) * 64 + 1 * k.val = k.val
      rw [e2]; omega
    | ⟨1, _⟩ =>
      show win1_1.index t (1 : Fin 2) * 64 + 1 * (j 1).val = win1_2.index t (1 : Fin 2) * 64 + 1 * (j 1).val
      rw [e3, e5]

/-- An index of the result is in point t's block iff each coordinate is in the block's range on its axis. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v53).slice (win1_2.rect t)).set ↔ _
  rw [View.set_slice_whole, Rect.mem_set_unit]
  exact Iff.rfl

/-- Row r of the result is in the block of point r / 5000. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨e0, e1, e2, e3, e4, e5⟩ := idx_facts t
  refine ⟨t, flush1_2 t, ?_⟩
  rw [mem_blk]
  intro a
  match a with
  | ⟨0, _⟩ =>
    show win1_2.index t (0 : Fin 2) * 5000 ≤ (i 0).val ∧ (i 0).val < win1_2.index t (0 : Fin 2) * 5000 + 5000
    rw [e4, ht]; omega
  | ⟨1, _⟩ =>
    show win1_2.index t (1 : Fin 2) * 64 ≤ (i 1).val ∧ (i 1).val < win1_2.index t (1 : Fin 2) * 64 + 64
    rw [e5]; omega

end R1

/-- After region 1 its result array holds the product of the two arrays the region found in its input windows. -/
theorem final1 (c : Dev nD) :
    (Cert.KernelIdeal.Gen.dat1 (F := Ideal) V c).arrAt 2 Cert.KernelIdeal.cfg1.N
      = mm (M := 100000) (K := 64) (N := 64) (V c (Pipeline.arrRef spec1 0)) (V c (Pipeline.arrRef spec1 1)) :=
  (dat1 V c).arrAt_eq_of_cover 2 _ (fun t _ => R1.flushed_eq V c t) R1.cover

end Cert.KernelIdeal.RegVal

end
-- ==== Proof.RegVal2.lean ====
/-
  Region 2: the first layer's messages.  The grid has 200 points; point t holds rows 8000 t … 8000 t + 7999 of the
  gathered 1600000 × 64 features in its first window and the same rows of the 1600000 × 1 edge factors in its second,
  and writes back those rows of the features, each multiplied by its row's factor.  The factor column is broadcast along the rows.
  An entry depends on its own row only, so the block written back is the whole arrays' scaling read at those rows, and the
  two hundred blocks tile the result.
-/
import proofs.«117865_j31619549233339_2_alg».proof.Proof.KSpec
import proofs.«117865_j31619549233339_2_alg».proof.Proof.Gen.KernelIdeal.Frame
import Idealize.ShloMosaic.Lib.Pipeline.Value

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.Pipeline (Dat)
open Idealize.ShloMosaic.ValueIdx Cert.Dense Cert.RowScale Cert.KSpec

variable (V : (c : Dev nD) → (b : Ref sig .tc) → Buf (Elt Ideal) ((c : Thread nD τ).loc b))

namespace R2

theorem hz : (![0, 0] : Fin 2 → Nat) = fun _ => 0 := funext fun a => by fin_cases a <;> rfl

/-- The body's payload: the rows multiplied by their factors; casts of an array to its own shape are the identity. -/
theorem pay_eq (x0 : Vec Ideal S8000x64 .f32) (x1 : Vec Ideal S8000x1 .f32) :
    k2_pay1 (F := Ideal) x0 x1 = scaleRows (M := 8000) (N := 64) x0 x1 := by
  unfold k2_pay1
  simp only [shapeCast_self]
  exact vecScaleRows _ _ _

/-- An entry of a block's scaling is the whole arrays' scaling's entry, given the entry and its row's factor. -/
theorem point (G : Mat 1600000 64) (n : Mat 1600000 1) (x0 : Vec Ideal S8000x64 .f32) (x1 : Vec Ideal S8000x1 .f32)
    (j : S8000x64.Idx) (i : S1600000x64.Idx)
    (h0 : x0 j = G i) (h1 : x1 (ix2 (c0 j) (0 : Fin 1)) = n (ix2 (c0 i) (0 : Fin 1))) :
    k2_pay1 (F := Ideal) x0 x1 j = scaleRows G n i := by
  rw [pay_eq]
  exact scaleRows_at G n x0 x1 j i h0 h1

/-- The index maps over the grid: which block of its array each window holds at point t. -/
theorem idx_facts : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0 :=
  (by decide +kernel : ∀ t : Fin grid2.N, _)

/-- What point t writes back is block t of the whole arrays' scaling. -/
theorem flushed_eq (c : Dev nD) (t : Fin cfg2.N) :
    (dat2 V c).flushed 2 t = ((cfg2.win 2).blk t).view.read (Elt Ideal)
      (scaleRows (M := 1600000) (N := 64) (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S8000x64) hz, View.ld_unit_zero (S := S8000x1) hz]
  obtain ⟨e0_0, e0_1, e1_0, e1_1, e2_0, e2_1⟩ := idx_facts t
  funext j
  refine point (V c (Pipeline.arrRef spec2 0)) (V c (Pipeline.arrRef spec2 1)) (iblk2 V c 0 t) (iblk2 V c 1 t) j
    (((cfg2.win 2).blk t).view.emb j) ?_ ?_
  · show V c (Pipeline.arrRef spec2 0) (((cfg2.win 0).blk t).view.emb j) = _
    refine congrArg (V c (Pipeline.arrRef spec2 0)) (funext fun a => Fin.ext ?_)
    match a with
    | ⟨0, _⟩ =>
      show win2_0.index t (0 : Fin 2) * 8000 + 1 * (j 0).val = win2_2.index t (0 : Fin 2) * 8000 + 1 * (j 0).val
      rw [e0_0, e2_0]
    | ⟨1, _⟩ =>
      show win2_0.index t (1 : Fin 2) * 64 + 1 * (j 1).val = win2_2.index t (1 : Fin 2) * 64 + 1 * (j 1).val
      rw [e0_1, e2_1]
  · show V c (Pipeline.arrRef spec2 1) (((cfg2.win 1).blk t).view.emb (ix2 (c0 j) (0 : Fin 1))) = _
    refine congrArg (V c (Pipeline.arrRef spec2 1)) (funext fun a => Fin.ext ?_)
    match a with
    | ⟨0, _⟩ =>
      show win2_1.index t (0 : Fin 2) * 8000 + 1 * (j 0).val = win2_2.index t (0 : Fin 2) * 8000 + 1 * (j 0).val
      rw [e1_0, e2_0]
    | ⟨1, _⟩ =>
      show win2_1.index t (1 : Fin 2) * 1 + 1 * 0 = 0
      rw [e1_1]

/-- An index of the result is in point t's block iff each coordinate is in the block's range on its axis. -/
theorem mem_blk (t : Fin cfg2.N) (i : S1600000x64.Idx) :
    i ∈ ((cfg2.win 2).blk t).view.set ↔ ∀ a : Fin 2, win2_2.index t a * S8000x64.size a ≤ (i a).val ∧ (i a).val < win2_2.index t a * S8000x64.size a + S8000x64.size a := by
  show i ∈ ((View.whole main_v62).slice (win2_2.rect t)).set ↔ _
  rw [View.set_slice_whole, Rect.mem_set_unit]
  exact Iff.rfl

/-- Row r of the result is in the block of point r / 8000. -/
theorem cover (i : S1600000x64.Idx) :
    ∃ t : Fin cfg2.N, (cfg2.win 2).flush t = true ∧ i ∈ ((cfg2.win 2).blk t).view.set := by
  have hi0 : (i 0).val < 1600000 := (i 0).isLt
  have hi1 : (i 1).val < 64 := (i 1).isLt
  have hN : cfg2.N = 200 := N_2
  obtain ⟨t, ht⟩ : ∃ t : Fin cfg2.N, t.val = (i 0).val / 8000 := ⟨⟨(i 0).val / 8000, by rw [hN]; omega⟩, rfl⟩
  obtain ⟨e0_0, e0_1, e1_0, e1_1, e2_0, e2_1⟩ := idx_facts t
  refine ⟨t, flush2_2 t, ?_⟩
  rw [mem_blk]
  intro a
  match a with
  | ⟨0, _⟩ =>
    show win2_2.index t (0 : Fin 2) * 8000 ≤ (i 0).val ∧ (i 0).val < win2_2.index t (0 : Fin 2) * 8000 + 8000
    rw [e2_0, ht]; omega
  | ⟨1, _⟩ =>
    show win2_2.index t (1 : Fin 2) * 64 ≤ (i 1).val ∧ (i 1).val < win2_2.index t (1 : Fin 2) * 64 + 64
    rw [e2_1]; omega

end R2

/-- After region 2 its result array holds the rows of the first input array scaled by the factors in the second. -/
theorem final2 (c : Dev nD) :
    (Cert.KernelIdeal.Gen.dat2 (F := Ideal) V c).arrAt 2 Cert.KernelIdeal.cfg2.N
      = scaleRows (M := 1600000) (N := 64) (V c (Pipeline.arrRef spec2 0)) (V c (Pipeline.arrRef spec2 1)) :=
  (dat2 V c).arrAt_eq_of_cover 2 _ (fun t _ => R2.flushed_eq V c t) R2.cover

end Cert.KernelIdeal.RegVal

end
-- ==== Proof.RegVal3.lean ====
/-
  Region 3: the first layer's combination.  The grid has 20 points; point t holds rows 5000 t … 5000 t + 4999 of the
  aggregated messages (first window), of the layer's own features (second) and of the 100000 × 1 node factors (third), and
  the whole 1 × 64 bias (fourth); it writes back, for those rows, (aggregate + factor · features) + bias, rectified.
  The factor column is broadcast along the rows, the bias row down the rows.
  An entry depends on its own row of the three arrays and on the bias of its column only, so the block written back is
  the whole arrays' combination read at those rows, and the twenty blocks tile the result.
-/
import proofs.«117865_j31619549233339_2_alg».proof.Proof.KSpec
import proofs.«117865_j31619549233339_2_alg».proof.Proof.Gen.KernelIdeal.Frame
import Idealize.ShloMosaic.Lib.Pipeline.Value

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.Pipeline (Dat)
open Idealize.ShloMosaic.ValueIdx Cert.Dense Cert.RowScale Cert.KSpec

variable (V : (c : Dev nD) → (b : Ref sig .tc) → Buf (Elt Ideal) ((c : Thread nD τ).loc b))

namespace R3

theorem hz : (![0, 0] : Fin 2 → Nat) = fun _ => 0 := funext fun a => by fin_cases a <;> rfl

/-- The body's payload, in the printed order of its operands: the factor times the features, added to the aggregate, then
    the bias, then the maximum with a zero splat; casts of an array to its own shape are the identity. -/
theorem pay_eq (x0 x1 : Vec Ideal S5000x64 .f32) (x2 : Vec Ideal S5000x1 .f32) (x3 : Vec Ideal S1x64 .f32) :
    k3_pay1 (F := Ideal) x0 x2 x1 x3 = combineRelu (M := 5000) (N := 64) x0 x1 x2 x3 := by
  unfold k3_pay1
  simp only [shapeCast_self]
  exact vecCombineRelu _ _ _ _ _ _

/-- An entry of a block's combination is the whole arrays' combination's entry, given the three entries of its row and
    the bias of its column. -/
theorem point (agg h : Mat 100000 64) (d : Mat 100000 1) (b : Mat 1 64) (x0 x1 : Vec Ideal S5000x64 .f32)
    (x2 : Vec Ideal S5000x1 .f32) (x3 : Vec Ideal S1x64 .f32) (j : S5000x64.Idx) (i : S100000x64.Idx)
    (ha : x0 j = agg i) (hh : x1 j = h i) (hd : x2 (ix2 (c0 j) (0 : Fin 1)) = d (ix2 (c0 i) (0 : Fin 1)))
    (hb : x3 (ix2 (0 : Fin 1) (c1 j)) = b (ix2 (0 : Fin 1) (c1 i))) :
    k3_pay1 (F := Ideal) x0 x2 x1 x3 j = combineRelu agg h d b i := by
  rw [pay_eq]
  exact combineRelu_at agg h d b x0 x1 x2 x3 j i ha hh hd hb

/-- The index maps over the grid: which block of its array each window holds at point t. -/
theorem idx_facts : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = 0
    ∧ win3_3.index t (1 : Fin 2) = 0
    ∧ win3_4.index t (0 : Fin 2) = t.val
    ∧ win3_4.index t (1 : Fin 2) = 0 :=
  (by decide +kernel : ∀ t : Fin grid3.N, _)

set_option maxHeartbeats 1000000 in
/-- What point t writes back is block t of the whole arrays' combination. -/
theorem flushed_eq (c : Dev nD) (t : Fin cfg3.N) :
    (dat3 V c).flushed 4 t = ((cfg3.win 4).blk t).view.read (Elt Ideal)
      (combineRelu (M := 100000) (N := 64) (V c (Pipeline.arrRef spec3 0)) (V c (Pipeline.arrRef spec3 1)) (V c (Pipeline.arrRef spec3 2)) (V c (Pipeline.arrRef spec3 3))) := by
  show (cfg3.win 4).cut (grid3.coords t) ((dat3 V c).after 4 t) = _
  rw [after3_4]
  unfold out3_4
  rw [View.canon_unit_zero hz]
  simp only [View.ld_unit_zero (S := S5000x64) hz, View.ld_unit_zero (S := S5000x1) hz, View.ld_unit_zero (S := S1x64) hz]
  obtain ⟨e0_0, e0_1, e1_0, e1_1, e2_0, e2_1, e3_0, e3_1, e4_0, e4_1⟩ := idx_facts t
  funext j
  refine point (V c (Pipeline.arrRef spec3 0)) (V c (Pipeline.arrRef spec3 1)) (V c (Pipeline.arrRef spec3 2)) (V c (Pipeline.arrRef spec3 3)) (iblk3 V c 0 t) (iblk3 V c 1 t) (iblk3 V c 2 t) (iblk3 V c 3 t) j
    (((cfg3.win 4).blk t).view.emb j) ?_ ?_ ?_ ?_
  · show V c (Pipeline.arrRef spec3 0) (((cfg3.win 0).blk t).view.emb j) = _
    refine congrArg (V c (Pipeline.arrRef spec3 0)) (funext fun a => Fin.ext ?_)
    match a with
    | ⟨0, _⟩ =>
      show win3_0.index t (0 : Fin 2) * 5000 + 1 * (j 0).val = win3_4.index t (0 : Fin 2) * 5000 + 1 * (j 0).val
      rw [e0_0, e4_0]
    | ⟨1, _⟩ =>
      show win3_0.index t (1 : Fin 2) * 64 + 1 * (j 1).val = win3_4.index t (1 : Fin 2) * 64 + 1 * (j 1).val
      rw [e0_1, e4_1]
  · show V c (Pipeline.arrRef spec3 1) (((cfg3.win 1).blk t).view.emb j) = _
    refine congrArg (V c (Pipeline.arrRef spec3 1)) (funext fun a => Fin.ext ?_)
    match a with
    | ⟨0, _⟩ =>
      show win3_1.index t (0 : Fin 2) * 5000 + 1 * (j 0).val = win3_4.index t (0 : Fin 2) * 5000 + 1 * (j 0).val
      rw [e1_0, e4_0]
    | ⟨1, _⟩ =>
      show win3_1.index t (1 : Fin 2) * 64 + 1 * (j 1).val = win3_4.index t (1 : Fin 2) * 64 + 1 * (j 1).val
      rw [e1_1, e4_1]
  · show V c (Pipeline.arrRef spec3 2) (((cfg3.win 2).blk t).view.emb (ix2 (c0 j) (0 : Fin 1))) = _
    refine congrArg (V c (Pipeline.arrRef spec3 2)) (funext fun a => Fin.ext ?_)
    match a with
    | ⟨0, _⟩ =>
      show win3_2.index t (0 : Fin 2) * 5000 + 1 * (j 0).val = win3_4.index t (0 : Fin 2) * 5000 + 1 * (j 0).val
      rw [e2_0, e4_0]
    | ⟨1, _⟩ =>
      show win3_2.index t (1 : Fin 2) * 1 + 1 * 0 = 0
      rw [e2_1]
  · show V c (Pipeline.arrRef spec3 3) (((cfg3.win 3).blk t).view.emb (ix2 (0 : Fin 1) (c1 j))) = _
    refine congrArg (V c (Pipeline.arrRef spec3 3)) (funext fun a => Fin.ext ?_)
    match a with
    | ⟨0, _⟩ =>
      show win3_3.index t (0 : Fin 2) * 1 + 1 * 0 = 0
      rw [e3_0]
    | ⟨1, _⟩ =>
      show win3_3.index t (1 : Fin 2) * 64 + 1 * (j 1).val = win3_4.index t (1 : Fin 2) * 64 + 1 * (j 1).val
      rw [e3_1, e4_1]

/-- An index of the result is in point t's block iff each coordinate is in the block's range on its axis. -/
theorem mem_blk (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v68).slice (win3_4.rect t)).set ↔ _
  rw [View.set_slice_whole, Rect.mem_set_unit]
  exact Iff.rfl

/-- Row r of the result is in the block of point r / 5000. -/
theorem cover (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨e0_0, e0_1, e1_0, e1_1, e2_0, e2_1, e3_0, e3_1, e4_0, e4_1⟩ := idx_facts t
  refine ⟨t, flush3_4 t, ?_⟩
  rw [mem_blk]
  intro a
  match a with
  | ⟨0, _⟩ =>
    show win3_4.index t (0 : Fin 2) * 5000 ≤ (i 0).val ∧ (i 0).val < win3_4.index t (0 : Fin 2) * 5000 + 5000
    rw [e4_0, ht]; omega
  | ⟨1, _⟩ =>
    show win3_4.index t (1 : Fin 2) * 64 ≤ (i 1).val ∧ (i 1).val < win3_4.index t (1 : Fin 2) * 64 + 64
    rw [e4_1]; omega

end R3

/-- After region 3 its result array holds (aggregate + factor · features) + bias, rectified, of the four arrays the region found in its
    input windows (aggregate, features, factors, bias, in window order). -/
theorem final3 (c : Dev nD) :
    (Cert.KernelIdeal.Gen.dat3 (F := Ideal) V c).arrAt 4 Cert.KernelIdeal.cfg3.N
      = combineRelu (M := 100000) (N := 64) (V c (Pipeline.arrRef spec3 0)) (V c (Pipeline.arrRef spec3 1)) (V c (Pipeline.arrRef spec3 2)) (V c (Pipeline.arrRef spec3 3)) :=
  (dat3 V c).arrAt_eq_of_cover 4 _ (fun t _ => R3.flushed_eq V c t) R3.cover

end Cert.KernelIdeal.RegVal

end
-- ==== Proof.RegVal4.lean ====
/-
  Region 4: the second layer's matrix product.  The grid has 20 points; point t holds rows 5000 t … 5000 t + 4999 of the
  100000 × 64 features in its first window, the whole 64 × 64 weights in its second, and writes back the same rows of
  the product.  A row of a product depends on the same row of the left operand only, so the block written back is the
  whole arrays' product read at those rows, and the twenty blocks tile the result.
-/
import proofs.«117865_j31619549233339_2_alg».proof.Proof.KSpec
import proofs.«117865_j31619549233339_2_alg».proof.Proof.Gen.KernelIdeal.Frame
import Idealize.ShloMosaic.Lib.Pipeline.Value

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.Pipeline (Dat)
open Idealize.ShloMosaic.ValueIdx Cert.Dense Cert.RowScale Cert.KSpec

variable (V : (c : Dev nD) → (b : Ref sig .tc) → Buf (Elt Ideal) ((c : Thread nD τ).loc b))

namespace R4

theorem hz : (![0, 0] : Fin 2 → Nat) = fun _ => 0 := funext fun a => by fin_cases a <;> rfl

/-- The body's payload: a product into a zero accumulator; the casts to the narrower format are the identity. -/
theorem pay_eq (x0 : Vec Ideal S5000x64 .f32) (x1 : Vec Ideal S64x64 .f32) :
    k4_pay1 (F := Ideal) x0 x1 = mm (M := 5000) (K := 64) (N := 64) x0 x1 := by
  unfold k4_pay1
  rw [shapeCast_self]
  exact matmul_zero_eq_mm dot_S5000x64_S64x64_S5000x64_1_0_0_1_n_n rfl rfl rfl rfl rfl rfl none _ _

/-- An entry of a block's product is the whole arrays' product's entry, given the block's row and the weights' column. -/
theorem point (X : Mat 100000 64) (W : Mat 64 64) (x0 : Vec Ideal S5000x64 .f32) (x1 : Vec Ideal S64x64 .f32)
    (j : S5000x64.Idx) (i : S100000x64.Idx)
    (h0 : ∀ k : Fin 64, x0 (ix2 (c0 j) k) = X (ix2 (c0 i) k))
    (h1 : ∀ k : Fin 64, x1 (ix2 k (c1 j)) = W (ix2 k (c1 i))) :
    k4_pay1 (F := Ideal) x0 x1 j = mm X W i := by
  rw [pay_eq]
  exact mm_at X W x0 x1 j i h0 h1

/-- The index maps over the grid: the row blocks move with the point, the weights stay. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

set_option maxHeartbeats 4000000 in
/-- What point t writes back is block t of the whole arrays' product. -/
theorem flushed_eq (c : Dev nD) (t : Fin cfg4.N) :
    (dat4 V c).flushed 2 t = ((cfg4.win 2).blk t).view.read (Elt Ideal)
      (mm (M := 100000) (K := 64) (N := 64) (V c (Pipeline.arrRef spec4 0)) (V c (Pipeline.arrRef spec4 1))) := by
  show (cfg4.win 2).cut (grid4.coords t) ((dat4 V c).after 2 t) = _
  rw [after4_2]
  unfold out4_2
  rw [View.canon_unit_zero hz]
  simp only [View.ld_unit_zero (S := S5000x64) hz, View.ld_unit_zero (S := S64x64) hz]
  obtain ⟨e0, e1, e2, e3, e4, e5⟩ := idx_facts t
  funext j
  refine point (V c (Pipeline.arrRef spec4 0)) (V c (Pipeline.arrRef spec4 1)) (iblk4 V c 0 t) (iblk4 V c 1 t) j
    (((cfg4.win 2).blk t).view.emb j) (fun k => ?_) (fun k => ?_)
  · show V c (Pipeline.arrRef spec4 0) (((cfg4.win 0).blk t).view.emb (ix2 (c0 j) k)) = _
    refine congrArg (V c (Pipeline.arrRef spec4 0)) (funext fun a => Fin.ext ?_)
    match a with
    | ⟨0, _⟩ =>
      show win4_0.index t (0 : Fin 2) * 5000 + 1 * (j 0).val = win4_2.index t (0 : Fin 2) * 5000 + 1 * (j 0).val
      rw [e0, e4]
    | ⟨1, _⟩ =>
      show win4_0.index t (1 : Fin 2) * 64 + 1 * k.val = k.val
      rw [e1]; omega
  · show V c (Pipeline.arrRef spec4 1) (((cfg4.win 1).blk t).view.emb (ix2 k (c1 j))) = _
    refine congrArg (V c (Pipeline.arrRef spec4 1)) (funext fun a => Fin.ext ?_)
    match a with
    | ⟨0, _⟩ =>
      show win4_1.index t (0 : Fin 2) * 64 + 1 * k.val = k.val
      rw [e2]; omega
    | ⟨1, _⟩ =>
      show win4_1.index t (1 : Fin 2) * 64 + 1 * (j 1).val = win4_2.index t (1 : Fin 2) * 64 + 1 * (j 1).val
      rw [e3, e5]

/-- An index of the result is in point t's block iff each coordinate is in the block's range on its axis. -/
theorem mem_blk (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v69).slice (win4_2.rect t)).set ↔ _
  rw [View.set_slice_whole, Rect.mem_set_unit]
  exact Iff.rfl

/-- Row r of the result is in the block of point r / 5000. -/
theorem cover (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 20 := N_4
  obtain ⟨t, ht⟩ : ∃ t : Fin cfg4.N, t.val = (i 0).val / 5000 := ⟨⟨(i 0).val / 5000, by rw [hN]; omega⟩, rfl⟩
  obtain ⟨e0, e1, e2, e3, e4, e5⟩ := idx_facts t
  refine ⟨t, flush4_2 t, ?_⟩
  rw [mem_blk]
  intro a
  match a with
  | ⟨0, _⟩ =>
    show win4_2.index t (0 : Fin 2) * 5000 ≤ (i 0).val ∧ (i 0).val < win4_2.index t (0 : Fin 2) * 5000 + 5000
    rw [e4, ht]; omega
  | ⟨1, _⟩ =>
    show win4_2.index t (1 : Fin 2) * 64 ≤ (i 1).val ∧ (i 1).val < win4_2.index t (1 : Fin 2) * 64 + 64
    rw [e5]; omega

end R4

/-- After region 4 its result array holds the product of the two arrays the region found in its input windows. -/
theorem final4 (c : Dev nD) :
    (Cert.KernelIdeal.Gen.dat4 (F := Ideal) V c).arrAt 2 Cert.KernelIdeal.cfg4.N
      = mm (M := 100000) (K := 64) (N := 64) (V c (Pipeline.arrRef spec4 0)) (V c (Pipeline.arrRef spec4 1)) :=
  (dat4 V c).arrAt_eq_of_cover 2 _ (fun t _ => R4.flushed_eq V c t) R4.cover

end Cert.KernelIdeal.RegVal

end
-- ==== Proof.RegVal5.lean ====
/-
  Region 5: the second layer's messages.  The grid has 200 points; point t holds rows 8000 t … 8000 t + 7999 of the
  gathered 1600000 × 64 features in its first window and the same rows of the 1600000 × 1 edge factors in its second,
  and writes back those rows of the features, each multiplied by its row's factor.  The factor column is broadcast along the rows.
  An entry depends on its own row only, so the block written back is the whole arrays' scaling read at those rows, and the
  two hundred blocks tile the result.
-/
import proofs.«117865_j31619549233339_2_alg».proof.Proof.KSpec
import proofs.«117865_j31619549233339_2_alg».proof.Proof.Gen.KernelIdeal.Frame
import Idealize.ShloMosaic.Lib.Pipeline.Value

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.Pipeline (Dat)
open Idealize.ShloMosaic.ValueIdx Cert.Dense Cert.RowScale Cert.KSpec

variable (V : (c : Dev nD) → (b : Ref sig .tc) → Buf (Elt Ideal) ((c : Thread nD τ).loc b))

namespace R5

theorem hz : (![0, 0] : Fin 2 → Nat) = fun _ => 0 := funext fun a => by fin_cases a <;> rfl

/-- The body's payload: the rows multiplied by their factors; casts of an array to its own shape are the identity. -/
theorem pay_eq (x0 : Vec Ideal S8000x64 .f32) (x1 : Vec Ideal S8000x1 .f32) :
    k5_pay1 (F := Ideal) x0 x1 = scaleRows (M := 8000) (N := 64) x0 x1 := by
  unfold k5_pay1
  simp only [shapeCast_self]
  exact vecScaleRows _ _ _

/-- An entry of a block's scaling is the whole arrays' scaling's entry, given the entry and its row's factor. -/
theorem point (G : Mat 1600000 64) (n : Mat 1600000 1) (x0 : Vec Ideal S8000x64 .f32) (x1 : Vec Ideal S8000x1 .f32)
    (j : S8000x64.Idx) (i : S1600000x64.Idx)
    (h0 : x0 j = G i) (h1 : x1 (ix2 (c0 j) (0 : Fin 1)) = n (ix2 (c0 i) (0 : Fin 1))) :
    k5_pay1 (F := Ideal) x0 x1 j = scaleRows G n i := by
  rw [pay_eq]
  exact scaleRows_at G n x0 x1 j i h0 h1

/-- The index maps over the grid: which block of its array each window holds at point t. -/
theorem idx_facts : ∀ t : Fin cfg5.N,
    win5_0.index t (0 : Fin 2) = t.val
    ∧ win5_0.index t (1 : Fin 2) = 0
    ∧ win5_1.index t (0 : Fin 2) = t.val
    ∧ win5_1.index t (1 : Fin 2) = 0
    ∧ win5_2.index t (0 : Fin 2) = t.val
    ∧ win5_2.index t (1 : Fin 2) = 0 :=
  (by decide +kernel : ∀ t : Fin grid5.N, _)

set_option maxHeartbeats 4000000 in
/-- What point t writes back is block t of the whole arrays' scaling. -/
theorem flushed_eq (c : Dev nD) (t : Fin cfg5.N) :
    (dat5 V c).flushed 2 t = ((cfg5.win 2).blk t).view.read (Elt Ideal)
      (scaleRows (M := 1600000) (N := 64) (V c (Pipeline.arrRef spec5 0)) (V c (Pipeline.arrRef spec5 1))) := by
  show (cfg5.win 2).cut (grid5.coords t) ((dat5 V c).after 2 t) = _
  rw [after5_2]
  unfold out5_2
  rw [View.canon_unit_zero hz]
  simp only [View.ld_unit_zero (S := S8000x64) hz, View.ld_unit_zero (S := S8000x1) hz]
  obtain ⟨e0_0, e0_1, e1_0, e1_1, e2_0, e2_1⟩ := idx_facts t
  funext j
  refine point (V c (Pipeline.arrRef spec5 0)) (V c (Pipeline.arrRef spec5 1)) (iblk5 V c 0 t) (iblk5 V c 1 t) j
    (((cfg5.win 2).blk t).view.emb j) ?_ ?_
  · show V c (Pipeline.arrRef spec5 0) (((cfg5.win 0).blk t).view.emb j) = _
    refine congrArg (V c (Pipeline.arrRef spec5 0)) (funext fun a => Fin.ext ?_)
    match a with
    | ⟨0, _⟩ =>
      show win5_0.index t (0 : Fin 2) * 8000 + 1 * (j 0).val = win5_2.index t (0 : Fin 2) * 8000 + 1 * (j 0).val
      rw [e0_0, e2_0]
    | ⟨1, _⟩ =>
      show win5_0.index t (1 : Fin 2) * 64 + 1 * (j 1).val = win5_2.index t (1 : Fin 2) * 64 + 1 * (j 1).val
      rw [e0_1, e2_1]
  · show V c (Pipeline.arrRef spec5 1) (((cfg5.win 1).blk t).view.emb (ix2 (c0 j) (0 : Fin 1))) = _
    refine congrArg (V c (Pipeline.arrRef spec5 1)) (funext fun a => Fin.ext ?_)
    match a with
    | ⟨0, _⟩ =>
      show win5_1.index t (0 : Fin 2) * 8000 + 1 * (j 0).val = win5_2.index t (0 : Fin 2) * 8000 + 1 * (j 0).val
      rw [e1_0, e2_0]
    | ⟨1, _⟩ =>
      show win5_1.index t (1 : Fin 2) * 1 + 1 * 0 = 0
      rw [e1_1]

/-- An index of the result is in point t's block iff each coordinate is in the block's range on its axis. -/
theorem mem_blk (t : Fin cfg5.N) (i : S1600000x64.Idx) :
    i ∈ ((cfg5.win 2).blk t).view.set ↔ ∀ a : Fin 2, win5_2.index t a * S8000x64.size a ≤ (i a).val ∧ (i a).val < win5_2.index t a * S8000x64.size a + S8000x64.size a := by
  show i ∈ ((View.whole main_v78).slice (win5_2.rect t)).set ↔ _
  rw [View.set_slice_whole, Rect.mem_set_unit]
  exact Iff.rfl

/-- Row r of the result is in the block of point r / 8000. -/
theorem cover (i : S1600000x64.Idx) :
    ∃ t : Fin cfg5.N, (cfg5.win 2).flush t = true ∧ i ∈ ((cfg5.win 2).blk t).view.set := by
  have hi0 : (i 0).val < 1600000 := (i 0).isLt
  have hi1 : (i 1).val < 64 := (i 1).isLt
  have hN : cfg5.N = 200 := N_5
  obtain ⟨t, ht⟩ : ∃ t : Fin cfg5.N, t.val = (i 0).val / 8000 := ⟨⟨(i 0).val / 8000, by rw [hN]; omega⟩, rfl⟩
  obtain ⟨e0_0, e0_1, e1_0, e1_1, e2_0, e2_1⟩ := idx_facts t
  refine ⟨t, flush5_2 t, ?_⟩
  rw [mem_blk]
  intro a
  match a with
  | ⟨0, _⟩ =>
    show win5_2.index t (0 : Fin 2) * 8000 ≤ (i 0).val ∧ (i 0).val < win5_2.index t (0 : Fin 2) * 8000 + 8000
    rw [e2_0, ht]; omega
  | ⟨1, _⟩ =>
    show win5_2.index t (1 : Fin 2) * 64 ≤ (i 1).val ∧ (i 1).val < win5_2.index t (1 : Fin 2) * 64 + 64
    rw [e2_1]; omega

end R5

/-- After region 5 its result array holds the rows of the first input array scaled by the factors in the second. -/
theorem final5 (c : Dev nD) :
    (Cert.KernelIdeal.Gen.dat5 (F := Ideal) V c).arrAt 2 Cert.KernelIdeal.cfg5.N
      = scaleRows (M := 1600000) (N := 64) (V c (Pipeline.arrRef spec5 0)) (V c (Pipeline.arrRef spec5 1)) :=
  (dat5 V c).arrAt_eq_of_cover 2 _ (fun t _ => R5.flushed_eq V c t) R5.cover

end Cert.KernelIdeal.RegVal

end
-- ==== Proof.RegVal6.lean ====
/-
  Region 6: the second layer's combination.  The grid has 20 points; point t holds rows 5000 t … 5000 t + 4999 of the
  aggregated messages (first window), of the layer's own features (second) and of the 100000 × 1 node factors (third), and
  the whole 1 × 64 bias (fourth); it writes back, for those rows, (aggregate + factor · features) + bias, rectified.
  The factor column is broadcast along the rows, the bias row down the rows.
  An entry depends on its own row of the three arrays and on the bias of its column only, so the block written back is
  the whole arrays' combination read at those rows, and the twenty blocks tile the result.
-/
import proofs.«117865_j31619549233339_2_alg».proof.Proof.KSpec
import proofs.«117865_j31619549233339_2_alg».proof.Proof.Gen.KernelIdeal.Frame
import Idealize.ShloMosaic.Lib.Pipeline.Value

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.Pipeline (Dat)
open Idealize.ShloMosaic.ValueIdx Cert.Dense Cert.RowScale Cert.KSpec

variable (V : (c : Dev nD) → (b : Ref sig .tc) → Buf (Elt Ideal) ((c : Thread nD τ).loc b))

namespace R6

theorem hz : (![0, 0] : Fin 2 → Nat) = fun _ => 0 := funext fun a => by fin_cases a <;> rfl

/-- The body's payload, in the printed order of its operands: the factor times the features, added to the aggregate, then
    the bias, then the maximum with a zero splat; casts of an array to its own shape are the identity. -/
theorem pay_eq (x0 x1 : Vec Ideal S5000x64 .f32) (x2 : Vec Ideal S5000x1 .f32) (x3 : Vec Ideal S1x64 .f32) :
    k6_pay1 (F := Ideal) x0 x2 x1 x3 = combineRelu (M := 5000) (N := 64) x0 x1 x2 x3 := by
  unfold k6_pay1
  simp only [shapeCast_self]
  exact vecCombineRelu _ _ _ _ _ _

/-- An entry of a block's combination is the whole arrays' combination's entry, given the three entries of its row and
    the bias of its column. -/
theorem point (agg h : Mat 100000 64) (d : Mat 100000 1) (b : Mat 1 64) (x0 x1 : Vec Ideal S5000x64 .f32)
    (x2 : Vec Ideal S5000x1 .f32) (x3 : Vec Ideal S1x64 .f32) (j : S5000x64.Idx) (i : S100000x64.Idx)
    (ha : x0 j = agg i) (hh : x1 j = h i) (hd : x2 (ix2 (c0 j) (0 : Fin 1)) = d (ix2 (c0 i) (0 : Fin 1)))
    (hb : x3 (ix2 (0 : Fin 1) (c1 j)) = b (ix2 (0 : Fin 1) (c1 i))) :
    k6_pay1 (F := Ideal) x0 x2 x1 x3 j = combineRelu agg h d b i := by
  rw [pay_eq]
  exact combineRelu_at agg h d b x0 x1 x2 x3 j i ha hh hd hb

/-- The index maps over the grid: which block of its array each window holds at point t. -/
theorem idx_facts : ∀ t : Fin cfg6.N,
    win6_0.index t (0 : Fin 2) = t.val
    ∧ win6_0.index t (1 : Fin 2) = 0
    ∧ win6_1.index t (0 : Fin 2) = t.val
    ∧ win6_1.index t (1 : Fin 2) = 0
    ∧ win6_2.index t (0 : Fin 2) = t.val
    ∧ win6_2.index t (1 : Fin 2) = 0
    ∧ win6_3.index t (0 : Fin 2) = 0
    ∧ win6_3.index t (1 : Fin 2) = 0
    ∧ win6_4.index t (0 : Fin 2) = t.val
    ∧ win6_4.index t (1 : Fin 2) = 0 :=
  (by decide +kernel : ∀ t : Fin grid6.N, _)

set_option maxHeartbeats 4000000 in
/-- What point t writes back is block t of the whole arrays' combination. -/
theorem flushed_eq (c : Dev nD) (t : Fin cfg6.N) :
    (dat6 V c).flushed 4 t = ((cfg6.win 4).blk t).view.read (Elt Ideal)
      (combineRelu (M := 100000) (N := 64) (V c (Pipeline.arrRef spec6 0)) (V c (Pipeline.arrRef spec6 1)) (V c (Pipeline.arrRef spec6 2)) (V c (Pipeline.arrRef spec6 3))) := by
  show (cfg6.win 4).cut (grid6.coords t) ((dat6 V c).after 4 t) = _
  rw [after6_4]
  unfold out6_4
  rw [View.canon_unit_zero hz]
  simp only [View.ld_unit_zero (S := S5000x64) hz, View.ld_unit_zero (S := S5000x1) hz, View.ld_unit_zero (S := S1x64) hz]
  obtain ⟨e0_0, e0_1, e1_0, e1_1, e2_0, e2_1, e3_0, e3_1, e4_0, e4_1⟩ := idx_facts t
  funext j
  refine point (V c (Pipeline.arrRef spec6 0)) (V c (Pipeline.arrRef spec6 1)) (V c (Pipeline.arrRef spec6 2)) (V c (Pipeline.arrRef spec6 3)) (iblk6 V c 0 t) (iblk6 V c 1 t) (iblk6 V c 2 t) (iblk6 V c 3 t) j
    (((cfg6.win 4).blk t).view.emb j) ?_ ?_ ?_ ?_
  · show V c (Pipeline.arrRef spec6 0) (((cfg6.win 0).blk t).view.emb j) = _
    refine congrArg (V c (Pipeline.arrRef spec6 0)) (funext fun a => Fin.ext ?_)
    match a with
    | ⟨0, _⟩ =>
      show win6_0.index t (0 : Fin 2) * 5000 + 1 * (j 0).val = win6_4.index t (0 : Fin 2) * 5000 + 1 * (j 0).val
      rw [e0_0, e4_0]
    | ⟨1, _⟩ =>
      show win6_0.index t (1 : Fin 2) * 64 + 1 * (j 1).val = win6_4.index t (1 : Fin 2) * 64 + 1 * (j 1).val
      rw [e0_1, e4_1]
  · show V c (Pipeline.arrRef spec6 1) (((cfg6.win 1).blk t).view.emb j) = _
    refine congrArg (V c (Pipeline.arrRef spec6 1)) (funext fun a => Fin.ext ?_)
    match a with
    | ⟨0, _⟩ =>
      show win6_1.index t (0 : Fin 2) * 5000 + 1 * (j 0).val = win6_4.index t (0 : Fin 2) * 5000 + 1 * (j 0).val
      rw [e1_0, e4_0]
    | ⟨1, _⟩ =>
      show win6_1.index t (1 : Fin 2) * 64 + 1 * (j 1).val = win6_4.index t (1 : Fin 2) * 64 + 1 * (j 1).val
      rw [e1_1, e4_1]
  · show V c (Pipeline.arrRef spec6 2) (((cfg6.win 2).blk t).view.emb (ix2 (c0 j) (0 : Fin 1))) = _
    refine congrArg (V c (Pipeline.arrRef spec6 2)) (funext fun a => Fin.ext ?_)
    match a with
    | ⟨0, _⟩ =>
      show win6_2.index t (0 : Fin 2) * 5000 + 1 * (j 0).val = win6_4.index t (0 : Fin 2) * 5000 + 1 * (j 0).val
      rw [e2_0, e4_0]
    | ⟨1, _⟩ =>
      show win6_2.index t (1 : Fin 2) * 1 + 1 * 0 = 0
      rw [e2_1]
  · show V c (Pipeline.arrRef spec6 3) (((cfg6.win 3).blk t).view.emb (ix2 (0 : Fin 1) (c1 j))) = _
    refine congrArg (V c (Pipeline.arrRef spec6 3)) (funext fun a => Fin.ext ?_)
    match a with
    | ⟨0, _⟩ =>
      show win6_3.index t (0 : Fin 2) * 1 + 1 * 0 = 0
      rw [e3_0]
    | ⟨1, _⟩ =>
      show win6_3.index t (1 : Fin 2) * 64 + 1 * (j 1).val = win6_4.index t (1 : Fin 2) * 64 + 1 * (j 1).val
      rw [e3_1, e4_1]

/-- An index of the result is in point t's block iff each coordinate is in the block's range on its axis. -/
theorem mem_blk (t : Fin cfg6.N) (i : S100000x64.Idx) :
    i ∈ ((cfg6.win 4).blk t).view.set ↔ ∀ a : Fin 2, win6_4.index t a * S5000x64.size a ≤ (i a).val ∧ (i a).val < win6_4.index t a * S5000x64.size a + S5000x64.size a := by
  show i ∈ ((View.whole main_v84).slice (win6_4.rect t)).set ↔ _
  rw [View.set_slice_whole, Rect.mem_set_unit]
  exact Iff.rfl

/-- Row r of the result is in the block of point r / 5000. -/
theorem cover (i : S100000x64.Idx) :
    ∃ t : Fin cfg6.N, (cfg6.win 4).flush t = true ∧ i ∈ ((cfg6.win 4).blk t).view.set := by
  have hi0 : (i 0).val < 100000 := (i 0).isLt
  have hi1 : (i 1).val < 64 := (i 1).isLt
  have hN : cfg6.N = 20 := N_6
  obtain ⟨t, ht⟩ : ∃ t : Fin cfg6.N, t.val = (i 0).val / 5000 := ⟨⟨(i 0).val / 5000, by rw [hN]; omega⟩, rfl⟩
  obtain ⟨e0_0, e0_1, e1_0, e1_1, e2_0, e2_1, e3_0, e3_1, e4_0, e4_1⟩ := idx_facts t
  refine ⟨t, flush6_4 t, ?_⟩
  rw [mem_blk]
  intro a
  match a with
  | ⟨0, _⟩ =>
    show win6_4.index t (0 : Fin 2) * 5000 ≤ (i 0).val ∧ (i 0).val < win6_4.index t (0 : Fin 2) * 5000 + 5000
    rw [e4_0, ht]; omega
  | ⟨1, _⟩ =>
    show win6_4.index t (1 : Fin 2) * 64 ≤ (i 1).val ∧ (i 1).val < win6_4.index t (1 : Fin 2) * 64 + 64
    rw [e4_1]; omega

end R6

/-- After region 6 its result array holds (aggregate + factor · features) + bias, rectified, of the four arrays the region found in its
    input windows (aggregate, features, factors, bias, in window order). -/
theorem final6 (c : Dev nD) :
    (Cert.KernelIdeal.Gen.dat6 (F := Ideal) V c).arrAt 4 Cert.KernelIdeal.cfg6.N
      = combineRelu (M := 100000) (N := 64) (V c (Pipeline.arrRef spec6 0)) (V c (Pipeline.arrRef spec6 1)) (V c (Pipeline.arrRef spec6 2)) (V c (Pipeline.arrRef spec6 3)) :=
  (dat6 V c).arrAt_eq_of_cover 4 _ (fun t _ => R6.flushed_eq V c t) R6.cover

end Cert.KernelIdeal.RegVal

end
-- ==== Proof.RegVal7.lean ====
/-
  Region 7: the third layer's matrix product.  The grid has 20 points; point t holds rows 5000 t … 5000 t + 4999 of the
  100000 × 64 features in its first window, the whole 64 × 1 weights in its second, and writes back the same rows of
  the product.  A row of a product depends on the same row of the left operand only, so the block written back is the
  whole arrays' product read at those rows, and the twenty blocks tile the result.
-/
import proofs.«117865_j31619549233339_2_alg».proof.Proof.KSpec
import proofs.«117865_j31619549233339_2_alg».proof.Proof.Gen.KernelIdeal.Frame
import Idealize.ShloMosaic.Lib.Pipeline.Value

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.Pipeline (Dat)
open Idealize.ShloMosaic.ValueIdx Cert.Dense Cert.RowScale Cert.KSpec

variable (V : (c : Dev nD) → (b : Ref sig .tc) → Buf (Elt Ideal) ((c : Thread nD τ).loc b))

namespace R7

theorem hz : (![0, 0] : Fin 2 → Nat) = fun _ => 0 := funext fun a => by fin_cases a <;> rfl

/-- The body's payload: a product into a zero accumulator; the casts to the narrower format are the identity. -/
theorem pay_eq (x0 : Vec Ideal S5000x64 .f32) (x1 : Vec Ideal S64x1 .f32) :
    k7_pay1 (F := Ideal) x0 x1 = mm (M := 5000) (K := 64) (N := 1) x0 x1 := by
  unfold k7_pay1
  rw [shapeCast_self]
  exact matmul_zero_eq_mm dot_S5000x64_S64x1_S5000x1_1_0_0_1_n_n rfl rfl rfl rfl rfl rfl none _ _

/-- An entry of a block's product is the whole arrays' product's entry, given the block's row and the weights' column. -/
theorem point (X : Mat 100000 64) (W : Mat 64 1) (x0 : Vec Ideal S5000x64 .f32) (x1 : Vec Ideal S64x1 .f32)
    (j : S5000x1.Idx) (i : S100000x1.Idx)
    (h0 : ∀ k : Fin 64, x0 (ix2 (c0 j) k) = X (ix2 (c0 i) k))
    (h1 : ∀ k : Fin 64, x1 (ix2 k (c1 j)) = W (ix2 k (c1 i))) :
    k7_pay1 (F := Ideal) x0 x1 j = mm X W i := by
  rw [pay_eq]
  exact mm_at X W x0 x1 j i h0 h1

/-- The index maps over the grid: the row blocks move with the point, the weights stay. -/
theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

set_option maxHeartbeats 4000000 in
/-- What point t writes back is block t of the whole arrays' product. -/
theorem flushed_eq (c : Dev nD) (t : Fin cfg7.N) :
    (dat7 V c).flushed 2 t = ((cfg7.win 2).blk t).view.read (Elt Ideal)
      (mm (M := 100000) (K := 64) (N := 1) (V c (Pipeline.arrRef spec7 0)) (V c (Pipeline.arrRef spec7 1))) := by
  show (cfg7.win 2).cut (grid7.coords t) ((dat7 V c).after 2 t) = _
  rw [after7_2]
  unfold out7_2
  rw [View.canon_unit_zero hz]
  simp only [View.ld_unit_zero (S := S5000x64) hz, View.ld_unit_zero (S := S64x1) hz]
  obtain ⟨e0, e1, e2, e3, e4, e5⟩ := idx_facts t
  funext j
  refine point (V c (Pipeline.arrRef spec7 0)) (V c (Pipeline.arrRef spec7 1)) (iblk7 V c 0 t) (iblk7 V c 1 t) j
    (((cfg7.win 2).blk t).view.emb j) (fun k => ?_) (fun k => ?_)
  · show V c (Pipeline.arrRef spec7 0) (((cfg7.win 0).blk t).view.emb (ix2 (c0 j) k)) = _
    refine congrArg (V c (Pipeline.arrRef spec7 0)) (funext fun a => Fin.ext ?_)
    match a with
    | ⟨0, _⟩ =>
      show win7_0.index t (0 : Fin 2) * 5000 + 1 * (j 0).val = win7_2.index t (0 : Fin 2) * 5000 + 1 * (j 0).val
      rw [e0, e4]
    | ⟨1, _⟩ =>
      show win7_0.index t (1 : Fin 2) * 64 + 1 * k.val = k.val
      rw [e1]; omega
  · show V c (Pipeline.arrRef spec7 1) (((cfg7.win 1).blk t).view.emb (ix2 k (c1 j))) = _
    refine congrArg (V c (Pipeline.arrRef spec7 1)) (funext fun a => Fin.ext ?_)
    match a with
    | ⟨0, _⟩ =>
      show win7_1.index t (0 : Fin 2) * 64 + 1 * k.val = k.val
      rw [e2]; omega
    | ⟨1, _⟩ =>
      show win7_1.index t (1 : Fin 2) * 1 + 1 * (j 1).val = win7_2.index t (1 : Fin 2) * 1 + 1 * (j 1).val
      rw [e3, e5]

/-- An index of the result is in point t's block iff each coordinate is in the block's range on its axis. -/
theorem mem_blk (t : Fin cfg7.N) (i : S100000x1.Idx) :
    i ∈ ((cfg7.win 2).blk t).view.set ↔ ∀ a : Fin 2, win7_2.index t a * S5000x1.size a ≤ (i a).val ∧ (i a).val < win7_2.index t a * S5000x1.size a + S5000x1.size a := by
  show i ∈ ((View.whole main_v85).slice (win7_2.rect t)).set ↔ _
  rw [View.set_slice_whole, Rect.mem_set_unit]
  exact Iff.rfl

/-- Row r of the result is in the block of point r / 5000. -/
theorem cover (i : S100000x1.Idx) :
    ∃ t : Fin cfg7.N, (cfg7.win 2).flush t = true ∧ i ∈ ((cfg7.win 2).blk t).view.set := by
  have hi0 : (i 0).val < 100000 := (i 0).isLt
  have hi1 : (i 1).val < 1 := (i 1).isLt
  have hN : cfg7.N = 20 := N_7
  obtain ⟨t, ht⟩ : ∃ t : Fin cfg7.N, t.val = (i 0).val / 5000 := ⟨⟨(i 0).val / 5000, by rw [hN]; omega⟩, rfl⟩
  obtain ⟨e0, e1, e2, e3, e4, e5⟩ := idx_facts t
  refine ⟨t, flush7_2 t, ?_⟩
  rw [mem_blk]
  intro a
  match a with
  | ⟨0, _⟩ =>
    show win7_2.index t (0 : Fin 2) * 5000 ≤ (i 0).val ∧ (i 0).val < win7_2.index t (0 : Fin 2) * 5000 + 5000
    rw [e4, ht]; omega
  | ⟨1, _⟩ =>
    show win7_2.index t (1 : Fin 2) * 1 ≤ (i 1).val ∧ (i 1).val < win7_2.index t (1 : Fin 2) * 1 + 1
    rw [e5]; omega

end R7

/-- After region 7 its result array holds the product of the two arrays the region found in its input windows. -/
theorem final7 (c : Dev nD) :
    (Cert.KernelIdeal.Gen.dat7 (F := Ideal) V c).arrAt 2 Cert.KernelIdeal.cfg7.N
      = mm (M := 100000) (K := 64) (N := 1) (V c (Pipeline.arrRef spec7 0)) (V c (Pipeline.arrRef spec7 1)) :=
  (dat7 V c).arrAt_eq_of_cover 2 _ (fun t _ => R7.flushed_eq V c t) R7.cover

end Cert.KernelIdeal.RegVal

end
-- ==== Proof.RegVal8.lean ====
/-
  Region 8: the third layer's messages.  The grid has 200 points; point t holds rows 8000 t … 8000 t + 7999 of the
  gathered 1600000 × 1 features in its first window and the same rows of the 1600000 × 1 edge factors in its second,
  and writes back those rows of the features, each multiplied by its row's factor.  With one column nothing is broadcast.
  An entry depends on its own row only, so the block written back is the whole arrays' scaling read at those rows, and the
  two hundred blocks tile the result.
-/
import proofs.«117865_j31619549233339_2_alg».proof.Proof.KSpec
import proofs.«117865_j31619549233339_2_alg».proof.Proof.Gen.KernelIdeal.Frame
import Idealize.ShloMosaic.Lib.Pipeline.Value

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.Pipeline (Dat)
open Idealize.ShloMosaic.ValueIdx Cert.Dense Cert.RowScale Cert.KSpec

variable (V : (c : Dev nD) → (b : Ref sig .tc) → Buf (Elt Ideal) ((c : Thread nD τ).loc b))

namespace R8

theorem hz : (![0, 0] : Fin 2 → Nat) = fun _ => 0 := funext fun a => by fin_cases a <;> rfl

/-- The body's payload: the rows multiplied by their factors; casts of an array to its own shape are the identity. -/
theorem pay_eq (x0 : Vec Ideal S8000x1 .f32) (x1 : Vec Ideal S8000x1 .f32) :
    k8_pay1 (F := Ideal) x0 x1 = scaleRows (M := 8000) (N := 1) x0 x1 := by
  unfold k8_pay1
  simp only [shapeCast_self]
  exact vecScaleCol _ _

/-- An entry of a block's scaling is the whole arrays' scaling's entry, given the entry and its row's factor. -/
theorem point (G : Mat 1600000 1) (n : Mat 1600000 1) (x0 : Vec Ideal S8000x1 .f32) (x1 : Vec Ideal S8000x1 .f32)
    (j : S8000x1.Idx) (i : S1600000x1.Idx)
    (h0 : x0 j = G i) (h1 : x1 (ix2 (c0 j) (0 : Fin 1)) = n (ix2 (c0 i) (0 : Fin 1))) :
    k8_pay1 (F := Ideal) x0 x1 j = scaleRows G n i := by
  rw [pay_eq]
  exact scaleRows_at G n x0 x1 j i h0 h1

/-- The index maps over the grid: which block of its array each window holds at point t. -/
theorem idx_facts : ∀ t : Fin cfg8.N,
    win8_0.index t (0 : Fin 2) = t.val
    ∧ win8_0.index t (1 : Fin 2) = 0
    ∧ win8_1.index t (0 : Fin 2) = t.val
    ∧ win8_1.index t (1 : Fin 2) = 0
    ∧ win8_2.index t (0 : Fin 2) = t.val
    ∧ win8_2.index t (1 : Fin 2) = 0 :=
  (by decide +kernel : ∀ t : Fin grid8.N, _)

set_option maxHeartbeats 4000000 in
/-- What point t writes back is block t of the whole arrays' scaling. -/
theorem flushed_eq (c : Dev nD) (t : Fin cfg8.N) :
    (dat8 V c).flushed 2 t = ((cfg8.win 2).blk t).view.read (Elt Ideal)
      (scaleRows (M := 1600000) (N := 1) (V c (Pipeline.arrRef spec8 0)) (V c (Pipeline.arrRef spec8 1))) := by
  show (cfg8.win 2).cut (grid8.coords t) ((dat8 V c).after 2 t) = _
  rw [after8_2]
  unfold out8_2
  rw [View.canon_unit_zero hz]
  simp only [View.ld_unit_zero (S := S8000x1) hz]
  obtain ⟨e0_0, e0_1, e1_0, e1_1, e2_0, e2_1⟩ := idx_facts t
  funext j
  refine point (V c (Pipeline.arrRef spec8 0)) (V c (Pipeline.arrRef spec8 1)) (iblk8 V c 0 t) (iblk8 V c 1 t) j
    (((cfg8.win 2).blk t).view.emb j) ?_ ?_
  · show V c (Pipeline.arrRef spec8 0) (((cfg8.win 0).blk t).view.emb j) = _
    refine congrArg (V c (Pipeline.arrRef spec8 0)) (funext fun a => Fin.ext ?_)
    match a with
    | ⟨0, _⟩ =>
      show win8_0.index t (0 : Fin 2) * 8000 + 1 * (j 0).val = win8_2.index t (0 : Fin 2) * 8000 + 1 * (j 0).val
      rw [e0_0, e2_0]
    | ⟨1, _⟩ =>
      show win8_0.index t (1 : Fin 2) * 1 + 1 * (j 1).val = win8_2.index t (1 : Fin 2) * 1 + 1 * (j 1).val
      rw [e0_1, e2_1]
  · show V c (Pipeline.arrRef spec8 1) (((cfg8.win 1).blk t).view.emb (ix2 (c0 j) (0 : Fin 1))) = _
    refine congrArg (V c (Pipeline.arrRef spec8 1)) (funext fun a => Fin.ext ?_)
    match a with
    | ⟨0, _⟩ =>
      show win8_1.index t (0 : Fin 2) * 8000 + 1 * (j 0).val = win8_2.index t (0 : Fin 2) * 8000 + 1 * (j 0).val
      rw [e1_0, e2_0]
    | ⟨1, _⟩ =>
      show win8_1.index t (1 : Fin 2) * 1 + 1 * 0 = 0
      rw [e1_1]

/-- An index of the result is in point t's block iff each coordinate is in the block's range on its axis. -/
theorem mem_blk (t : Fin cfg8.N) (i : S1600000x1.Idx) :
    i ∈ ((cfg8.win 2).blk t).view.set ↔ ∀ a : Fin 2, win8_2.index t a * S8000x1.size a ≤ (i a).val ∧ (i a).val < win8_2.index t a * S8000x1.size a + S8000x1.size a := by
  show i ∈ ((View.whole main_v94).slice (win8_2.rect t)).set ↔ _
  rw [View.set_slice_whole, Rect.mem_set_unit]
  exact Iff.rfl

/-- Row r of the result is in the block of point r / 8000. -/
theorem cover (i : S1600000x1.Idx) :
    ∃ t : Fin cfg8.N, (cfg8.win 2).flush t = true ∧ i ∈ ((cfg8.win 2).blk t).view.set := by
  have hi0 : (i 0).val < 1600000 := (i 0).isLt
  have hi1 : (i 1).val < 1 := (i 1).isLt
  have hN : cfg8.N = 200 := N_8
  obtain ⟨t, ht⟩ : ∃ t : Fin cfg8.N, t.val = (i 0).val / 8000 := ⟨⟨(i 0).val / 8000, by rw [hN]; omega⟩, rfl⟩
  obtain ⟨e0_0, e0_1, e1_0, e1_1, e2_0, e2_1⟩ := idx_facts t
  refine ⟨t, flush8_2 t, ?_⟩
  rw [mem_blk]
  intro a
  match a with
  | ⟨0, _⟩ =>
    show win8_2.index t (0 : Fin 2) * 8000 ≤ (i 0).val ∧ (i 0).val < win8_2.index t (0 : Fin 2) * 8000 + 8000
    rw [e2_0, ht]; omega
  | ⟨1, _⟩ =>
    show win8_2.index t (1 : Fin 2) * 1 ≤ (i 1).val ∧ (i 1).val < win8_2.index t (1 : Fin 2) * 1 + 1
    rw [e2_1]; omega

end R8

/-- After region 8 its result array holds the rows of the first input array scaled by the factors in the second. -/
theorem final8 (c : Dev nD) :
    (Cert.KernelIdeal.Gen.dat8 (F := Ideal) V c).arrAt 2 Cert.KernelIdeal.cfg8.N
      = scaleRows (M := 1600000) (N := 1) (V c (Pipeline.arrRef spec8 0)) (V c (Pipeline.arrRef spec8 1)) :=
  (dat8 V c).arrAt_eq_of_cover 2 _ (fun t _ => R8.flushed_eq V c t) R8.cover

end Cert.KernelIdeal.RegVal

end
-- ==== Proof.RegVal9.lean ====
/-
  Region 9: the third layer's combination.  The grid has 20 points; point t holds rows 5000 t … 5000 t + 4999 of the
  aggregated messages (first window), of the layer's own features (second) and of the 100000 × 1 node factors (third), and
  the whole 1 × 1 bias (fourth); it writes back, for those rows, (aggregate + factor · features) + bias.
  With one column the factor is multiplied in entrywise and the bias is a one-entry array broadcast down the rows.
  An entry depends on its own row of the three arrays and on the bias of its column only, so the block written back is
  the whole arrays' combination read at those rows, and the twenty blocks tile the result.
-/
import proofs.«117865_j31619549233339_2_alg».proof.Proof.KSpec
import proofs.«117865_j31619549233339_2_alg».proof.Proof.Gen.KernelIdeal.Frame
import Idealize.ShloMosaic.Lib.Pipeline.Value

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.Pipeline (Dat)
open Idealize.ShloMosaic.ValueIdx Cert.Dense Cert.RowScale Cert.KSpec

variable (V : (c : Dev nD) → (b : Ref sig .tc) → Buf (Elt Ideal) ((c : Thread nD τ).loc b))

namespace R9

theorem hz : (![0, 0] : Fin 2 → Nat) = fun _ => 0 := funext fun a => by fin_cases a <;> rfl

/-- The body's payload, in the printed order of its operands: the factor times the features, added to the aggregate, then
    the bias; casts of an array to its own shape are the identity. -/
theorem pay_eq (x0 x1 : Vec Ideal S5000x1 .f32) (x2 : Vec Ideal S5000x1 .f32) (x3 : Vec Ideal S1x1 .f32) :
    k9_pay1 (F := Ideal) x0 x2 x1 x3 = combine (M := 5000) (N := 1) x0 x1 x2 x3 := by
  unfold k9_pay1
  simp only [shapeCast_self]
  exact vecCombineCol _ _ _ _ _

/-- An entry of a block's combination is the whole arrays' combination's entry, given the three entries of its row and
    the bias of its column. -/
theorem point (agg h : Mat 100000 1) (d : Mat 100000 1) (b : Mat 1 1) (x0 x1 : Vec Ideal S5000x1 .f32)
    (x2 : Vec Ideal S5000x1 .f32) (x3 : Vec Ideal S1x1 .f32) (j : S5000x1.Idx) (i : S100000x1.Idx)
    (ha : x0 j = agg i) (hh : x1 j = h i) (hd : x2 (ix2 (c0 j) (0 : Fin 1)) = d (ix2 (c0 i) (0 : Fin 1)))
    (hb : x3 (ix2 (0 : Fin 1) (c1 j)) = b (ix2 (0 : Fin 1) (c1 i))) :
    k9_pay1 (F := Ideal) x0 x2 x1 x3 j = combine agg h d b i := by
  rw [pay_eq]
  exact combine_at agg h d b x0 x1 x2 x3 j i ha hh hd hb

/-- The index maps over the grid: which block of its array each window holds at point t. -/
theorem idx_facts : ∀ t : Fin cfg9.N,
    win9_0.index t (0 : Fin 2) = t.val
    ∧ win9_0.index t (1 : Fin 2) = 0
    ∧ win9_1.index t (0 : Fin 2) = t.val
    ∧ win9_1.index t (1 : Fin 2) = 0
    ∧ win9_2.index t (0 : Fin 2) = t.val
    ∧ win9_2.index t (1 : Fin 2) = 0
    ∧ win9_3.index t (0 : Fin 2) = 0
    ∧ win9_3.index t (1 : Fin 2) = 0
    ∧ win9_4.index t (0 : Fin 2) = t.val
    ∧ win9_4.index t (1 : Fin 2) = 0 :=
  (by decide +kernel : ∀ t : Fin grid9.N, _)

set_option maxHeartbeats 4000000 in
/-- What point t writes back is block t of the whole arrays' combination. -/
theorem flushed_eq (c : Dev nD) (t : Fin cfg9.N) :
    (dat9 V c).flushed 4 t = ((cfg9.win 4).blk t).view.read (Elt Ideal)
      (combine (M := 100000) (N := 1) (V c (Pipeline.arrRef spec9 0)) (V c (Pipeline.arrRef spec9 1)) (V c (Pipeline.arrRef spec9 2)) (V c (Pipeline.arrRef spec9 3))) := by
  show (cfg9.win 4).cut (grid9.coords t) ((dat9 V c).after 4 t) = _
  rw [after9_4]
  unfold out9_4
  rw [View.canon_unit_zero hz]
  simp only [View.ld_unit_zero (S := S5000x1) hz, View.ld_unit_zero (S := S1x1) hz]
  obtain ⟨e0_0, e0_1, e1_0, e1_1, e2_0, e2_1, e3_0, e3_1, e4_0, e4_1⟩ := idx_facts t
  funext j
  refine point (V c (Pipeline.arrRef spec9 0)) (V c (Pipeline.arrRef spec9 1)) (V c (Pipeline.arrRef spec9 2)) (V c (Pipeline.arrRef spec9 3)) (iblk9 V c 0 t) (iblk9 V c 1 t) (iblk9 V c 2 t) (iblk9 V c 3 t) j
    (((cfg9.win 4).blk t).view.emb j) ?_ ?_ ?_ ?_
  · show V c (Pipeline.arrRef spec9 0) (((cfg9.win 0).blk t).view.emb j) = _
    refine congrArg (V c (Pipeline.arrRef spec9 0)) (funext fun a => Fin.ext ?_)
    match a with
    | ⟨0, _⟩ =>
      show win9_0.index t (0 : Fin 2) * 5000 + 1 * (j 0).val = win9_4.index t (0 : Fin 2) * 5000 + 1 * (j 0).val
      rw [e0_0, e4_0]
    | ⟨1, _⟩ =>
      show win9_0.index t (1 : Fin 2) * 1 + 1 * (j 1).val = win9_4.index t (1 : Fin 2) * 1 + 1 * (j 1).val
      rw [e0_1, e4_1]
  · show V c (Pipeline.arrRef spec9 1) (((cfg9.win 1).blk t).view.emb j) = _
    refine congrArg (V c (Pipeline.arrRef spec9 1)) (funext fun a => Fin.ext ?_)
    match a with
    | ⟨0, _⟩ =>
      show win9_1.index t (0 : Fin 2) * 5000 + 1 * (j 0).val = win9_4.index t (0 : Fin 2) * 5000 + 1 * (j 0).val
      rw [e1_0, e4_0]
    | ⟨1, _⟩ =>
      show win9_1.index t (1 : Fin 2) * 1 + 1 * (j 1).val = win9_4.index t (1 : Fin 2) * 1 + 1 * (j 1).val
      rw [e1_1, e4_1]
  · show V c (Pipeline.arrRef spec9 2) (((cfg9.win 2).blk t).view.emb (ix2 (c0 j) (0 : Fin 1))) = _
    refine congrArg (V c (Pipeline.arrRef spec9 2)) (funext fun a => Fin.ext ?_)
    match a with
    | ⟨0, _⟩ =>
      show win9_2.index t (0 : Fin 2) * 5000 + 1 * (j 0).val = win9_4.index t (0 : Fin 2) * 5000 + 1 * (j 0).val
      rw [e2_0, e4_0]
    | ⟨1, _⟩ =>
      show win9_2.index t (1 : Fin 2) * 1 + 1 * 0 = 0
      rw [e2_1]
  · show V c (Pipeline.arrRef spec9 3) (((cfg9.win 3).blk t).view.emb (ix2 (0 : Fin 1) (c1 j))) = _
    refine congrArg (V c (Pipeline.arrRef spec9 3)) (funext fun a => Fin.ext ?_)
    match a with
    | ⟨0, _⟩ =>
      show win9_3.index t (0 : Fin 2) * 1 + 1 * 0 = 0
      rw [e3_0]
    | ⟨1, _⟩ =>
      show win9_3.index t (1 : Fin 2) * 1 + 1 * (j 1).val = win9_4.index t (1 : Fin 2) * 1 + 1 * (j 1).val
      rw [e3_1, e4_1]

/-- An index of the result is in point t's block iff each coordinate is in the block's range on its axis. -/
theorem mem_blk (t : Fin cfg9.N) (i : S100000x1.Idx) :
    i ∈ ((cfg9.win 4).blk t).view.set ↔ ∀ a : Fin 2, win9_4.index t a * S5000x1.size a ≤ (i a).val ∧ (i a).val < win9_4.index t a * S5000x1.size a + S5000x1.size a := by
  show i ∈ ((View.whole main_v100).slice (win9_4.rect t)).set ↔ _
  rw [View.set_slice_whole, Rect.mem_set_unit]
  exact Iff.rfl

/-- Row r of the result is in the block of point r / 5000. -/
theorem cover (i : S100000x1.Idx) :
    ∃ t : Fin cfg9.N, (cfg9.win 4).flush t = true ∧ i ∈ ((cfg9.win 4).blk t).view.set := by
  have hi0 : (i 0).val < 100000 := (i 0).isLt
  have hi1 : (i 1).val < 1 := (i 1).isLt
  have hN : cfg9.N = 20 := N_9
  obtain ⟨t, ht⟩ : ∃ t : Fin cfg9.N, t.val = (i 0).val / 5000 := ⟨⟨(i 0).val / 5000, by rw [hN]; omega⟩, rfl⟩
  obtain ⟨e0_0, e0_1, e1_0, e1_1, e2_0, e2_1, e3_0, e3_1, e4_0, e4_1⟩ := idx_facts t
  refine ⟨t, flush9_4 t, ?_⟩
  rw [mem_blk]
  intro a
  match a with
  | ⟨0, _⟩ =>
    show win9_4.index t (0 : Fin 2) * 5000 ≤ (i 0).val ∧ (i 0).val < win9_4.index t (0 : Fin 2) * 5000 + 5000
    rw [e4_0, ht]; omega
  | ⟨1, _⟩ =>
    show win9_4.index t (1 : Fin 2) * 1 ≤ (i 1).val ∧ (i 1).val < win9_4.index t (1 : Fin 2) * 1 + 1
    rw [e4_1]; omega

end R9

/-- After region 9 its result array holds (aggregate + factor · features) + bias of the four arrays the region found in its
    input windows (aggregate, features, factors, bias, in window order). -/
theorem final9 (c : Dev nD) :
    (Cert.KernelIdeal.Gen.dat9 (F := Ideal) V c).arrAt 4 Cert.KernelIdeal.cfg9.N
      = combine (M := 100000) (N := 1) (V c (Pipeline.arrRef spec9 0)) (V c (Pipeline.arrRef spec9 1)) (V c (Pipeline.arrRef spec9 2)) (V c (Pipeline.arrRef spec9 3)) :=
  (dat9 V c).arrAt_eq_of_cover 4 _ (fun t _ => R9.flushed_eq V c t) R9.cover

end Cert.KernelIdeal.RegVal

end
-- ==== Proof.KChainE.lean ====
/-
  The idealized kernel's run through its ten regions: the result buffer at the last boundary holds the kernel's value.

  Region by region and stretch by stretch, each buffer a later step reads holds the named function of the argument
  arrays: the row-normalised features after the first region; then, per layer, the dense product after the
  matrix-product region, its rows gathered along the edges and the coefficient column after the next stretch, the scaled
  rows after the scaling region, their sums per destination with the self-loop column and the bias row after the next
  stretch, and the layer's result after the combining region. A region's output array is what its region value says of
  the region's entry contents; every other buffer keeps its contents across a region.
-/
import proofs.«117865_j31619549233339_2_alg».proof.Proof.KChainC
import proofs.«117865_j31619549233339_2_alg».proof.Proof.KChainD
import proofs.«117865_j31619549233339_2_alg».proof.Proof.KLayer
import proofs.«117865_j31619549233339_2_alg».proof.Proof.RegVal0
import proofs.«117865_j31619549233339_2_alg».proof.Proof.RegVal1
import proofs.«117865_j31619549233339_2_alg».proof.Proof.RegVal2
import proofs.«117865_j31619549233339_2_alg».proof.Proof.RegVal3
import proofs.«117865_j31619549233339_2_alg».proof.Proof.RegVal4
import proofs.«117865_j31619549233339_2_alg».proof.Proof.RegVal5
import proofs.«117865_j31619549233339_2_alg».proof.Proof.RegVal6
import proofs.«117865_j31619549233339_2_alg».proof.Proof.RegVal7
import proofs.«117865_j31619549233339_2_alg».proof.Proof.RegVal8
import proofs.«117865_j31619549233339_2_alg».proof.Proof.RegVal9

set_option maxRecDepth 16384

noncomputable section

namespace Cert.KernelIdeal.KChain

open Cert.KernelIdeal Cert.KernelIdeal.Gen Cert.KernelIdeal.KKeep Cert.KVal
open Idealize.ShloMosaic Idealize.ShloMosaic.TcCoe Idealize.SL.Sem Idealize.ShloMosaic.StableHlo

local notation "𝕍" => Valuation τ sig (Elt Ideal)
local notation "ops[" l "]" => (l : List (HloOp τ sig (Elt Ideal)))

variable (m : (ℓ : Loc nD τ sig) → Buf (Elt Ideal) ℓ) (ρ : Dev nD → PrngReg)

/-- The row-normalised features, left by the first region. -/
theorem W6_v52 (c : Dev nD) : W6 m ρ c (Proc.devRef .tc main_v52) = Cert.KSpec.normalize (M := 100000) (N := 64) (m ((c : Thread nD τ).loc main_arg0)) := by
  refine (W6_arr m ρ c 1).trans ((Cert.KernelIdeal.RegVal.final0 (V5 m ρ) c).trans ?_)
  show Cert.KSpec.normalize (W5 m ρ c (Proc.devRef .tc main_arg0)) = _
  rw [W5_arg m ρ c main_arg0 (by decide) (by decide) (by decide) (by decide) (by decide)]

/-! ## Layer 1 -/

/-- The layer's dense product, left by the matrix-product region. -/
theorem W7_v53 (c : Dev nD) : W7 m ρ c (Proc.devRef .tc main_v53) = (h1 (m ((c : Thread nD τ).loc main_arg0)) (m ((c : Thread nD τ).loc main_arg3))) := by
  refine (W7_arr m ρ c 2).trans ((Cert.KernelIdeal.RegVal.final1 (V6 m ρ) c).trans ?_)
  show Cert.Dense.mm (W6 m ρ c (Proc.devRef .tc main_v52)) (W6 m ρ c (Proc.devRef .tc main_arg3)) = _
  rw [W6_v52 m ρ c, ((st6_arg3 m ρ c).trans (W5_arg m ρ c main_arg3 (by decide) (by decide) (by decide) (by decide) (by decide)))]
  rfl

/-- Its rows gathered along the edges. -/
theorem W8_v60 (c : Dev nD) : W8 m ρ c (Proc.devRef .tc main_v60) = gatherRows64 (h1 (m ((c : Thread nD τ).loc main_arg0)) (m ((c : Thread nD τ).loc main_arg3))) (src (m ((c : Thread nD τ).loc main_arg1))) := by
  show after ops[hostOps2] (W7 m ρ c) _ = _
  rw [r2_v60, W7_v53, ((st7_v1 m ρ c).trans (W5_v1 m ρ c))]
/-- The per-edge coefficient as a column. -/
theorem W8_v61 (c : Dev nD) : W8 m ρ c (Proc.devRef .tc main_v61) = edgeCol (norm (m ((c : Thread nD τ).loc main_arg1)) (m ((c : Thread nD τ).loc main_arg2))) := by
  show after ops[hostOps2] (W7 m ρ c) _ = _
  rw [r2_v61, ((st7_v50 m ρ c).trans (W5_v50 m ρ c))]

/-- The gathered rows scaled, left by the scaling region. -/
theorem W9_v62 (c : Dev nD) : W9 m ρ c (Proc.devRef .tc main_v62)
    = Cert.RowScale.scaleRows (M := 1600000) (N := 64) (gatherRows64 (h1 (m ((c : Thread nD τ).loc main_arg0)) (m ((c : Thread nD τ).loc main_arg3))) (src (m ((c : Thread nD τ).loc main_arg1)))) (edgeCol (norm (m ((c : Thread nD τ).loc main_arg1)) (m ((c : Thread nD τ).loc main_arg2)))) := by
  refine (W9_arr m ρ c 2).trans ((Cert.KernelIdeal.RegVal.final2 (V8 m ρ) c).trans ?_)
  show Cert.RowScale.scaleRows (W8 m ρ c (Proc.devRef .tc main_v60)) (W8 m ρ c (Proc.devRef .tc main_v61)) = _
  rw [W8_v60, W8_v61]

/-- The scaled rows summed per destination. -/
theorem W10_v65 (c : Dev nD) : W10 m ρ c (Proc.devRef .tc main_v65)
    = segSum64 (dst (m ((c : Thread nD τ).loc main_arg1))) (Cert.RowScale.scaleRows (M := 1600000) (N := 64) (gatherRows64 (h1 (m ((c : Thread nD τ).loc main_arg0)) (m ((c : Thread nD τ).loc main_arg3))) (src (m ((c : Thread nD τ).loc main_arg1)))) (edgeCol (norm (m ((c : Thread nD τ).loc main_arg1)) (m ((c : Thread nD τ).loc main_arg2))))) := by
  show after ops[hostOps3] (W9 m ρ c) _ = _
  rw [r3_v65, W9_v62, ((st9_v3 m ρ c).trans (W5_v3 m ρ c))]
/-- The self-loop coefficient as a column. -/
theorem W10_v66 (c : Dev nD) : W10 m ρ c (Proc.devRef .tc main_v66) = nodeCol (dinv2 (m ((c : Thread nD τ).loc main_arg1)) (m ((c : Thread nD τ).loc main_arg2))) := by
  show after ops[hostOps3] (W9 m ρ c) _ = _
  rw [r3_v66, ((st9_v51 m ρ c).trans (W5_v51 m ρ c))]
/-- The bias as a row. -/
theorem W10_v67 (c : Dev nD) : W10 m ρ c (Proc.devRef .tc main_v67) = biasRow64 (m ((c : Thread nD τ).loc main_arg4)) := by
  show after ops[hostOps3] (W9 m ρ c) _ = _
  rw [r3_v67, ((st9_arg4 m ρ c).trans (W5_arg m ρ c main_arg4 (by decide) (by decide) (by decide) (by decide) (by decide)))]
/-- The dense product is still in its buffer at the combining region's entry. -/
theorem W10_v53 (c : Dev nD) : W10 m ρ c (Proc.devRef .tc main_v53) = (h1 (m ((c : Thread nD τ).loc main_arg0)) (m ((c : Thread nD τ).loc main_arg3))) :=
  (keep3 (W9 m ρ c) main_v53 (by decide)).trans
    ((W9_of_ne m ρ c main_v53 (by decide)).trans
      ((keep2 (W7 m ρ c) main_v53 (by decide)).trans (W7_v53 m ρ c)))

/-- The layer's result, left by the combining region. -/
theorem W11_v68 (c : Dev nD) : W11 m ρ c (Proc.devRef .tc main_v68) = (y1 (m ((c : Thread nD τ).loc main_arg1)) (m ((c : Thread nD τ).loc main_arg2)) (m ((c : Thread nD τ).loc main_arg0)) (m ((c : Thread nD τ).loc main_arg3)) (m ((c : Thread nD τ).loc main_arg4))) := by
  refine (W11_arr m ρ c 4).trans ((Cert.KernelIdeal.RegVal.final3 (V10 m ρ) c).trans ?_)
  show Cert.KSpec.combineRelu (M := 100000) (N := 64) (W10 m ρ c (Proc.devRef .tc main_v65)) (W10 m ρ c (Proc.devRef .tc main_v53))
    (W10 m ρ c (Proc.devRef .tc main_v66)) (W10 m ρ c (Proc.devRef .tc main_v67)) = _
  rw [W10_v65, W10_v53, W10_v66, W10_v67]
  rfl

/-! ## Layer 2 -/

/-- The layer's dense product, left by the matrix-product region. -/
theorem W12_v69 (c : Dev nD) : W12 m ρ c (Proc.devRef .tc main_v69) = (h2 (m ((c : Thread nD τ).loc main_arg1)) (m ((c : Thread nD τ).loc main_arg2)) (m ((c : Thread nD τ).loc main_arg0)) (m ((c : Thread nD τ).loc main_arg3)) (m ((c : Thread nD τ).loc main_arg4)) (m ((c : Thread nD τ).loc main_arg5))) := by
  refine (W12_arr m ρ c 2).trans ((Cert.KernelIdeal.RegVal.final4 (V11 m ρ) c).trans ?_)
  show Cert.Dense.mm (W11 m ρ c (Proc.devRef .tc main_v68)) (W11 m ρ c (Proc.devRef .tc main_arg5)) = _
  rw [W11_v68 m ρ c, ((st11_arg5 m ρ c).trans (W5_arg m ρ c main_arg5 (by decide) (by decide) (by decide) (by decide) (by decide)))]
  rfl

/-- Its rows gathered along the edges. -/
theorem W13_v76 (c : Dev nD) : W13 m ρ c (Proc.devRef .tc main_v76) = gatherRows64 (h2 (m ((c : Thread nD τ).loc main_arg1)) (m ((c : Thread nD τ).loc main_arg2)) (m ((c : Thread nD τ).loc main_arg0)) (m ((c : Thread nD τ).loc main_arg3)) (m ((c : Thread nD τ).loc main_arg4)) (m ((c : Thread nD τ).loc main_arg5))) (src (m ((c : Thread nD τ).loc main_arg1))) := by
  show after ops[hostOps5] (W12 m ρ c) _ = _
  rw [r5_v76, W12_v69, ((st12_v1 m ρ c).trans (W5_v1 m ρ c))]
/-- The per-edge coefficient as a column. -/
theorem W13_v77 (c : Dev nD) : W13 m ρ c (Proc.devRef .tc main_v77) = edgeCol (norm (m ((c : Thread nD τ).loc main_arg1)) (m ((c : Thread nD τ).loc main_arg2))) := by
  show after ops[hostOps5] (W12 m ρ c) _ = _
  rw [r5_v77, ((st12_v50 m ρ c).trans (W5_v50 m ρ c))]

/-- The gathered rows scaled, left by the scaling region. -/
theorem W14_v78 (c : Dev nD) : W14 m ρ c (Proc.devRef .tc main_v78)
    = Cert.RowScale.scaleRows (M := 1600000) (N := 64) (gatherRows64 (h2 (m ((c : Thread nD τ).loc main_arg1)) (m ((c : Thread nD τ).loc main_arg2)) (m ((c : Thread nD τ).loc main_arg0)) (m ((c : Thread nD τ).loc main_arg3)) (m ((c : Thread nD τ).loc main_arg4)) (m ((c : Thread nD τ).loc main_arg5))) (src (m ((c : Thread nD τ).loc main_arg1)))) (edgeCol (norm (m ((c : Thread nD τ).loc main_arg1)) (m ((c : Thread nD τ).loc main_arg2)))) := by
  refine (W14_arr m ρ c 2).trans ((Cert.KernelIdeal.RegVal.final5 (V13 m ρ) c).trans ?_)
  show Cert.RowScale.scaleRows (W13 m ρ c (Proc.devRef .tc main_v76)) (W13 m ρ c (Proc.devRef .tc main_v77)) = _
  rw [W13_v76, W13_v77]

/-- The scaled rows summed per destination. -/
theorem W15_v81 (c : Dev nD) : W15 m ρ c (Proc.devRef .tc main_v81)
    = segSum64 (dst (m ((c : Thread nD τ).loc main_arg1))) (Cert.RowScale.scaleRows (M := 1600000) (N := 64) (gatherRows64 (h2 (m ((c : Thread nD τ).loc main_arg1)) (m ((c : Thread nD τ).loc main_arg2)) (m ((c : Thread nD τ).loc main_arg0)) (m ((c : Thread nD τ).loc main_arg3)) (m ((c : Thread nD τ).loc main_arg4)) (m ((c : Thread nD τ).loc main_arg5))) (src (m ((c : Thread nD τ).loc main_arg1)))) (edgeCol (norm (m ((c : Thread nD τ).loc main_arg1)) (m ((c : Thread nD τ).loc main_arg2))))) := by
  show after ops[hostOps6] (W14 m ρ c) _ = _
  rw [r6_v81, W14_v78, ((st14_v3 m ρ c).trans (W5_v3 m ρ c))]
/-- The self-loop coefficient as a column. -/
theorem W15_v82 (c : Dev nD) : W15 m ρ c (Proc.devRef .tc main_v82) = nodeCol (dinv2 (m ((c : Thread nD τ).loc main_arg1)) (m ((c : Thread nD τ).loc main_arg2))) := by
  show after ops[hostOps6] (W14 m ρ c) _ = _
  rw [r6_v82, ((st14_v51 m ρ c).trans (W5_v51 m ρ c))]
/-- The bias as a row. -/
theorem W15_v83 (c : Dev nD) : W15 m ρ c (Proc.devRef .tc main_v83) = biasRow64 (m ((c : Thread nD τ).loc main_arg6)) := by
  show after ops[hostOps6] (W14 m ρ c) _ = _
  rw [r6_v83, ((st14_arg6 m ρ c).trans (W5_arg m ρ c main_arg6 (by decide) (by decide) (by decide) (by decide) (by decide)))]
/-- The dense product is still in its buffer at the combining region's entry. -/
theorem W15_v69 (c : Dev nD) : W15 m ρ c (Proc.devRef .tc main_v69) = (h2 (m ((c : Thread nD τ).loc main_arg1)) (m ((c : Thread nD τ).loc main_arg2)) (m ((c : Thread nD τ).loc main_arg0)) (m ((c : Thread nD τ).loc main_arg3)) (m ((c : Thread nD τ).loc main_arg4)) (m ((c : Thread nD τ).loc main_arg5))) :=
  (keep6 (W14 m ρ c) main_v69 (by decide)).trans
    ((W14_of_ne m ρ c main_v69 (by decide)).trans
      ((keep5 (W12 m ρ c) main_v69 (by decide)).trans (W12_v69 m ρ c)))

/-- The layer's result, left by the combining region. -/
theorem W16_v84 (c : Dev nD) : W16 m ρ c (Proc.devRef .tc main_v84) = (y2 (m ((c : Thread nD τ).loc main_arg1)) (m ((c : Thread nD τ).loc main_arg2)) (m ((c : Thread nD τ).loc main_arg0)) (m ((c : Thread nD τ).loc main_arg3)) (m ((c : Thread nD τ).loc main_arg4)) (m ((c : Thread nD τ).loc main_arg5)) (m ((c : Thread nD τ).loc main_arg6))) := by
  refine (W16_arr m ρ c 4).trans ((Cert.KernelIdeal.RegVal.final6 (V15 m ρ) c).trans ?_)
  show Cert.KSpec.combineRelu (M := 100000) (N := 64) (W15 m ρ c (Proc.devRef .tc main_v81)) (W15 m ρ c (Proc.devRef .tc main_v69))
    (W15 m ρ c (Proc.devRef .tc main_v82)) (W15 m ρ c (Proc.devRef .tc main_v83)) = _
  rw [W15_v81, W15_v69, W15_v82, W15_v83]
  rfl

/-! ## Layer 3 -/

/-- The layer's dense product, left by the matrix-product region. -/
theorem W17_v85 (c : Dev nD) : W17 m ρ c (Proc.devRef .tc main_v85) = (h3 (m ((c : Thread nD τ).loc main_arg1)) (m ((c : Thread nD τ).loc main_arg2)) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W17_arr m ρ c 2).trans ((Cert.KernelIdeal.RegVal.final7 (V16 m ρ) c).trans ?_)
  show Cert.Dense.mm (W16 m ρ c (Proc.devRef .tc main_v84)) (W16 m ρ c (Proc.devRef .tc main_arg7)) = _
  rw [W16_v84 m ρ c, ((st16_arg7 m ρ c).trans (W5_arg m ρ c main_arg7 (by decide) (by decide) (by decide) (by decide) (by decide)))]
  rfl

/-- Its rows gathered along the edges. -/
theorem W18_v92 (c : Dev nD) : W18 m ρ c (Proc.devRef .tc main_v92) = gatherRows1 (h3 (m ((c : Thread nD τ).loc main_arg1)) (m ((c : Thread nD τ).loc main_arg2)) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))) (src (m ((c : Thread nD τ).loc main_arg1))) := by
  show after ops[hostOps8] (W17 m ρ c) _ = _
  rw [r8_v92, W17_v85, ((st17_v1 m ρ c).trans (W5_v1 m ρ c))]
/-- The per-edge coefficient as a column. -/
theorem W18_v93 (c : Dev nD) : W18 m ρ c (Proc.devRef .tc main_v93) = edgeCol (norm (m ((c : Thread nD τ).loc main_arg1)) (m ((c : Thread nD τ).loc main_arg2))) := by
  show after ops[hostOps8] (W17 m ρ c) _ = _
  rw [r8_v93, ((st17_v50 m ρ c).trans (W5_v50 m ρ c))]

/-- The gathered rows scaled, left by the scaling region. -/
theorem W19_v94 (c : Dev nD) : W19 m ρ c (Proc.devRef .tc main_v94)
    = Cert.RowScale.scaleRows (M := 1600000) (N := 1) (gatherRows1 (h3 (m ((c : Thread nD τ).loc main_arg1)) (m ((c : Thread nD τ).loc main_arg2)) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))) (src (m ((c : Thread nD τ).loc main_arg1)))) (edgeCol (norm (m ((c : Thread nD τ).loc main_arg1)) (m ((c : Thread nD τ).loc main_arg2)))) := by
  refine (W19_arr m ρ c 2).trans ((Cert.KernelIdeal.RegVal.final8 (V18 m ρ) c).trans ?_)
  show Cert.RowScale.scaleRows (W18 m ρ c (Proc.devRef .tc main_v92)) (W18 m ρ c (Proc.devRef .tc main_v93)) = _
  rw [W18_v92, W18_v93]

/-- The scaled rows summed per destination. -/
theorem W20_v97 (c : Dev nD) : W20 m ρ c (Proc.devRef .tc main_v97)
    = segSum1 (dst (m ((c : Thread nD τ).loc main_arg1))) (Cert.RowScale.scaleRows (M := 1600000) (N := 1) (gatherRows1 (h3 (m ((c : Thread nD τ).loc main_arg1)) (m ((c : Thread nD τ).loc main_arg2)) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))) (src (m ((c : Thread nD τ).loc main_arg1)))) (edgeCol (norm (m ((c : Thread nD τ).loc main_arg1)) (m ((c : Thread nD τ).loc main_arg2))))) := by
  show after ops[hostOps9] (W19 m ρ c) _ = _
  rw [r9_v97, W19_v94, ((st19_v3 m ρ c).trans (W5_v3 m ρ c))]
/-- The self-loop coefficient as a column. -/
theorem W20_v98 (c : Dev nD) : W20 m ρ c (Proc.devRef .tc main_v98) = nodeCol (dinv2 (m ((c : Thread nD τ).loc main_arg1)) (m ((c : Thread nD τ).loc main_arg2))) := by
  show after ops[hostOps9] (W19 m ρ c) _ = _
  rw [r9_v98, ((st19_v51 m ρ c).trans (W5_v51 m ρ c))]
/-- The bias as a row. -/
theorem W20_v99 (c : Dev nD) : W20 m ρ c (Proc.devRef .tc main_v99) = biasRow1 (m ((c : Thread nD τ).loc main_arg8)) := by
  show after ops[hostOps9] (W19 m ρ c) _ = _
  rw [r9_v99, ((st19_arg8 m ρ c).trans (W5_arg m ρ c main_arg8 (by decide) (by decide) (by decide) (by decide) (by decide)))]
/-- The dense product is still in its buffer at the combining region's entry. -/
theorem W20_v85 (c : Dev nD) : W20 m ρ c (Proc.devRef .tc main_v85) = (h3 (m ((c : Thread nD τ).loc main_arg1)) (m ((c : Thread nD τ).loc main_arg2)) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))) :=
  (keep9 (W19 m ρ c) main_v85 (by decide)).trans
    ((W19_of_ne m ρ c main_v85 (by decide)).trans
      ((keep8 (W17 m ρ c) main_v85 (by decide)).trans (W17_v85 m ρ c)))

/-- The layer's result, left by the combining region. -/
theorem W21_v100 (c : Dev nD) : W21 m ρ c (Proc.devRef .tc main_v100) = (y3 (m ((c : Thread nD τ).loc main_arg1)) (m ((c : Thread nD τ).loc main_arg2)) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W21_arr m ρ c 4).trans ((Cert.KernelIdeal.RegVal.final9 (V20 m ρ) c).trans ?_)
  show Cert.KSpec.combine (M := 100000) (N := 1) (W20 m ρ c (Proc.devRef .tc main_v97)) (W20 m ρ c (Proc.devRef .tc main_v85))
    (W20 m ρ c (Proc.devRef .tc main_v98)) (W20 m ρ c (Proc.devRef .tc main_v99)) = _
  rw [W20_v97, W20_v85, W20_v98, W20_v99]
  rfl

/-- THE KERNEL'S VALUE: at the last boundary the result buffer holds the kernel's result as a function of the arguments. -/
theorem result (c : Dev nD) : W21 m ρ c (Proc.devRef .tc main_v100) = (y3 (m ((c : Thread nD τ).loc main_arg1)) (m ((c : Thread nD τ).loc main_arg2)) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := W21_v100 m ρ c

end Cert.KernelIdeal.KChain

end
-- ==== Proof.RefReadDeg.lean ====
/-
  The reference's degree vector, read at a node.

  The degree of node `p` is the accumulating scatter of the joined weights into a zero vector at the joined destination
  entries: the zero entry plus the sum of the weights of the joined places whose destination entry, read signed, is `p`.
-/
import proofs.«117865_j31619549233339_2_alg».proof.Proof.Gen.ReferenceIdeal.Read
import proofs.«117865_j31619549233339_2_alg».proof.Proof.LibSegmentSum
import proofs.«117865_j31619549233339_2_alg».proof.Proof.LibHostLayout

open scoped BigOperators

noncomputable section

namespace Cert.RefRead

open Cert.ReferenceIdeal Cert.ReferenceIdeal.Gen Cert.ReferenceIdeal.Read Idealize.ShloMosaic Idealize.ShloMosaic.ValueIdx

/-- The destination column the degree scatter reads is the joined destination vector. -/
theorem v32_at (x1 : (⟨S2x1600000, .i32⟩ : BufTy).Contents (Elt Ideal)) (j : Fin 1700000) (u : Fin 1) :
    val_main_v32 (F := Ideal) x1 (ix2 j u) = val_main_v28 (F := Ideal) x1 (ix1 j) := by
  unfold val_main_v32
  exact Cert.HostLayout.bcast_vec_col _ bcast_S1700000_S1700000x1_0 j u

/-- The zero vector the degree scatter accumulates into. -/
theorem v31_at (p : Fin 100000) : val_main_v31 (F := Ideal) (ix1 p) = 0 := by
  rw [val_main_v31_apply, val_main_cst_6_apply]
  exact Ideal.ofBits_zero_f32

/-- THE DEGREE AT NODE `p`, over the operand's own entry. -/
theorem deg_apply' (x1 : (⟨S2x1600000, .i32⟩ : BufTy).Contents (Elt Ideal)) (x2 : (⟨S1600000, .f32⟩ : BufTy).Contents (Elt Ideal)) (p : Fin 100000) :
    val_main_v33 (F := Ideal) x1 x2 (ix1 p)
      = val_main_v31 (F := Ideal) (ix1 p)
        + ∑ j ∈ Finset.univ.filter (fun j : Fin 1700000 => (val_main_v28 (F := Ideal) x1 (ix1 j)).toInt = (p.val : Int)),
            val_main_v30 (F := Ideal) x1 x2 (ix1 j) := by
  unfold val_main_v33
  refine (Cert.SegmentSum.segSumVec_apply scatter_S100000_S1700000x1_S1700000_n_0_0_1 rfl rfl rfl rfl
    (val_main_v32 (F := Ideal) x1) (val_main_v31 (F := Ideal)) (val_main_v30 (F := Ideal) x1 x2) p).trans ?_
  refine congrArg (_ + ·) (Finset.sum_congr ?_ (fun _ _ => rfl))
  ext j
  simp only [Finset.mem_filter, Finset.mem_univ, true_and]
  rw [v32_at]

/-- THE DEGREE AT NODE `p`: zero plus the weights of the joined places that arrive at `p`. -/
theorem deg_apply (x1 : (⟨S2x1600000, .i32⟩ : BufTy).Contents (Elt Ideal)) (x2 : (⟨S1600000, .f32⟩ : BufTy).Contents (Elt Ideal)) (p : Fin 100000) :
    val_main_v33 (F := Ideal) x1 x2 (ix1 p)
      = 0 + ∑ j ∈ Finset.univ.filter (fun j : Fin 1700000 => (val_main_v28 (F := Ideal) x1 (ix1 j)).toInt = (p.val : Int)),
            val_main_v30 (F := Ideal) x1 x2 (ix1 j) := by
  rw [deg_apply', v31_at]

end Cert.RefRead

end
-- ==== Proof.LibHalves.lean ====
/-
  Two arrays laid side by side, and a band of columns cut out again, read at an index.

  A concatenation of an `[K, C₁]` and an `[K, C₂]` array along the columns reads, at column `q' < C₁`, the first array
  at that column and, at column `C₁ + q`, the second at column `q`; likewise two vectors laid end to end. A slice of an
  `[N, C']` array that keeps every row and the columns `o … o + C - 1` reads, at column `q`, the array at column `o + q`.
  The target extent `C'` is a free parameter, so that a printed numeral (`256` for `128 + 128`) fits.
-/
import Idealize.ShloMosaic.Lib.ValueIdx
import Idealize.ShloMosaic.Lib.Pipeline.Value

namespace Cert.Halves

open Idealize.ShloMosaic Idealize.ShloMosaic.ValueIdx

variable {α : Type}

/-- Columns: a column of the left piece. -/
theorem concat_cols_left {K C1 C2 C' : ℕ} (x₁ : (⟨2, ![K, C1]⟩ : Shape).Idx → α) (x₂ : (⟨2, ![K, C2]⟩ : Shape).Idx → α)
    (h : Shape.Concatenates [⟨2, ![K, C1]⟩, ⟨2, ![K, C2]⟩] ⟨2, ![K, C']⟩ 1) (k : Fin K) (q : Fin C1) (q' : Fin C')
    (hq : q'.val = q.val) :
    concatenate ⟨2, ![K, C']⟩ 1 [⟨⟨2, ![K, C1]⟩, x₁⟩, ⟨⟨2, ![K, C2]⟩, x₂⟩] h (ix2 k q') = x₁ (ix2 k q) :=
  concatenate_pair_apply_left 1 x₁ x₂ h (ix2 k q') rfl (ix2 k q)
    (fun b => match b with | ⟨0, _⟩ => rfl | ⟨1, _⟩ => hq.symm)

/-- Columns: a column of the right piece. -/
theorem concat_cols_right {K C1 C2 C' : ℕ} (x₁ : (⟨2, ![K, C1]⟩ : Shape).Idx → α) (x₂ : (⟨2, ![K, C2]⟩ : Shape).Idx → α)
    (h : Shape.Concatenates [⟨2, ![K, C1]⟩, ⟨2, ![K, C2]⟩] ⟨2, ![K, C']⟩ 1) (k : Fin K) (q : Fin C2) (q' : Fin C')
    (hq : q'.val = C1 + q.val) :
    concatenate ⟨2, ![K, C']⟩ 1 [⟨⟨2, ![K, C1]⟩, x₁⟩, ⟨⟨2, ![K, C2]⟩, x₂⟩] h (ix2 k q') = x₂ (ix2 k q) :=
  concatenate_pair_apply_right 1 x₁ x₂ h (ix2 k q') rfl rfl (ix2 k q)
    (fun b => match b with | ⟨0, _⟩ => fun _ => rfl | ⟨1, _⟩ => fun hne => absurd rfl hne)
    (by show q.val + C1 = q'.val; omega)

/-- Vectors: an entry of the left piece. -/
theorem concat_vec_left {C1 C2 C' : ℕ} (x₁ : (⟨1, ![C1]⟩ : Shape).Idx → α) (x₂ : (⟨1, ![C2]⟩ : Shape).Idx → α)
    (h : Shape.Concatenates [⟨1, ![C1]⟩, ⟨1, ![C2]⟩] ⟨1, ![C']⟩ 0) (q : Fin C1) (q' : Fin C') (hq : q'.val = q.val) :
    concatenate ⟨1, ![C']⟩ 0 [⟨⟨1, ![C1]⟩, x₁⟩, ⟨⟨1, ![C2]⟩, x₂⟩] h (ix1 q') = x₁ (ix1 q) :=
  concatenate_pair_apply_left 0 x₁ x₂ h (ix1 q') rfl (ix1 q) (fun b => match b with | ⟨0, _⟩ => hq.symm)

/-- Vectors: an entry of the right piece. -/
theorem concat_vec_right {C1 C2 C' : ℕ} (x₁ : (⟨1, ![C1]⟩ : Shape).Idx → α) (x₂ : (⟨1, ![C2]⟩ : Shape).Idx → α)
    (h : Shape.Concatenates [⟨1, ![C1]⟩, ⟨1, ![C2]⟩] ⟨1, ![C']⟩ 0) (q : Fin C2) (q' : Fin C') (hq : q'.val = C1 + q.val) :
    concatenate ⟨1, ![C']⟩ 0 [⟨⟨1, ![C1]⟩, x₁⟩, ⟨⟨1, ![C2]⟩, x₂⟩] h (ix1 q') = x₂ (ix1 q) :=
  concatenate_pair_apply_right 0 x₁ x₂ h (ix1 q') rfl rfl (ix1 q)
    (fun b => match b with | ⟨0, _⟩ => fun hne => absurd rfl hne)
    (by show q.val + C1 = q'.val; omega)

/-- A band of columns: every row kept, the columns from `o` on. -/
theorem slice_cols {N C C' : ℕ} (o : ℕ) (A : (⟨2, ![N, C']⟩ : Shape).Idx → α)
    (h : (⟨2, ![N, C']⟩ : Shape).Slices ![0, o] ⟨2, ![N, C]⟩) (p : Fin N) (q : Fin C) (q' : Fin C')
    (hq : q'.val = o + q.val) :
    extractStridedSlice ⟨2, ![N, C]⟩ ![0, o] A h (ix2 p q) = A (ix2 p q') :=
  extractStridedSlice_apply ![0, o] A h (ix2 p q) (ix2 p q')
    (fun a => match a with
      | ⟨0, _⟩ => by show p.val = 0 + p.val; omega
      | ⟨1, _⟩ => hq)

end Cert.Halves
-- ==== Proof.RefReadConcat.lean ====
/-
  The reference's joined edge list, read at an entry.

  The reference appends one self-loop per node to the edge list: the source and destination entries are the
  original entries followed by the node numbers `0 … 99999`, and the weights are the original (normalised) weights
  followed by ones. A joined vector of `1600000 + 100000` entries reads, below `1600000`, its first piece at the same
  place and, at `1600000 + i`, its second piece at `i`.
-/
import proofs.«117865_j31619549233339_2_alg».proof.Proof.Gen.ReferenceIdeal.Read
import proofs.«117865_j31619549233339_2_alg».proof.Proof.LibHalves

noncomputable section

namespace Cert.RefRead

open Cert.ReferenceIdeal Cert.ReferenceIdeal.Gen Cert.ReferenceIdeal.Read Idealize.ShloMosaic Idealize.ShloMosaic.ValueIdx

/-- The place of an original edge in the joined list. -/
def edgeJ (e : Fin 1600000) : Fin 1700000 := ⟨e.val, by have := e.isLt; omega⟩

/-- The place of node `i`'s self-loop in the joined list. -/
def loopJ (i : Fin 100000) : Fin 1700000 := ⟨1600000 + i.val, by have := i.isLt; omega⟩

@[simp] theorem edgeJ_val (e : Fin 1600000) : (edgeJ e).val = e.val := rfl
@[simp] theorem loopJ_val (i : Fin 100000) : (loopJ i).val = 1600000 + i.val := rfl

/-- Every place of the joined list is an original edge or a self-loop. -/
theorem joined_cases (j : Fin 1700000) : (∃ e : Fin 1600000, j = edgeJ e) ∨ (∃ i : Fin 100000, j = loopJ i) := by
  by_cases h : j.val < 1600000
  · exact Or.inl ⟨⟨j.val, h⟩, Fin.ext rfl⟩
  · exact Or.inr ⟨⟨j.val - 1600000, by have := j.isLt; omega⟩, Fin.ext (by show j.val = 1600000 + (j.val - 1600000); omega)⟩

/-! ## Source entries -/

theorem row_left (x1 : (⟨S2x1600000, .i32⟩ : BufTy).Contents (Elt Ideal)) (e : Fin 1600000) (j : Fin 1700000)
    (hj : j.val = e.val) :
    val_main_v27 (F := Ideal) x1 (ix1 j) = val_main_v1 (F := Ideal) x1 (ix1 e) := by
  unfold val_main_v27
  exact Cert.Halves.concat_vec_left _ _ concatenates_S1600000_S100000_S1700000_d0 e j hj

theorem row_right (x1 : (⟨S2x1600000, .i32⟩ : BufTy).Contents (Elt Ideal)) (i : Fin 100000) (j : Fin 1700000)
    (hj : j.val = 1600000 + i.val) :
    val_main_v27 (F := Ideal) x1 (ix1 j) = BitVec.ofNat 32 i.val := by
  unfold val_main_v27
  rw [Cert.Halves.concat_vec_right _ _ concatenates_S1600000_S100000_S1700000_d0 i j hj]
  rfl

theorem row_edge (x1 : (⟨S2x1600000, .i32⟩ : BufTy).Contents (Elt Ideal)) (e : Fin 1600000) :
    val_main_v27 (F := Ideal) x1 (ix1 (edgeJ e)) = val_main_v1 (F := Ideal) x1 (ix1 e) :=
  row_left x1 e (edgeJ e) rfl

theorem row_loop (x1 : (⟨S2x1600000, .i32⟩ : BufTy).Contents (Elt Ideal)) (i : Fin 100000) :
    val_main_v27 (F := Ideal) x1 (ix1 (loopJ i)) = BitVec.ofNat 32 i.val :=
  row_right x1 i (loopJ i) rfl

/-! ## Destination entries -/

theorem col_left (x1 : (⟨S2x1600000, .i32⟩ : BufTy).Contents (Elt Ideal)) (e : Fin 1600000) (j : Fin 1700000)
    (hj : j.val = e.val) :
    val_main_v28 (F := Ideal) x1 (ix1 j) = val_main_v3 (F := Ideal) x1 (ix1 e) := by
  unfold val_main_v28
  exact Cert.Halves.concat_vec_left _ _ concatenates_S1600000_S100000_S1700000_d0 e j hj

theorem col_right (x1 : (⟨S2x1600000, .i32⟩ : BufTy).Contents (Elt Ideal)) (i : Fin 100000) (j : Fin 1700000)
    (hj : j.val = 1600000 + i.val) :
    val_main_v28 (F := Ideal) x1 (ix1 j) = BitVec.ofNat 32 i.val := by
  unfold val_main_v28
  rw [Cert.Halves.concat_vec_right _ _ concatenates_S1600000_S100000_S1700000_d0 i j hj]
  rfl

theorem col_edge (x1 : (⟨S2x1600000, .i32⟩ : BufTy).Contents (Elt Ideal)) (e : Fin 1600000) :
    val_main_v28 (F := Ideal) x1 (ix1 (edgeJ e)) = val_main_v3 (F := Ideal) x1 (ix1 e) :=
  col_left x1 e (edgeJ e) rfl

theorem col_loop (x1 : (⟨S2x1600000, .i32⟩ : BufTy).Contents (Elt Ideal)) (i : Fin 100000) :
    val_main_v28 (F := Ideal) x1 (ix1 (loopJ i)) = BitVec.ofNat 32 i.val :=
  col_right x1 i (loopJ i) rfl

/-! ## Weights -/

theorem w_left (x1 : (⟨S2x1600000, .i32⟩ : BufTy).Contents (Elt Ideal)) (x2 : (⟨S1600000, .f32⟩ : BufTy).Contents (Elt Ideal))
    (e : Fin 1600000) (j : Fin 1700000) (hj : j.val = e.val) :
    val_main_v30 (F := Ideal) x1 x2 (ix1 j) = val_main_v25 (F := Ideal) x1 x2 (ix1 e) := by
  unfold val_main_v30
  exact Cert.Halves.concat_vec_left _ _ concatenates_S1600000_S100000_S1700000_d0 e j hj

theorem w_right (x1 : (⟨S2x1600000, .i32⟩ : BufTy).Contents (Elt Ideal)) (x2 : (⟨S1600000, .f32⟩ : BufTy).Contents (Elt Ideal))
    (i : Fin 100000) (j : Fin 1700000) (hj : j.val = 1600000 + i.val) :
    val_main_v30 (F := Ideal) x1 x2 (ix1 j) = Ideal.ofBits .f32 0x3F800000#32 := by
  unfold val_main_v30
  rw [Cert.Halves.concat_vec_right _ _ concatenates_S1600000_S100000_S1700000_d0 i j hj, val_main_v29_apply]
  rfl

theorem w_edge (x1 : (⟨S2x1600000, .i32⟩ : BufTy).Contents (Elt Ideal)) (x2 : (⟨S1600000, .f32⟩ : BufTy).Contents (Elt Ideal))
    (e : Fin 1600000) :
    val_main_v30 (F := Ideal) x1 x2 (ix1 (edgeJ e)) = val_main_v25 (F := Ideal) x1 x2 (ix1 e) :=
  w_left x1 x2 e (edgeJ e) rfl

theorem w_loop (x1 : (⟨S2x1600000, .i32⟩ : BufTy).Contents (Elt Ideal)) (x2 : (⟨S1600000, .f32⟩ : BufTy).Contents (Elt Ideal))
    (i : Fin 100000) :
    val_main_v30 (F := Ideal) x1 x2 (ix1 (loopJ i)) = Ideal.ofBits .f32 0x3F800000#32 :=
  w_right x1 x2 i (loopJ i) rfl

end Cert.RefRead

end
-- ==== Proof.BridgeAlg.lean ====
/-
  The algebra that joins the kernel's and the reference's graph convolution, on the extended reals.

  The reference appends one self-loop per node to the edge list, so each of its segment sums runs over the edges
  followed by the nodes. A sum over the first a + b naturals restricted by a predicate is the restricted sum over the
  first a plus the restricted sum over the last b; and the self-loops whose target entry, the node's own number as a
  32-bit word read signed, is a given node are that one node. Only commutativity and associativity of the extended
  reals' sum and product are used.
-/
import Mathlib.Data.EReal.Operations
import Mathlib.Algebra.BigOperators.Fin

namespace Cert.Bridge

/-- A restricted sum over `Fin (a + b)` splits into the restricted sums over its first `a` and its last `b` members. -/
theorem sum_filter_add {α : Type} [AddCommMonoid α] {a b : ℕ} (P : Fin (a + b) → Prop) [DecidablePred P] (f : Fin (a + b) → α) :
    ∑ j ∈ Finset.univ.filter P, f j
      = ∑ e ∈ Finset.univ.filter (fun e : Fin a => P (Fin.castAdd b e)), f (Fin.castAdd b e)
        + ∑ i ∈ Finset.univ.filter (fun i : Fin b => P (Fin.natAdd a i)), f (Fin.natAdd a i) := by
  rw [Finset.sum_filter, Fin.sum_univ_add, ← Finset.sum_filter, ← Finset.sum_filter]

/-- A natural below 2^31 as a 32-bit word reads back, signed, as itself. -/
theorem toInt_ofNat_lt (i : ℕ) (h : i < 2 ^ 31) : (BitVec.ofNat 32 i).toInt = (i : Int) := by
  rw [BitVec.toInt_eq_toNat_cond, BitVec.toNat_ofNat]
  have h1 : i % 2 ^ 32 = i := Nat.mod_eq_of_lt (by omega)
  rw [h1]
  split
  · rfl
  · omega

/-- Among the nodes, those whose own number read signed is `p` are `p` alone. -/
theorem sum_self_loop {α : Type} [AddCommMonoid α] {n : ℕ} (hn : n ≤ 2 ^ 31) (p : Fin n) (f : Fin n → α) :
    ∑ i ∈ Finset.univ.filter (fun i : Fin n => (BitVec.ofNat 32 i.val).toInt = (p.val : Int)), f i = f p := by
  have hfil : (Finset.univ.filter fun i : Fin n => (BitVec.ofNat 32 i.val).toInt = (p.val : Int)) = {p} := by
    ext i
    simp only [Finset.mem_filter, Finset.mem_univ, true_and, Finset.mem_singleton]
    rw [toInt_ofNat_lt i.val (by have := i.isLt; omega)]
    constructor
    · intro h; exact Fin.ext (by exact_mod_cast h)
    · intro h; rw [h]
  rw [hfil, Finset.sum_singleton]

end Cert.Bridge
-- ==== Proof.BridgeDeg.lean ====
/-
  The kernel's node degree and node factor are the reference's.

  The reference sums the weights of the joined list (the edges' normalised weights, then a one per node) at the joined
  destination entries; the kernel sums the edges' weights at the edges' destination entries and adds one. At a node p
  the joined sum splits into the edges' part — the same edges, the same weights — and the self-loops' part, which is
  the one self-loop of p, of weight one. So (0 + A) + 1 on the kernel's side is 0 + (A + 1) on the reference's:
  associativity of the sum, nothing else. The node factor is the same function of the degree on both sides.
-/
import proofs.«117865_j31619549233339_2_alg».proof.Proof.KPoint
import proofs.«117865_j31619549233339_2_alg».proof.Proof.RefReadDeg
import proofs.«117865_j31619549233339_2_alg».proof.Proof.RefReadConcat
import proofs.«117865_j31619549233339_2_alg».proof.Proof.BridgeAlg

noncomputable section

namespace Cert.Bridge

open Idealize.ShloMosaic Idealize.ShloMosaic.ValueIdx Cert.KVal Cert.RefRead
open Cert.ReferenceIdeal.Read

/-- A restricted sum over the joined list splits into the edges' part and the self-loops' part. -/
theorem sum_joined {α : Type} [AddCommMonoid α] (P : Fin 1700000 → Prop) [DecidablePred P] (f : Fin 1700000 → α) :
    ∑ j ∈ Finset.univ.filter P, f j
      = ∑ e ∈ Finset.univ.filter (fun e : Fin 1600000 => P (edgeJ e)), f (edgeJ e)
        + ∑ i ∈ Finset.univ.filter (fun i : Fin 100000 => P (loopJ i)), f (loopJ i) :=
  sum_filter_add (a := 1600000) (b := 100000) P f

variable (x1 : IA Cert.KernelIdeal.S2x1600000) (x2 : FA Cert.KernelIdeal.S1600000)

/-- The edges of the joined list that arrive at a node are the edges whose destination entry names it. -/
theorem filter_edge (p : Fin 100000) :
    (Finset.univ.filter fun e : Fin 1600000 => (val_main_v28 (F := Ideal) x1 (ix1 (edgeJ e))).toInt = (p.val : Int))
      = arr (dst x1) p := by
  unfold arr
  refine Finset.filter_congr fun e _ => ?_
  rw [col_edge]
  rfl

/-- The self-loops of the joined list that arrive at a node are that node's own. -/
theorem sum_loop {α : Type} [AddCommMonoid α] (p : Fin 100000) (f : Fin 100000 → α) :
    ∑ i ∈ Finset.univ.filter (fun i : Fin 100000 => (val_main_v28 (F := Ideal) x1 (ix1 (loopJ i))).toInt = (p.val : Int)), f i
      = f p := by
  have h : (Finset.univ.filter fun i : Fin 100000 => (val_main_v28 (F := Ideal) x1 (ix1 (loopJ i))).toInt = (p.val : Int))
      = Finset.univ.filter fun i : Fin 100000 => (BitVec.ofNat 32 i.val).toInt = (p.val : Int) :=
    Finset.filter_congr fun i _ => by rw [col_loop]
  rw [h]
  exact sum_self_loop (by decide) p f

theorem zeroN_apply (p : Fin 100000) : zeroN (ix1 p) = 0 := v31_at p

theorem oneN_apply (p : Fin 100000) : oneN (ix1 p) = Ideal.ofBits .f32 0x3F800000#32 := by
  show val_main_v29 (F := Ideal) (ix1 p) = _
  rw [val_main_v29_apply]
  rfl

/-- The node degree, entry by entry. -/
theorem deg_at (p : Fin 100000) : deg x1 x2 (ix1 p) = val_main_v33 (F := Ideal) x1 x2 (ix1 p) := by
  rw [Cert.KVal.deg_apply, Cert.RefRead.deg_apply, sum_joined, filter_edge, sum_loop x1 p (fun i => val_main_v30 (F := Ideal) x1 x2 (ix1 (loopJ i))),
    w_loop, zeroN_apply, oneN_apply, add_assoc]
  have hs : ∑ e ∈ arr (dst x1) p, what x1 x2 (ix1 e)
      = ∑ e ∈ arr (dst x1) p, val_main_v30 (F := Ideal) x1 x2 (ix1 (edgeJ e)) :=
    Finset.sum_congr rfl fun e _ => (w_edge x1 x2 e).symm
  rw [hs]

/-- The node degree is the reference's. -/
theorem deg_eq : deg x1 x2 = val_main_v33 (F := Ideal) x1 x2 := by
  funext i
  rw [eq_ix1 i]
  exact deg_at x1 x2 (i 0)

/-- The node factor is the reference's. -/
theorem dinv_eq : dinv x1 x2 = val_main_v37 (F := Ideal) x1 x2 := by
  unfold dinv
  rw [deg_eq]
  rfl

end Cert.Bridge

end
-- ==== Proof.RefReadCoef.lean ====
/-
  The reference's per-place coefficient, read at a place of the joined list.

  A gather reads its index entries wrapped (a negative entry counts from the end: the node count is added) and then
  clamped into `0 … 99999`. The coefficient of place `j` is the inverse-square-root-degree factor at the source node of
  `j`, times the weight of `j`, times the factor at the destination node of `j`.
-/
import proofs.«117865_j31619549233339_2_alg».proof.Proof.Gen.ReferenceIdeal.Read
import proofs.«117865_j31619549233339_2_alg».proof.Proof.LibGcnHost

open scoped BigOperators

noncomputable section

namespace Cert.RefRead

open Cert.ReferenceIdeal Cert.ReferenceIdeal.Gen Cert.ReferenceIdeal.Read Idealize.ShloMosaic Idealize.ShloMosaic.ValueIdx

/-- The joined source entries, wrapped as every gather of the reference wraps them. -/
def rowW (x1 : (⟨S2x1600000, .i32⟩ : BufTy).Contents (Elt Ideal)) : IVec ⟨1, ![1700000]⟩ 32 :=
  Cert.GcnHost.wrap 100000#32 bcast_S_S1700000 (val_main_v27 (F := Ideal) x1)

/-- The joined destination entries, wrapped. -/
def colW (x1 : (⟨S2x1600000, .i32⟩ : BufTy).Contents (Elt Ideal)) : IVec ⟨1, ![1700000]⟩ 32 :=
  Cert.GcnHost.wrap 100000#32 bcast_S_S1700000 (val_main_v28 (F := Ideal) x1)

theorem node_count_pos : 0 < 100000 := by decide

/-- The node a gather reads for the source entry of place `j`. -/
def srcNode (x1 : (⟨S2x1600000, .i32⟩ : BufTy).Contents (Elt Ideal)) (j : Fin 1700000) : Fin 100000 := Cert.GcnHost.node node_count_pos (rowW x1 (ix1 j))

/-- The node a gather reads for the destination entry of place `j`. -/
def dstNode (x1 : (⟨S2x1600000, .i32⟩ : BufTy).Contents (Elt Ideal)) (j : Fin 1700000) : Fin 100000 := Cert.GcnHost.node node_count_pos (colW x1 (ix1 j))

/-- The printed select(idx < 0, idx + 100000, idx) stages are the wrapped entries. -/
theorem v42_eq (x1 : (⟨S2x1600000, .i32⟩ : BufTy).Contents (Elt Ideal)) : val_main_v42 (F := Ideal) x1 = rowW x1 := rfl
theorem v50_eq (x1 : (⟨S2x1600000, .i32⟩ : BufTy).Contents (Elt Ideal)) : val_main_v50 (F := Ideal) x1 = colW x1 := rfl
theorem v64_eq (x1 : (⟨S2x1600000, .i32⟩ : BufTy).Contents (Elt Ideal)) : val_main_v64 (F := Ideal) x1 = rowW x1 := rfl
theorem v82_eq (x1 : (⟨S2x1600000, .i32⟩ : BufTy).Contents (Elt Ideal)) : val_main_v82 (F := Ideal) x1 = rowW x1 := rfl
theorem v100_eq (x1 : (⟨S2x1600000, .i32⟩ : BufTy).Contents (Elt Ideal)) : val_main_v100 (F := Ideal) x1 = rowW x1 := rfl

/-- A place that arrives at node `p` (its destination entry, read signed, is `p`) has destination node `p`. -/
theorem dstNode_of_arrives (x1 : (⟨S2x1600000, .i32⟩ : BufTy).Contents (Elt Ideal)) (j : Fin 1700000) (p : Fin 100000)
    (h : (val_main_v28 (F := Ideal) x1 (ix1 j)).toInt = (p.val : Int)) : dstNode x1 j = p :=
  Cert.GcnHost.node_wrap node_count_pos 100000#32 bcast_S_S1700000 (val_main_v28 (F := Ideal) x1) j p h

/-- A place whose source entry, read signed, is the node `p` has source node `p`. -/
theorem srcNode_of_reads (x1 : (⟨S2x1600000, .i32⟩ : BufTy).Contents (Elt Ideal)) (j : Fin 1700000) (p : Fin 100000)
    (h : (val_main_v27 (F := Ideal) x1 (ix1 j)).toInt = (p.val : Int)) : srcNode x1 j = p :=
  Cert.GcnHost.node_wrap node_count_pos 100000#32 bcast_S_S1700000 (val_main_v27 (F := Ideal) x1) j p h

/-- The factor gathered at the source entries. -/
theorem v44_at (x1 : (⟨S2x1600000, .i32⟩ : BufTy).Contents (Elt Ideal)) (x2 : (⟨S1600000, .f32⟩ : BufTy).Contents (Elt Ideal)) (j : Fin 1700000) :
    val_main_v44 (F := Ideal) x1 x2 (ix1 j) = val_main_v37 (F := Ideal) x1 x2 (ix1 (srcNode x1 j)) := by
  unfold val_main_v44 val_main_v43
  rw [Cert.GcnHost.gather_vec_node node_count_pos gather_S100000_S1700000x1_S1700000_n_0_n_n_0_1_1 rfl rfl rfl rfl rfl rfl rfl,
    Cert.HostLayout.bcast_vec_col]
  rfl

/-- The factor gathered at the destination entries. -/
theorem v52_at (x1 : (⟨S2x1600000, .i32⟩ : BufTy).Contents (Elt Ideal)) (x2 : (⟨S1600000, .f32⟩ : BufTy).Contents (Elt Ideal)) (j : Fin 1700000) :
    val_main_v52 (F := Ideal) x1 x2 (ix1 j) = val_main_v37 (F := Ideal) x1 x2 (ix1 (dstNode x1 j)) := by
  unfold val_main_v52 val_main_v51
  rw [Cert.GcnHost.gather_vec_node node_count_pos gather_S100000_S1700000x1_S1700000_n_0_n_n_0_1_1 rfl rfl rfl rfl rfl rfl rfl,
    Cert.HostLayout.bcast_vec_col]
  rfl

/-- THE COEFFICIENT OF PLACE `j`: (factor at the source node · weight) · factor at the destination node. -/
theorem coef_apply (x1 : (⟨S2x1600000, .i32⟩ : BufTy).Contents (Elt Ideal)) (x2 : (⟨S1600000, .f32⟩ : BufTy).Contents (Elt Ideal)) (j : Fin 1700000) :
    val_main_v53 (F := Ideal) x1 x2 (ix1 j)
      = (val_main_v37 (F := Ideal) x1 x2 (ix1 (srcNode x1 j)) * val_main_v30 (F := Ideal) x1 x2 (ix1 j))
          * val_main_v37 (F := Ideal) x1 x2 (ix1 (dstNode x1 j)) := by
  rw [val_main_v53_apply, val_main_v45_apply, v44_at, v52_at]
  rfl

end Cert.RefRead

end
-- ==== Proof.BridgeNorm.lean ====
/-
  The per-edge coefficient: the reference's coefficient of the joined list is the kernel's on the edges and the node
  factor squared (times the self-loop's weight one) on the self-loops.

  Wrapping an entry and naming a node with it depend on that entry alone, so at an edge's place the joined list names
  the nodes the edge list names; a self-loop's entries are its node's number, which names that node.
-/
import proofs.«117865_j31619549233339_2_alg».proof.Proof.BridgeDeg
import proofs.«117865_j31619549233339_2_alg».proof.Proof.RefReadCoef

noncomputable section

namespace Cert.Bridge

open Idealize.ShloMosaic Idealize.ShloMosaic.ValueIdx Cert.KVal Cert.RefRead
open Cert.ReferenceIdeal.Read

/-- A wrapped entry depends on the entry alone. -/
theorem wrap_congr {M M' : ℕ} (nn : BitVec 32) (h0 : (⟨0, ![]⟩ : Shape).BroadcastsInDim ⟨1, ![M]⟩ ![])
    (h0' : (⟨0, ![]⟩ : Shape).BroadcastsInDim ⟨1, ![M']⟩ ![]) (r : IVec ⟨1, ![M]⟩ 32) (r' : IVec ⟨1, ![M']⟩ 32)
    (j : Fin M) (e : Fin M') (h : r (ix1 j) = r' (ix1 e)) :
    Cert.GcnHost.wrap nn h0 r (ix1 j) = Cert.GcnHost.wrap nn h0' r' (ix1 e) := by
  unfold Cert.GcnHost.wrap
  rw [select_apply, select_apply]
  show Scalar.select (IntOp.cmpi .slt (r (ix1 j)) 0#32) (IntOp.addi (r (ix1 j)) nn) (r (ix1 j))
    = Scalar.select (IntOp.cmpi .slt (r' (ix1 e)) 0#32) (IntOp.addi (r' (ix1 e)) nn) (r' (ix1 e))
  rw [h]

variable (x1 : IA Cert.KernelIdeal.S2x1600000) (x2 : FA Cert.KernelIdeal.S1600000)

/-- At an edge's place the joined source entry names the node the edge's source entry names. -/
theorem srcNode_edge (e : Fin 1600000) : srcNode x1 (edgeJ e) = nd (wrap (src x1) (ix1 e)) := by
  unfold srcNode rowW
  rw [wrap_eq]
  exact congrArg _ (wrap_congr 100000#32 _ _ _ _ (edgeJ e) e (row_edge x1 e))

/-- At an edge's place the joined destination entry names the node the edge's destination entry names. -/
theorem dstNode_edge (e : Fin 1600000) : dstNode x1 (edgeJ e) = nd (wrap (dst x1) (ix1 e)) := by
  unfold dstNode colW
  rw [wrap_eq]
  exact congrArg _ (wrap_congr 100000#32 _ _ _ _ (edgeJ e) e (col_edge x1 e))

/-- A self-loop's source is its node. -/
theorem srcNode_loop (i : Fin 100000) : srcNode x1 (loopJ i) = i :=
  srcNode_of_reads x1 (loopJ i) i (by rw [row_loop]; exact toInt_ofNat_lt i.val (by have := i.isLt; omega))

/-- A self-loop's destination is its node. -/
theorem dstNode_loop (i : Fin 100000) : dstNode x1 (loopJ i) = i :=
  dstNode_of_arrives x1 (loopJ i) i (by rw [col_loop]; exact toInt_ofNat_lt i.val (by have := i.isLt; omega))

/-- On an edge the reference's coefficient is the kernel's. -/
theorem coef_edge (e : Fin 1600000) :
    val_main_v53 (F := Ideal) x1 x2 (ix1 (edgeJ e)) = norm x1 x2 (ix1 e) := by
  rw [coef_apply, norm_apply, srcNode_edge, dstNode_edge, w_edge, dinv_eq]
  rfl

/-- On a self-loop the reference's coefficient is the node factor, times one, times the node factor. -/
theorem coef_loop (i : Fin 100000) :
    val_main_v53 (F := Ideal) x1 x2 (ix1 (loopJ i))
      = (dinv x1 x2 (ix1 i) * Ideal.ofBits .f32 0x3F800000#32) * dinv x1 x2 (ix1 i) := by
  rw [coef_apply, srcNode_loop, dstNode_loop, w_loop, dinv_eq]

end Cert.Bridge

end
-- ==== Proof.RefReadLayer1.lean ====
/-
  Layer 1 of the reference, read at an entry.

  The layer gathers the rows of its input along the joined source entries, multiplies each gathered row by the
  coefficient of its place (the coefficient is the LEFT factor), sums the products per destination into a zero array,
  and adds the bias row; the result is then rectified (the maximum with zero). At `(p, q)` the sum runs over the places whose
  destination entry, read signed, is `p`, and a place contributes its coefficient times the input at (its source node, `q`).
-/
import proofs.«117865_j31619549233339_2_alg».proof.Proof.Gen.ReferenceIdeal.Read
import proofs.«117865_j31619549233339_2_alg».proof.Proof.RefReadCoef

open scoped BigOperators

noncomputable section

namespace Cert.RefRead

open Cert.ReferenceIdeal Cert.ReferenceIdeal.Gen Cert.ReferenceIdeal.Read Idealize.ShloMosaic Idealize.ShloMosaic.ValueIdx

/-- The destination column the layer's scatter reads is the joined destination vector. -/
theorem v70_at (x1 : (⟨S2x1600000, .i32⟩ : BufTy).Contents (Elt Ideal)) (j : Fin 1700000) (u : Fin 1) :
    val_main_v70 (F := Ideal) x1 (ix2 j u) = val_main_v28 (F := Ideal) x1 (ix1 j) := by
  unfold val_main_v70
  exact Cert.HostLayout.bcast_vec_col _ bcast_S1700000_S1700000x1_0 j u

/-- The zero array the layer's scatter accumulates into. -/
theorem v69_at (p : Fin 100000) (q : Fin 64) : val_main_v69 (F := Ideal) (ix2 p q) = 0 := by
  rw [val_main_v69_apply, val_main_cst_16_apply]
  exact Ideal.ofBits_zero_f32

/-- The coefficient column, broadcast along the rows. -/
theorem v67_at (x1 : (⟨S2x1600000, .i32⟩ : BufTy).Contents (Elt Ideal)) (x2 : (⟨S1600000, .f32⟩ : BufTy).Contents (Elt Ideal)) (j : Fin 1700000) (q : Fin 64) :
    val_main_v67 (F := Ideal) x1 x2 (ix2 j q) = val_main_v53 (F := Ideal) x1 x2 (ix1 j) := by
  unfold val_main_v67 val_main_v59
  rw [Cert.HostLayout.bcast_col_mat, Cert.HostLayout.bcast_vec_col]

/-- The gathered rows: place `j` reads the input at its source node. -/
theorem v66_at (x0 : (⟨S100000x64, .f32⟩ : BufTy).Contents (Elt Ideal)) (x1 : (⟨S2x1600000, .i32⟩ : BufTy).Contents (Elt Ideal)) (x3 : (⟨S64x64, .f32⟩ : BufTy).Contents (Elt Ideal)) (j : Fin 1700000) (q : Fin 64) :
    val_main_v66 (F := Ideal) x0 x1 x3 (ix2 j q) = val_main_v58 (F := Ideal) x0 x3 (ix2 (srcNode x1 j) q) := by
  unfold val_main_v66 val_main_v65
  rw [Cert.GcnHost.gather_rows_node node_count_pos gather_S100000x64_S1700000x1_S1700000x64_1_0_n_n_0_1_164 rfl rfl rfl rfl rfl rfl rfl,
    Cert.HostLayout.bcast_vec_col]
  rfl

/-- The scattered updates: coefficient times gathered row, in the printed order. -/
theorem v68_at (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (j : Fin 1700000) (q : Fin 64) :
    val_main_v68 (F := Ideal) x0 x1 x2 x3 (ix2 j q) = val_main_v53 (F := Ideal) x1 x2 (ix1 j) * val_main_v58 (F := Ideal) x0 x3 (ix2 (srcNode x1 j) q) := by
  rw [val_main_v68_apply, v67_at, v66_at]
  rfl

/-- LAYER 1, THE SUM PER DESTINATION at `(p, q)`. -/
theorem agg1_apply (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (p : Fin 100000) (q : Fin 64) :
    val_main_v71 (F := Ideal) x0 x1 x2 x3 (ix2 p q)
      = 0 + ∑ j ∈ Finset.univ.filter (fun j : Fin 1700000 => (val_main_v28 (F := Ideal) x1 (ix1 j)).toInt = (p.val : Int)),
          val_main_v53 (F := Ideal) x1 x2 (ix1 j) * val_main_v58 (F := Ideal) x0 x3 (ix2 (srcNode x1 j) q) := by
  unfold val_main_v71
  refine (Cert.SegmentSum.segSumRows_apply scatter_S100000x64_S1700000x1_S1700000x64_1_0_0_1 rfl rfl rfl rfl
    (val_main_v70 (F := Ideal) x1) (val_main_v69 (F := Ideal)) (val_main_v68 (F := Ideal) x0 x1 x2 x3) p q).trans ?_
  rw [v69_at]
  refine congrArg (_ + ·) (Finset.sum_congr ?_ (fun j _ => v68_at x0 x1 x2 x3 j q))
  ext j
  simp only [Finset.mem_filter, Finset.mem_univ, true_and]
  rw [v70_at]

/-- The bias row, broadcast to every row. -/
theorem v73_at (x4 : (⟨S64, .f32⟩ : BufTy).Contents (Elt Ideal)) (p : Fin 100000) (q : Fin 64) :
    val_main_v73 (F := Ideal) x4 (ix2 p q) = x4 (ix1 q) := by
  unfold val_main_v73 val_main_v72
  exact Cert.HostLayout.bcast_vec_mat x4 bcast_S64_S1x64_1 bcast_S1x64_S100000x64_0_1 p q

/-- LAYER 1, THE RESULT BEFORE RECTIFYING at `(p, q)`: the sum per destination plus the bias entry. -/
theorem out1_apply' (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (p : Fin 100000) (q : Fin 64) :
    val_main_v74 (F := Ideal) x0 x1 x2 x3 x4 (ix2 p q) = val_main_v71 (F := Ideal) x0 x1 x2 x3 (ix2 p q) + x4 (ix1 q) := by
  rw [val_main_v74_apply, v73_at]
  rfl

theorem out1_apply (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (p : Fin 100000) (q : Fin 64) :
    val_main_v74 (F := Ideal) x0 x1 x2 x3 x4 (ix2 p q)
      = (0 + ∑ j ∈ Finset.univ.filter (fun j : Fin 1700000 => (val_main_v28 (F := Ideal) x1 (ix1 j)).toInt = (p.val : Int)),
          val_main_v53 (F := Ideal) x1 x2 (ix1 j) * val_main_v58 (F := Ideal) x0 x3 (ix2 (srcNode x1 j) q)) + x4 (ix1 q) := by
  rw [out1_apply', agg1_apply]

/-- The zero array the rectifier compares with. -/
theorem call2_v0_at (p : Fin 100000) (q : Fin 64) : val_main_call2_v0 (F := Ideal) (ix2 p q) = 0 := by
  rw [val_main_call2_v0_apply, val_main_call2_cst_apply]
  exact Ideal.ofBits_zero_f32

/-- LAYER 1, RECTIFIED at `(p, q)`: the maximum of the result and zero. -/
theorem relu1_apply (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (p : Fin 100000) (q : Fin 64) :
    val_main_v75 (F := Ideal) x0 x1 x2 x3 x4 (ix2 p q) = max (val_main_v74 (F := Ideal) x0 x1 x2 x3 x4 (ix2 p q)) 0 := by
  rw [val_main_v75_apply, call2_v0_at]
  rfl

end Cert.RefRead

end
-- ==== Proof.RefReadLayer2.lean ====
/-
  Layer 2 of the reference, read at an entry.

  The layer gathers the rows of its input along the joined source entries, multiplies each gathered row by the
  coefficient of its place (the coefficient is the LEFT factor), sums the products per destination into a zero array,
  and adds the bias row; the result is then rectified (the maximum with zero). At `(p, q)` the sum runs over the places whose
  destination entry, read signed, is `p`, and a place contributes its coefficient times the input at (its source node, `q`).
-/
import proofs.«117865_j31619549233339_2_alg».proof.Proof.Gen.ReferenceIdeal.Read
import proofs.«117865_j31619549233339_2_alg».proof.Proof.RefReadCoef

open scoped BigOperators

noncomputable section

namespace Cert.RefRead

open Cert.ReferenceIdeal Cert.ReferenceIdeal.Gen Cert.ReferenceIdeal.Read Idealize.ShloMosaic Idealize.ShloMosaic.ValueIdx

/-- The destination column the layer's scatter reads is the joined destination vector. -/
theorem v88_at (x1 : (⟨S2x1600000, .i32⟩ : BufTy).Contents (Elt Ideal)) (j : Fin 1700000) (u : Fin 1) :
    val_main_v88 (F := Ideal) x1 (ix2 j u) = val_main_v28 (F := Ideal) x1 (ix1 j) := by
  unfold val_main_v88
  exact Cert.HostLayout.bcast_vec_col _ bcast_S1700000_S1700000x1_0 j u

/-- The zero array the layer's scatter accumulates into. -/
theorem v87_at (p : Fin 100000) (q : Fin 64) : val_main_v87 (F := Ideal) (ix2 p q) = 0 := by
  rw [val_main_v87_apply, val_main_cst_19_apply]
  exact Ideal.ofBits_zero_f32

/-- The coefficient column, broadcast along the rows. -/
theorem v85_at (x1 : (⟨S2x1600000, .i32⟩ : BufTy).Contents (Elt Ideal)) (x2 : (⟨S1600000, .f32⟩ : BufTy).Contents (Elt Ideal)) (j : Fin 1700000) (q : Fin 64) :
    val_main_v85 (F := Ideal) x1 x2 (ix2 j q) = val_main_v53 (F := Ideal) x1 x2 (ix1 j) := by
  unfold val_main_v85 val_main_v77
  rw [Cert.HostLayout.bcast_col_mat, Cert.HostLayout.bcast_vec_col]

/-- The gathered rows: place `j` reads the input at its source node. -/
theorem v84_at (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (j : Fin 1700000) (q : Fin 64) :
    val_main_v84 (F := Ideal) x0 x1 x2 x3 x4 x5 (ix2 j q) = val_main_v76 (F := Ideal) x0 x1 x2 x3 x4 x5 (ix2 (srcNode x1 j) q) := by
  unfold val_main_v84 val_main_v83
  rw [Cert.GcnHost.gather_rows_node node_count_pos gather_S100000x64_S1700000x1_S1700000x64_1_0_n_n_0_1_164 rfl rfl rfl rfl rfl rfl rfl,
    Cert.HostLayout.bcast_vec_col]
  rfl

/-- The scattered updates: coefficient times gathered row, in the printed order. -/
theorem v86_at (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (j : Fin 1700000) (q : Fin 64) :
    val_main_v86 (F := Ideal) x0 x1 x2 x3 x4 x5 (ix2 j q) = val_main_v53 (F := Ideal) x1 x2 (ix1 j) * val_main_v76 (F := Ideal) x0 x1 x2 x3 x4 x5 (ix2 (srcNode x1 j) q) := by
  rw [val_main_v86_apply, v85_at, v84_at]
  rfl

/-- LAYER 2, THE SUM PER DESTINATION at `(p, q)`. -/
theorem agg2_apply (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (p : Fin 100000) (q : Fin 64) :
    val_main_v89 (F := Ideal) x0 x1 x2 x3 x4 x5 (ix2 p q)
      = 0 + ∑ j ∈ Finset.univ.filter (fun j : Fin 1700000 => (val_main_v28 (F := Ideal) x1 (ix1 j)).toInt = (p.val : Int)),
          val_main_v53 (F := Ideal) x1 x2 (ix1 j) * val_main_v76 (F := Ideal) x0 x1 x2 x3 x4 x5 (ix2 (srcNode x1 j) q) := by
  unfold val_main_v89
  refine (Cert.SegmentSum.segSumRows_apply scatter_S100000x64_S1700000x1_S1700000x64_1_0_0_1 rfl rfl rfl rfl
    (val_main_v88 (F := Ideal) x1) (val_main_v87 (F := Ideal)) (val_main_v86 (F := Ideal) x0 x1 x2 x3 x4 x5) p q).trans ?_
  rw [v87_at]
  refine congrArg (_ + ·) (Finset.sum_congr ?_ (fun j _ => v86_at x0 x1 x2 x3 x4 x5 j q))
  ext j
  simp only [Finset.mem_filter, Finset.mem_univ, true_and]
  rw [v88_at]

/-- The bias row, broadcast to every row. -/
theorem v91_at (x6 : (⟨S64, .f32⟩ : BufTy).Contents (Elt Ideal)) (p : Fin 100000) (q : Fin 64) :
    val_main_v91 (F := Ideal) x6 (ix2 p q) = x6 (ix1 q) := by
  unfold val_main_v91 val_main_v90
  exact Cert.HostLayout.bcast_vec_mat x6 bcast_S64_S1x64_1 bcast_S1x64_S100000x64_0_1 p q

/-- LAYER 2, THE RESULT BEFORE RECTIFYING at `(p, q)`: the sum per destination plus the bias entry. -/
theorem out2_apply' (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (p : Fin 100000) (q : Fin 64) :
    val_main_v92 (F := Ideal) x0 x1 x2 x3 x4 x5 x6 (ix2 p q) = val_main_v89 (F := Ideal) x0 x1 x2 x3 x4 x5 (ix2 p q) + x6 (ix1 q) := by
  rw [val_main_v92_apply, v91_at]
  rfl

theorem out2_apply (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (p : Fin 100000) (q : Fin 64) :
    val_main_v92 (F := Ideal) x0 x1 x2 x3 x4 x5 x6 (ix2 p q)
      = (0 + ∑ j ∈ Finset.univ.filter (fun j : Fin 1700000 => (val_main_v28 (F := Ideal) x1 (ix1 j)).toInt = (p.val : Int)),
          val_main_v53 (F := Ideal) x1 x2 (ix1 j) * val_main_v76 (F := Ideal) x0 x1 x2 x3 x4 x5 (ix2 (srcNode x1 j) q)) + x6 (ix1 q) := by
  rw [out2_apply', agg2_apply]

/-- The zero array the rectifier compares with. -/
theorem call3_v0_at (p : Fin 100000) (q : Fin 64) : val_main_call3_v0 (F := Ideal) (ix2 p q) = 0 := by
  rw [val_main_call3_v0_apply, val_main_call3_cst_apply]
  exact Ideal.ofBits_zero_f32

/-- LAYER 2, RECTIFIED at `(p, q)`: the maximum of the result and zero. -/
theorem relu2_apply (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (p : Fin 100000) (q : Fin 64) :
    val_main_v93 (F := Ideal) x0 x1 x2 x3 x4 x5 x6 (ix2 p q) = max (val_main_v92 (F := Ideal) x0 x1 x2 x3 x4 x5 x6 (ix2 p q)) 0 := by
  rw [val_main_v93_apply, call3_v0_at]
  rfl

end Cert.RefRead

end
-- ==== Proof.RefReadLayer3.lean ====
/-
  Layer 3 of the reference, read at an entry.

  The layer gathers the rows of its input along the joined source entries, multiplies each gathered row by the
  coefficient of its place (the coefficient is the LEFT factor), sums the products per destination into a zero array,
  and adds the bias row. At `(p, q)` the sum runs over the places whose
  destination entry, read signed, is `p`, and a place contributes its coefficient times the input at (its source node, `q`).
-/
import proofs.«117865_j31619549233339_2_alg».proof.Proof.Gen.ReferenceIdeal.Read
import proofs.«117865_j31619549233339_2_alg».proof.Proof.RefReadCoef

open scoped BigOperators

noncomputable section

namespace Cert.RefRead

open Cert.ReferenceIdeal Cert.ReferenceIdeal.Gen Cert.ReferenceIdeal.Read Idealize.ShloMosaic Idealize.ShloMosaic.ValueIdx

/-- The destination column the layer's scatter reads is the joined destination vector. -/
theorem v105_at (x1 : (⟨S2x1600000, .i32⟩ : BufTy).Contents (Elt Ideal)) (j : Fin 1700000) (u : Fin 1) :
    val_main_v105 (F := Ideal) x1 (ix2 j u) = val_main_v28 (F := Ideal) x1 (ix1 j) := by
  unfold val_main_v105
  exact Cert.HostLayout.bcast_vec_col _ bcast_S1700000_S1700000x1_0 j u

/-- The zero array the layer's scatter accumulates into. -/
theorem v104_at (p : Fin 100000) (q : Fin 1) : val_main_v104 (F := Ideal) (ix2 p q) = 0 := by
  rw [val_main_v104_apply, val_main_cst_22_apply]
  exact Ideal.ofBits_zero_f32

/-- The coefficient column. -/
theorem v95_at (x1 : (⟨S2x1600000, .i32⟩ : BufTy).Contents (Elt Ideal)) (x2 : (⟨S1600000, .f32⟩ : BufTy).Contents (Elt Ideal)) (j : Fin 1700000) (q : Fin 1) :
    val_main_v95 (F := Ideal) x1 x2 (ix2 j q) = val_main_v53 (F := Ideal) x1 x2 (ix1 j) := by
  unfold val_main_v95
  exact Cert.HostLayout.bcast_vec_col _ bcast_S1700000_S1700000x1_0 j q

/-- The gathered rows: place `j` reads the input at its source node. -/
theorem v102_at (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x1, .f32⟩ : BufTy).Contents (Elt Ideal)) (j : Fin 1700000) (q : Fin 1) :
    val_main_v102 (F := Ideal) x0 x1 x2 x3 x4 x5 x6 x7 (ix2 j q) = val_main_v94 (F := Ideal) x0 x1 x2 x3 x4 x5 x6 x7 (ix2 (srcNode x1 j) q) := by
  unfold val_main_v102 val_main_v101
  rw [Cert.GcnHost.gather_rows_node node_count_pos gather_S100000x1_S1700000x1_S1700000x1_1_0_n_n_0_1_11 rfl rfl rfl rfl rfl rfl rfl,
    Cert.HostLayout.bcast_vec_col]
  rfl

/-- The scattered updates: coefficient times gathered row, in the printed order. -/
theorem v103_at (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x1, .f32⟩ : BufTy).Contents (Elt Ideal)) (j : Fin 1700000) (q : Fin 1) :
    val_main_v103 (F := Ideal) x0 x1 x2 x3 x4 x5 x6 x7 (ix2 j q) = val_main_v53 (F := Ideal) x1 x2 (ix1 j) * val_main_v94 (F := Ideal) x0 x1 x2 x3 x4 x5 x6 x7 (ix2 (srcNode x1 j) q) := by
  rw [val_main_v103_apply, v95_at, v102_at]
  rfl

/-- LAYER 3, THE SUM PER DESTINATION at `(p, q)`. -/
theorem agg3_apply (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x1, .f32⟩ : BufTy).Contents (Elt Ideal)) (p : Fin 100000) (q : Fin 1) :
    val_main_v106 (F := Ideal) x0 x1 x2 x3 x4 x5 x6 x7 (ix2 p q)
      = 0 + ∑ j ∈ Finset.univ.filter (fun j : Fin 1700000 => (val_main_v28 (F := Ideal) x1 (ix1 j)).toInt = (p.val : Int)),
          val_main_v53 (F := Ideal) x1 x2 (ix1 j) * val_main_v94 (F := Ideal) x0 x1 x2 x3 x4 x5 x6 x7 (ix2 (srcNode x1 j) q) := by
  unfold val_main_v106
  refine (Cert.SegmentSum.segSumRows_apply scatter_S100000x1_S1700000x1_S1700000x1_1_0_0_1 rfl rfl rfl rfl
    (val_main_v105 (F := Ideal) x1) (val_main_v104 (F := Ideal)) (val_main_v103 (F := Ideal) x0 x1 x2 x3 x4 x5 x6 x7) p q).trans ?_
  rw [v104_at]
  refine congrArg (_ + ·) (Finset.sum_congr ?_ (fun j _ => v103_at x0 x1 x2 x3 x4 x5 x6 x7 j q))
  ext j
  simp only [Finset.mem_filter, Finset.mem_univ, true_and]
  rw [v105_at]

/-- The bias row, broadcast to every row. -/
theorem v108_at (x8 : (⟨S1, .f32⟩ : BufTy).Contents (Elt Ideal)) (p : Fin 100000) (q : Fin 1) :
    val_main_v108 (F := Ideal) x8 (ix2 p q) = x8 (ix1 q) := by
  unfold val_main_v108 val_main_v107
  exact Cert.HostLayout.bcast_vec_mat x8 bcast_S1_S1x1_1 bcast_S1x1_S100000x1_0_1 p q

/-- LAYER 3, THE RESULT BEFORE RECTIFYING at `(p, q)`: the sum per destination plus the bias entry. -/
theorem out3_apply' (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x1, .f32⟩ : BufTy).Contents (Elt Ideal)) (x8 : (⟨S1, .f32⟩ : BufTy).Contents (Elt Ideal)) (p : Fin 100000) (q : Fin 1) :
    val_main_v109 (F := Ideal) x0 x1 x2 x3 x4 x5 x6 x7 x8 (ix2 p q) = val_main_v106 (F := Ideal) x0 x1 x2 x3 x4 x5 x6 x7 (ix2 p q) + x8 (ix1 q) := by
  rw [val_main_v109_apply, v108_at]
  rfl

theorem out3_apply (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x1, .f32⟩ : BufTy).Contents (Elt Ideal)) (x8 : (⟨S1, .f32⟩ : BufTy).Contents (Elt Ideal)) (p : Fin 100000) (q : Fin 1) :
    val_main_v109 (F := Ideal) x0 x1 x2 x3 x4 x5 x6 x7 x8 (ix2 p q)
      = (0 + ∑ j ∈ Finset.univ.filter (fun j : Fin 1700000 => (val_main_v28 (F := Ideal) x1 (ix1 j)).toInt = (p.val : Int)),
          val_main_v53 (F := Ideal) x1 x2 (ix1 j) * val_main_v94 (F := Ideal) x0 x1 x2 x3 x4 x5 x6 x7 (ix2 (srcNode x1 j) q)) + x8 (ix1 q) := by
  rw [out3_apply', agg3_apply]

end Cert.RefRead

end
-- ==== Proof.RefReadNorm.lean ====
/-
  The reference's row-normalised features, read at an entry.

  The features are divided, entry by entry, by their row sums: the row sum is the host's sum along the second axis
  (initial value zero), made a column and broadcast along the rows.
-/
import proofs.«117865_j31619549233339_2_alg».proof.Proof.Gen.ReferenceIdeal.Read
import proofs.«117865_j31619549233339_2_alg».proof.Proof.LibHostLayout

open scoped BigOperators

noncomputable section

namespace Cert.RefRead

open Cert.ReferenceIdeal Cert.ReferenceIdeal.Gen Cert.ReferenceIdeal.Read Idealize.ShloMosaic Idealize.ShloMosaic.ValueIdx

/-- The row sum of the features at row `p`. -/
theorem rowsum_apply (x0 : (⟨S100000x64, .f32⟩ : BufTy).Contents (Elt Ideal)) (p : Fin 100000) :
    val_main_v54 (F := Ideal) x0 (ix1 p) = 0 + ∑ k : Fin 64, x0 (ix2 p k) := by
  rw [val_main_v54_apply, val_main_cst_13_apply]
  refine congrArg₂ (· + ·) Ideal.ofBits_zero_f32 (Finset.sum_congr rfl fun k _ => congrArg x0 ?_)
  funext a
  match a with
  | ⟨0, _⟩ => rfl
  | ⟨1, _⟩ => rfl

/-- The row sums broadcast back over the columns. -/
theorem v56_at (x0 : (⟨S100000x64, .f32⟩ : BufTy).Contents (Elt Ideal)) (p : Fin 100000) (q : Fin 64) :
    val_main_v56 (F := Ideal) x0 (ix2 p q) = val_main_v54 (F := Ideal) x0 (ix1 p) := by
  unfold val_main_v56 val_main_v55
  rw [Cert.HostLayout.bcast_col_mat, Cert.HostLayout.bcast_vec_col]

/-- THE NORMALISED FEATURES at `(p, q)`: the entry divided (the host's division) by its row's sum. -/
theorem norm_apply (x0 : (⟨S100000x64, .f32⟩ : BufTy).Contents (Elt Ideal)) (p : Fin 100000) (q : Fin 64) :
    val_main_v57 (F := Ideal) x0 (ix2 p q) = Ideal.div (x0 (ix2 p q)) (0 + ∑ k : Fin 64, x0 (ix2 p k)) := by
  rw [val_main_v57_apply, v56_at, rowsum_apply]
  rfl

end Cert.RefRead

end
-- ==== Proof.LibGcnSelf.lean ====
/-
  A graph-convolution layer WITH SELF-LOOPS, on the extended reals, and the two host spellings of its edge sum.

  Nodes are `0 … N-1`. `A p` is the set of edges that arrive at node `p`, `sN e` the node an edge leaves, `d` a per-node
  factor (the reciprocal square root of the degree). For an `[N, C]` array `H` and a bias `b` the layer is

      out (p, q) = Σ over e ∈ A p of  H (sN e, q) · d (sN e) · d p   +   H (p, q) · d p · d p   +   b q .

  `layerK` sums the rows already scaled at the source, `H (sN e, q) · d (sN e)`, and multiplies the whole sum by `d p`
  afterwards; `layerR` multiplies every summand by the edge's own coefficient `d (sN e) · d (dN e)`, where `dN e` is the node
  the edge's destination entry names. On the edges of `A p` that node is `p`, and a nonnegative finite factor distributes
  over a sum of extended reals whatever the summands are: the two agree wherever `d` is nonnegative and finite. Nothing is
  asked of `H` or `b`.

  The host readings: the degree vector (ones summed per destination, plus one, reciprocal square root) with the two facts
  the law needs of it; the sum over arriving edges of gathered rows (`aggK_apply`), and of gathered rows times a per-edge
  coefficient made of two vector gathers (`aggR_apply`).
-/
import Idealize.ShloMosaic.PureOps.Ideal.Laws
import Idealize.ShloMosaic.Lib.ValueIdx
import proofs.«117865_j31619549233339_2_alg».proof.Proof.LibGcnHost

open scoped BigOperators

noncomputable section

namespace Cert.GcnSelf

open Idealize.ShloMosaic Idealize.ShloMosaic.ValueIdx Cert.GcnHost

/-! ## The layer, index by index -/

section Math

variable {N C M : ℕ} (A : Fin N → Finset (Fin M)) (sN dN : Fin M → Fin N) (d : Fin N → EReal)
  (H : Fin N → Fin C → EReal) (b : Fin C → EReal)

/-- The edge sum scaled after the fact: rows scaled at the source, summed, the sum scaled at the destination. -/
def layerK (p : Fin N) (q : Fin C) : EReal :=
  ((0 + ∑ e ∈ A p, H (sN e) q * d (sN e)) * d p + H p q * (d p * d p)) + b q

/-- Every summand times its edge's coefficient. -/
def layerR (p : Fin N) (q : Fin C) : EReal :=
  ((0 + ∑ e ∈ A p, H (sN e) q * (d (sN e) * d (dN e))) + H p q * (d p * d p)) + b q

/-- The two spellings agree when `d` is nonnegative and finite and every edge of `A p` names `p` as its destination. -/
theorem layer_eq (hd : ∀ p, 0 ≤ d p ∧ d p ≠ ⊤) (hdN : ∀ p, ∀ e ∈ A p, dN e = p) (p : Fin N) (q : Fin C) :
    layerK A sN d H b p q = layerR A sN dN d H b p q := by
  unfold layerK layerR
  congr 2
  rw [mul_comm]
  exact GcnFold.fold_out (A p) (d p) (hd p).1 (hd p).2 (fun e => H (sN e) q) (fun e => d (sN e)) (fun e => d (dN e))
    (fun e he => by rw [hdN p e he])

/-- Two layers with a rectifier between them and a matrix product in front of each: the hidden array before pooling. -/
def net {K0 : ℕ} (L : (Fin N → Fin C → EReal) → (Fin C → EReal) → Fin N → Fin C → EReal)
    (X : Fin N → Fin K0 → EReal) (W1 : Fin K0 → Fin C → EReal) (b1 : Fin C → EReal)
    (W2 : Fin C → Fin C → EReal) (b2 : Fin C → EReal) : Fin N → Fin C → EReal :=
  L (fun p q => ∑ k : Fin C, max (L (fun p' q' => ∑ k' : Fin K0, X p' k' * W1 k' q') b1 p k) 0 * W2 k q) b2

theorem net_congr {K0 : ℕ} (L L' : (Fin N → Fin C → EReal) → (Fin C → EReal) → Fin N → Fin C → EReal)
    (h : ∀ H b p q, L H b p q = L' H b p q)
    (X : Fin N → Fin K0 → EReal) (W1 : Fin K0 → Fin C → EReal) (b1 : Fin C → EReal)
    (W2 : Fin C → Fin C → EReal) (b2 : Fin C → EReal) (p : Fin N) (q : Fin C) :
    net L X W1 b1 W2 b2 p q = net L' X W1 b1 W2 b2 p q := by
  have e : L = L' := funext fun H => funext fun b => funext fun p => funext fun q => h H b p q
  rw [e]

end Math

/-! ## The degree factor -/

section Degree

variable {N M : ℕ}

/-- The factor at node `p`: the reciprocal square root of one plus the number of arriving edges. -/
def dinv (col : IVec ⟨1, ![M]⟩ 32) (p : Fin N) : EReal :=
  Ideal.rsqrt ((0 + ∑ _e ∈ arriving col p, (1 : EReal)) + 1)

theorem ofBits_one : Ideal.ofBits .f32 0x3F800000#32 = (1 : EReal) := by
  simp [Ideal.ofBits, Ideal.ieee, -EReal.coe_mul]; norm_num

/-- One plus a count is a positive real, so its reciprocal square root is a nonnegative real. -/
theorem dinv_facts (col : IVec ⟨1, ![M]⟩ 32) (p : Fin N) : 0 ≤ dinv col p ∧ dinv col p ≠ ⊤ := by
  unfold dinv
  have hs : (∑ _e ∈ arriving col p, (1 : EReal)) = (((arriving col p).card : ℝ) : EReal) := by
    simp
  have hd : ((0 : EReal) + ∑ _e ∈ arriving col p, (1 : EReal)) + 1 = ((((arriving col p).card : ℝ) + 1 : ℝ) : EReal) := by
    rw [zero_add, hs, EReal.coe_add, EReal.coe_one]
  have hpos : (0 : ℝ) < ((arriving col p).card : ℝ) + 1 := by positivity
  rw [hd, Ideal.rsqrt_coe, if_neg (not_lt.mpr hpos.le), if_neg hpos.ne']
  exact ⟨by exact_mod_cast inv_nonneg.mpr (Real.sqrt_nonneg _), EReal.coe_ne_top _⟩

theorem hostRsqrt_apply {s : Shape} (x : FVec Ideal s .f32) (i : s.Idx) :
    Host.rsqrt (F := Ideal) x i = Ideal.rsqrt (x i) := rfl

/-- The host's degree factor — ones summed per destination into a zero vector, plus one, reciprocal square root — at `p`. -/
theorem hostDinv_apply (sv : ScatterDims ⟨1, ![N]⟩ ⟨2, ![M, 1]⟩ ⟨1, ![M]⟩)
    (h1 : sv.updateWindowDims = []) (h2 : sv.insertedWindowDims = [0]) (h3 : sv.scatterDimsToOperandDims = [0])
    (h4 : sv.indexVectorDim = 1)
    (hzN : (⟨0, ![]⟩ : Shape).BroadcastsInDim ⟨1, ![N]⟩ ![]) (hzM : (⟨0, ![]⟩ : Shape).BroadcastsInDim ⟨1, ![M]⟩ ![])
    (hi : (⟨1, ![M]⟩ : Shape).BroadcastsInDim ⟨2, ![M, 1]⟩ ![0]) (col : IVec ⟨1, ![M]⟩ 32) (p : Fin N) :
    Host.rsqrt (F := Ideal) (addf (Host.scatterAdd sv (broadcastInDim ⟨1, ![N]⟩ ![] hzN (constant ⟨0, ![]⟩ .f32 0x00000000#32))
        (broadcastInDim ⟨2, ![M, 1]⟩ ![0] hi col) (broadcastInDim ⟨1, ![M]⟩ ![] hzM (constant ⟨0, ![]⟩ .f32 0x3F800000#32)))
      (broadcastInDim ⟨1, ![N]⟩ ![] hzN (constant ⟨0, ![]⟩ .f32 0x3F800000#32))) (ix1 p) = dinv col p := by
  rw [hostRsqrt_apply]
  unfold dinv arriving
  rw [addf_apply, SegmentSum.segSumVec_apply sv h1 h2 h3 h4,
    broadcastInDim_apply ![] hzN _ (ix1 p) ix0 (fun a => a.elim0),
    broadcastInDim_apply ![] hzN _ (ix1 p) ix0 (fun a => a.elim0), constant_apply, constant_apply,
    Ideal.ofBits_zero_f32, ofBits_one]
  congr 3
  refine Finset.sum_congr ?_ fun e _ => ?_
  · ext e
    simp only [Finset.mem_filter, Finset.mem_univ, true_and]
    rw [HostLayout.bcast_vec_col]
  · rw [broadcastInDim_apply ![] hzM _ (ix1 e) ix0 (fun a => a.elim0), constant_apply, ofBits_one]

end Degree

/-! ## The edge sums in the host's two spellings -/

section Sums

variable {N C M : ℕ}
  (gd : GatherDims ⟨2, ![N, C]⟩ ⟨2, ![M, 1]⟩ ⟨2, ![M, C]⟩) (sd : ScatterDims ⟨2, ![N, C]⟩ ⟨2, ![M, 1]⟩ ⟨2, ![M, C]⟩)
  (gv : GatherDims ⟨1, ![N]⟩ ⟨2, ![M, 1]⟩ ⟨1, ![M]⟩)
  (hi : (⟨1, ![M]⟩ : Shape).BroadcastsInDim ⟨2, ![M, 1]⟩ ![0])
  (hwc : (⟨2, ![M, 1]⟩ : Shape).BroadcastsInDim ⟨2, ![M, C]⟩ ![0, 1])
  (hz : (⟨0, ![]⟩ : Shape).BroadcastsInDim ⟨2, ![N, C]⟩ ![])
  (hN : 0 < N)
  (g1 : gd.offsetDims = [1]) (g2 : gd.collapsedSliceDims = [0]) (g3 : gd.operandBatchingDims = [])
  (g4 : gd.startIndicesBatchingDims = []) (g5 : gd.startIndexMap = [0]) (g6 : gd.indexVectorDim = 1)
  (g7 : gd.sliceSizes = ![1, C])
  (s1 : sd.updateWindowDims = [1]) (s2 : sd.insertedWindowDims = [0]) (s3 : sd.scatterDimsToOperandDims = [0])
  (s4 : sd.indexVectorDim = 1)
  (v1 : gv.offsetDims = []) (v2 : gv.collapsedSliceDims = [0]) (v3 : gv.operandBatchingDims = [])
  (v4 : gv.startIndicesBatchingDims = []) (v5 : gv.startIndexMap = [0]) (v6 : gv.indexVectorDim = 1)
  (v7 : gv.sliceSizes = ![1])

include g1 g2 g3 g4 g5 g6 g7 s1 s2 s3 s4 in
/-- Rows gathered along the edges (`rw`: the source entries) and summed per destination (`col`) into a zero array. -/
theorem aggK_apply (S : FVec Ideal ⟨2, ![N, C]⟩ .f32) (rw col : IVec ⟨1, ![M]⟩ 32) (p : Fin N) (q : Fin C) :
    Host.scatterAdd sd (broadcastInDim ⟨2, ![N, C]⟩ ![] hz (constant ⟨0, ![]⟩ .f32 0x00000000#32))
        (broadcastInDim ⟨2, ![M, 1]⟩ ![0] hi col) (Host.gather gd S (broadcastInDim ⟨2, ![M, 1]⟩ ![0] hi rw)) (ix2 p q)
      = 0 + ∑ e ∈ arriving col p, S (ix2 (node hN (rw (ix1 e))) q) := by
  unfold arriving
  rw [SegmentSum.segSumRows_apply sd s1 s2 s3 s4, HostLayout.bcast_scalar_mat, constant_apply, Ideal.ofBits_zero_f32]
  congr 1
  refine Finset.sum_congr ?_ fun e _ => ?_
  · ext e
    simp only [Finset.mem_filter, Finset.mem_univ, true_and]
    rw [HostLayout.bcast_vec_col]
  · rw [gather_rows_node hN gd g1 g2 g3 g4 g5 g6 g7, HostLayout.bcast_vec_col]

include g1 g2 g3 g4 g5 g6 g7 s1 s2 s3 s4 v1 v2 v3 v4 v5 v6 v7 in
/-- Rows gathered along the edges, each times the product of the factor gathered at its source entry (`rw`) and at its
    destination entry (`cw`), summed per destination (`col`) into a zero array. -/
theorem aggR_apply (H : FVec Ideal ⟨2, ![N, C]⟩ .f32) (dv : FVec Ideal ⟨1, ![N]⟩ .f32) (rw cw col : IVec ⟨1, ![M]⟩ 32)
    (p : Fin N) (q : Fin C) :
    Host.scatterAdd sd (broadcastInDim ⟨2, ![N, C]⟩ ![] hz (constant ⟨0, ![]⟩ .f32 0x00000000#32))
        (broadcastInDim ⟨2, ![M, 1]⟩ ![0] hi col)
        (mulf (Host.gather gd H (broadcastInDim ⟨2, ![M, 1]⟩ ![0] hi rw))
          (broadcastInDim ⟨2, ![M, C]⟩ ![0, 1] hwc (broadcastInDim ⟨2, ![M, 1]⟩ ![0] hi
            (mulf (Host.gather gv dv (broadcastInDim ⟨2, ![M, 1]⟩ ![0] hi rw))
              (Host.gather gv dv (broadcastInDim ⟨2, ![M, 1]⟩ ![0] hi cw)))))) (ix2 p q)
      = 0 + ∑ e ∈ arriving col p, H (ix2 (node hN (rw (ix1 e))) q)
          * (dv (ix1 (node hN (rw (ix1 e)))) * dv (ix1 (node hN (cw (ix1 e))))) := by
  unfold arriving
  rw [SegmentSum.segSumRows_apply sd s1 s2 s3 s4, HostLayout.bcast_scalar_mat, constant_apply, Ideal.ofBits_zero_f32]
  congr 1
  refine Finset.sum_congr ?_ fun e _ => ?_
  · ext e
    simp only [Finset.mem_filter, Finset.mem_univ, true_and]
    rw [HostLayout.bcast_vec_col]
  · rw [mulf_apply, gather_rows_node hN gd g1 g2 g3 g4 g5 g6 g7, HostLayout.bcast_col_mat, HostLayout.bcast_vec_col,
      HostLayout.bcast_vec_col, mulf_apply, gather_vec_node hN gv v1 v2 v3 v4 v5 v6 v7, gather_vec_node hN gv v1 v2 v3 v4 v5 v6 v7,
      HostLayout.bcast_vec_col, HostLayout.bcast_vec_col]

end Sums

end Cert.GcnSelf

end
-- ==== Proof.BridgeLayer.lean ====
/-
  The three layers: the kernel's result is the reference's, entry by entry.

  At a node p the reference's sum over the joined list splits into the edges arriving at p — the same edges, each term
  the kernel's (coefficient · gathered entry, the factors in the other order) — and p's own self-loop, whose term is
  (factor(p) · 1 · factor(p)) · H(p, q), the kernel's self-loop term. The two sides then differ only in how the sum of
  the three parts is bracketed. With the first layer's input (the row-normalised features) and every dense product the
  same function on both sides, each layer's result is the same array.
-/
import proofs.«117865_j31619549233339_2_alg».proof.Proof.KLayer
import proofs.«117865_j31619549233339_2_alg».proof.Proof.BridgeNorm
import proofs.«117865_j31619549233339_2_alg».proof.Proof.RefReadLayer1
import proofs.«117865_j31619549233339_2_alg».proof.Proof.RefReadLayer2
import proofs.«117865_j31619549233339_2_alg».proof.Proof.RefReadLayer3
import proofs.«117865_j31619549233339_2_alg».proof.Proof.RefReadNorm
import proofs.«117865_j31619549233339_2_alg».proof.Proof.LibGcnSelf

noncomputable section

namespace Cert.Bridge

open Idealize.ShloMosaic Idealize.ShloMosaic.ValueIdx Cert.KVal Cert.RefRead Cert.Dense Cert.KSpec
open Cert.ReferenceIdeal.Read

variable (x1 : IA Cert.KernelIdeal.S2x1600000) (x2 : FA Cert.KernelIdeal.S1600000)

/-- THE LAW: at node `p`, for any per-node value `h` (a column of a layer's dense product), the reference's sum over the
    joined list is the kernel's sum over the arriving edges plus the kernel's self-loop term. -/
theorem layer_sum (h : Fin 100000 → EReal) (p : Fin 100000) :
    ∑ j ∈ Finset.univ.filter (fun j : Fin 1700000 => (val_main_v28 (F := Ideal) x1 (ix1 j)).toInt = (p.val : Int)),
        val_main_v53 (F := Ideal) x1 x2 (ix1 j) * h (srcNode x1 j)
      = ∑ e ∈ arr (dst x1) p, h (nd (wrap (src x1) (ix1 e))) * norm x1 x2 (ix1 e)
        + (dinv x1 x2 (ix1 p) * dinv x1 x2 (ix1 p)) * h p := by
  rw [sum_joined, filter_edge,
    sum_loop x1 p (fun i => val_main_v53 (F := Ideal) x1 x2 (ix1 (loopJ i)) * h (srcNode x1 (loopJ i))),
    coef_loop, srcNode_loop, Cert.GcnSelf.ofBits_one, mul_one]
  have hs : ∑ e ∈ arr (dst x1) p, val_main_v53 (F := Ideal) x1 x2 (ix1 (edgeJ e)) * h (srcNode x1 (edgeJ e))
      = ∑ e ∈ arr (dst x1) p, h (nd (wrap (src x1) (ix1 e))) * norm x1 x2 (ix1 e) :=
    Finset.sum_congr rfl fun e _ => by rw [coef_edge, srcNode_edge, mul_comm]
  rw [hs]

/-- One layer before its activation, entry by entry: kernel's bracketing against the reference's. -/
theorem layer_entry (h : Fin 100000 → EReal) (p : Fin 100000) (b : EReal) :
    ((0 + ∑ e ∈ arr (dst x1) p, h (nd (wrap (src x1) (ix1 e))) * norm x1 x2 (ix1 e))
        + (dinv x1 x2 (ix1 p) * dinv x1 x2 (ix1 p)) * h p) + b
      = (0 + ∑ j ∈ Finset.univ.filter (fun j : Fin 1700000 => (val_main_v28 (F := Ideal) x1 (ix1 j)).toInt = (p.val : Int)),
          val_main_v53 (F := Ideal) x1 x2 (ix1 j) * h (srcNode x1 j)) + b := by
  rw [layer_sum, add_assoc 0]

variable (x0 : FA Cert.KernelIdeal.S100000x64) (x3 : FA Cert.KernelIdeal.S64x64) (x4 : FA Cert.KernelIdeal.S64)
  (x5 : FA Cert.KernelIdeal.S64x64) (x6 : FA Cert.KernelIdeal.S64) (x7 : FA Cert.KernelIdeal.S64x1) (x8 : FA Cert.KernelIdeal.S1)

/-- The row-normalised features are the reference's. -/
theorem normalize_eq : normalize (M := 100000) (N := 64) x0 = val_main_v57 (F := Ideal) x0 := by
  funext i
  obtain ⟨p, q, rfl⟩ : ∃ (p : Fin 100000) (q : Fin 64), i = ix2 p q := ⟨i 0, i 1, eq_ix2 i⟩
  rw [normalize_apply, Cert.RefRead.norm_apply, zero_add]

/-- The first layer's dense product is the reference's. -/
theorem h1_eq : h1 x0 x3 = val_main_v58 (F := Ideal) x0 x3 := by
  unfold h1 val_main_v58
  rw [normalize_eq]
  exact (hostDot_eq_mm Cert.ReferenceIdeal.dot_S100000x64_S64x64_S100000x64_1_0_0_1_n_n rfl rfl rfl rfl rfl rfl none _ _).symm

/-- The first layer's result is the reference's. -/
theorem y1_eq : y1 x1 x2 x0 x3 x4 = val_main_v75 (F := Ideal) x0 x1 x2 x3 x4 := by
  funext i
  obtain ⟨p, q, rfl⟩ : ∃ (p : Fin 100000) (q : Fin 64), i = ix2 p q := ⟨i 0, i 1, eq_ix2 i⟩
  unfold y1
  rw [out64_apply, relu1_apply, Cert.RefRead.out1_apply, h1_eq]
  exact congrArg (fun v => max v 0)
    (layer_entry x1 x2 (fun n => val_main_v58 (F := Ideal) x0 x3 (ix2 n q)) p (x4 (ix1 q)))

/-- The second layer's dense product is the reference's. -/
theorem h2_eq : h2 x1 x2 x0 x3 x4 x5 = val_main_v76 (F := Ideal) x0 x1 x2 x3 x4 x5 := by
  unfold h2 val_main_v76
  rw [y1_eq]
  exact (hostDot_eq_mm Cert.ReferenceIdeal.dot_S100000x64_S64x64_S100000x64_1_0_0_1_n_n rfl rfl rfl rfl rfl rfl none _ _).symm

/-- The second layer's result is the reference's. -/
theorem y2_eq : y2 x1 x2 x0 x3 x4 x5 x6 = val_main_v93 (F := Ideal) x0 x1 x2 x3 x4 x5 x6 := by
  funext i
  obtain ⟨p, q, rfl⟩ : ∃ (p : Fin 100000) (q : Fin 64), i = ix2 p q := ⟨i 0, i 1, eq_ix2 i⟩
  unfold y2
  rw [out64_apply, relu2_apply, Cert.RefRead.out2_apply, h2_eq]
  exact congrArg (fun v => max v 0)
    (layer_entry x1 x2 (fun n => val_main_v76 (F := Ideal) x0 x1 x2 x3 x4 x5 (ix2 n q)) p (x6 (ix1 q)))

/-- The last layer's dense product is the reference's. -/
theorem h3_eq : h3 x1 x2 x0 x3 x4 x5 x6 x7 = val_main_v94 (F := Ideal) x0 x1 x2 x3 x4 x5 x6 x7 := by
  unfold h3 val_main_v94
  rw [y2_eq]
  exact (hostDot_eq_mm Cert.ReferenceIdeal.dot_S100000x64_S64x1_S100000x1_1_0_0_1_n_n rfl rfl rfl rfl rfl rfl none _ _).symm

/-- THE RESULT: the kernel's result array is the reference's. -/
theorem y3_eq : y3 x1 x2 x0 x3 x4 x5 x6 x7 x8 = val_main_v109 (F := Ideal) x0 x1 x2 x3 x4 x5 x6 x7 x8 := by
  funext i
  obtain ⟨p, q, rfl⟩ : ∃ (p : Fin 100000) (q : Fin 1), i = ix2 p q := ⟨i 0, i 1, eq_ix2 i⟩
  unfold y3
  rw [Cert.KVal.out1_apply, Cert.RefRead.out3_apply, h3_eq]
  exact layer_entry x1 x2 (fun n => val_main_v94 (F := Ideal) x0 x1 x2 x3 x4 x5 x6 x7 (ix2 n q)) p (x8 (ix1 q))

end Cert.Bridge

end
-- ==== Proof.lean ====
/-
  The certificate of the three-layer graph convolution: the kernel (ten TensorCore regions among stretches of host
  gathers and segment sums) against its jnp reference, over the extended reals.

  Both programs first compute, by the same host operations, the edges' normalised weights. The reference then appends a
  self-loop of weight one per node to the edge list and runs three layers, each a dense product, a gather along the
  joined list, a product with the joined coefficient and a segment sum per destination, plus a bias. The kernel keeps
  the edge list as it is: its node degree is the edges' segment sum plus one, each layer sums over the edges only and
  adds the self-loop's term (factor squared times the node's own row) in the combining region.

  The three frames are the generated ones (the reference's is its generated run with the result dropped); the ideal
  pass rewrote nothing. For the value claim the kernel's run is read through its twenty-one segments to one function
  of the arguments (KRun, KChainA … KChainE over the regions' values RegVal0 … RegVal9), the reference's generated run
  is read at an index where the generated reading stops (RefRead…), and the two functions are equal entry by entry
  (BridgeDeg, BridgeNorm, BridgeLayer): at every node the joined sum is the edges' sum plus the node's own self-loop,
  and the two sides then differ only in the bracketing of a sum of three terms. No finiteness is used.
-/
import proofs.«117865_j31619549233339_2_alg».proof.Defs
import proofs.«117865_j31619549233339_2_alg».proof.Proof.Gen.Kernel
import proofs.«117865_j31619549233339_2_alg».proof.Proof.Gen.Kernel.Skeleton
import proofs.«117865_j31619549233339_2_alg».proof.Proof.Gen.Kernel.Launch
import proofs.«117865_j31619549233339_2_alg».proof.Proof.Gen.Kernel.Points
import proofs.«117865_j31619549233339_2_alg».proof.Proof.Gen.Kernel.Frame
import proofs.«117865_j31619549233339_2_alg».proof.Proof.Gen.KernelIdeal
import proofs.«117865_j31619549233339_2_alg».proof.Proof.Gen.KernelIdeal.Skeleton
import proofs.«117865_j31619549233339_2_alg».proof.Proof.Gen.KernelIdeal.Launch
import proofs.«117865_j31619549233339_2_alg».proof.Proof.Gen.KernelIdeal.Points
import proofs.«117865_j31619549233339_2_alg».proof.Proof.Gen.KernelIdeal.Frame
import proofs.«117865_j31619549233339_2_alg».proof.Proof.Gen.ReferenceIdeal
import proofs.«117865_j31619549233339_2_alg».proof.Proof.Gen.ReferenceIdeal.Run
import proofs.«117865_j31619549233339_2_alg».proof.Proof.Gen.ReferenceIdeal.Read
import proofs.«117865_j31619549233339_2_alg».proof.Proof.Gen.Pre_finite_inputs
import proofs.«117865_j31619549233339_2_alg».proof.Proof.KRun
import proofs.«117865_j31619549233339_2_alg».proof.Proof.KChainE
import proofs.«117865_j31619549233339_2_alg».proof.Proof.BridgeLayer
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The kernel's run ends with its result buffer at the kernel's value of the arguments, the reference's at the
    reference's composed term of arguments that agree: one function, entry by entry. -/
theorem algebraic : Cert.algebraic_KernelIdeal_ReferenceIdeal := by
  intro m ρ m' ρ' _ hagree
  refine ⟨fun c => Cert.KVal.y3 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ⟨(h c).1.trans ?_, (h c).2⟩)
      (Cert.KernelIdeal.KRun.run_named (F := Ideal) m ρ)
    exact Cert.KernelIdeal.KChain.result m ρ c
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v109_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]
    exact (Cert.Bridge.y3_eq _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
